-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v18)) (v1 : (c : Dev Cert.KernelIdeal.nD) → Buf (Elt Ideal) ((c.tc : Thread Cert.KernelIdeal.nD Cert.KernelIdeal.τ).loc Cert.KernelIdeal.main_v19)) (v2 : (c : Dev Cert.KernelIdeal.nD) → Buf (Elt Ideal) ((c.tc : Thread Cert.KernelIdeal.nD Cert.KernelIdeal.τ).loc Cert.KernelIdeal.main_v15_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_v19) = v1 c
          ∧ r.2.mem ((c.tc : Thread Cert.KernelIdeal.nD Cert.KernelIdeal.τ).loc Cert.KernelIdeal.main_v15_1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_v49) = v1 c
          ∧ r.2.mem ((c.tc : Thread Cert.ReferenceIdeal.nD Cert.ReferenceIdeal.τ).loc Cert.ReferenceIdeal.main_v26) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1 : Shape := ⟨1, ![1]⟩
abbrev S1x1x1024 : Shape := ⟨3, ![1, 1, 1024]⟩
abbrev S12x1024 : Shape := ⟨2, ![12, 1024]⟩
abbrev S50257x1024 : Shape := ⟨2, ![50257, 1024]⟩
abbrev S12x2048 : Shape := ⟨2, ![12, 2048]⟩
abbrev S12 : Shape := ⟨1, ![12]⟩
abbrev S1024x2048 : Shape := ⟨2, ![1024, 2048]⟩
abbrev S1024 : Shape := ⟨1, ![1024]⟩
abbrev S1024x1024 : Shape := ⟨2, ![1024, 1024]⟩
abbrev S50257 : Shape := ⟨1, ![50257]⟩
abbrev S_ : Shape := ⟨0, ![]⟩

class Facts : Prop where
  bcast_S_S1x1x1024 : S_.BroadcastsInDim S1x1x1024 (![] : Fin 0 → Fin S1x1x1024.rank)
  reducesTo_S1x1x1024_S_d0_1_2 : S1x1x1024.ReducesTo [0, 1, 2] S_
  h_S_ : 0 < S_.numel
  bcast_S_S12x1024 : S_.BroadcastsInDim S12x1024 (![] : Fin 0 → Fin S12x1024.rank)
  reducesTo_S12x1024_S_d0_1 : S12x1024.ReducesTo [0, 1] S_
  bcast_S_S50257x1024 : S_.BroadcastsInDim S50257x1024 (![] : Fin 0 → Fin S50257x1024.rank)
  reducesTo_S50257x1024_S_d0_1 : S50257x1024.ReducesTo [0, 1] S_
  bcast_S_S12x2048 : S_.BroadcastsInDim S12x2048 (![] : Fin 0 → Fin S12x2048.rank)
  reducesTo_S12x2048_S_d0_1 : S12x2048.ReducesTo [0, 1] S_
  bcast_S_S12 : S_.BroadcastsInDim S12 (![] : Fin 0 → Fin S12.rank)
  reducesTo_S12_S_d0 : S12.ReducesTo [0] S_
  bcast_S_S1024x2048 : S_.BroadcastsInDim S1024x2048 (![] : Fin 0 → Fin S1024x2048.rank)
  reducesTo_S1024x2048_S_d0_1 : S1024x2048.ReducesTo [0, 1] S_
  bcast_S_S1024 : S_.BroadcastsInDim S1024 (![] : Fin 0 → Fin S1024.rank)
  reducesTo_S1024_S_d0 : S1024.ReducesTo [0] S_
  bcast_S_S1024x1024 : S_.BroadcastsInDim S1024x1024 (![] : Fin 0 → Fin S1024x1024.rank)
  reducesTo_S1024x1024_S_d0_1 : S1024x1024.ReducesTo [0, 1] S_
  bcast_S_S50257 : S_.BroadcastsInDim S50257 (![] : Fin 0 → Fin S50257.rank)
  reducesTo_S50257_S_d0 : S50257.ReducesTo [0] S_

variable [Facts]

def fn_part3 {F : FTy → Type} [FloatOps F] (main_arg12 : FVec F S50257x1024 .f32) (main_arg13 : FVec F S50257 .f32) (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  let main_v54 : FVec F S50257x1024 .f32 := Host.absf main_arg12
  let main_cst_20 : FVec F S_ .f32 := constant S_ .f32 0x7F800000#32
  let main_v55 : FVec F S50257x1024 .f32 := broadcastInDim S50257x1024 ![] bcast_S_S50257x1024 main_cst_20
  let main_v56 : IVec S50257x1024 1 := cmpf .olt main_v54 main_v55
  let main_c_21 : IVec S_ 1 := constantI S_ 1 1#1
  let main_v57 : IVec S_ 1 := (fun x v => Host.reduce IntOp.andi x v reducesTo_S50257x1024_S_d0_1 h_S_) main_v56 main_c_21
  let main_v58 : IVec S_ 1 := andi main_v53 main_v57
  let main_v59 : FVec F S50257 .f32 := Host.absf main_arg13
  let main_cst_22 : FVec F S_ .f32 := constant S_ .f32 0x7F800000#32
  let main_v60 : FVec F S50257 .f32 := broadcastInDim S50257 ![] bcast_S_S50257 main_cst_22
  let main_v61 : IVec S50257 1 := cmpf .olt main_v59 main_v60
  let main_c_23 : IVec S_ 1 := constantI S_ 1 1#1
  let main_v62 : IVec S_ 1 := (fun x v => Host.reduce IntOp.andi x v reducesTo_S50257_S_d0 h_S_) main_v61 main_c_23
  let main_v63 : IVec S_ 1 := andi main_v58 main_v62
  main_v63

def fn_part2 {F : FTy → Type} [FloatOps F] (main_arg8 : FVec F S1024x1024 .f32) (main_arg9 : FVec F S1024x1024 .f32) (main_arg10 : FVec F S1024 .f32) (main_arg11 : FVec F S1024 .f32) (main_arg12 : FVec F S50257x1024 .f32) (main_arg13 : FVec F S50257 .f32) (main_v33 : IVec S_ 1) : IVec S_ 1 :=
  let main_v34 : FVec F S1024x1024 .f32 := Host.absf main_arg8
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024x1024 .f32 := Host.absf main_arg9
  let main_cst_14 : FVec F S_ .f32 := constant S_ .f32 0x7F800000#32
  let main_v40 : FVec F S1024x1024 .f32 := broadcastInDim S1024x1024 ![] bcast_S_S1024x1024 main_cst_14
  let main_v41 : IVec S1024x1024 1 := cmpf .olt main_v39 main_v40
  let main_c_15 : IVec S_ 1 := constantI S_ 1 1#1
  let main_v42 : IVec S_ 1 := (fun x v => Host.reduce IntOp.andi x v reducesTo_S1024x1024_S_d0_1 h_S_) main_v41 main_c_15
  let main_v43 : IVec S_ 1 := andi main_v38 main_v42
  let main_v44 : FVec F S1024 .f32 := Host.absf main_arg10
  let main_cst_16 : FVec F S_ .f32 := constant S_ .f32 0x7F800000#32
  let main_v45 : FVec F S1024 .f32 := broadcastInDim S1024 ![] bcast_S_S1024 main_cst_16
  let main_v46 : IVec S1024 1 := cmpf .olt main_v44 main_v45
  let main_c_17 : IVec S_ 1 := constantI S_ 1 1#1
  let main_v47 : IVec S_ 1 := (fun x v => Host.reduce IntOp.andi x v reducesTo_S1024_S_d0 h_S_) main_v46 main_c_17
  let main_v48 : IVec S_ 1 := andi main_v43 main_v47
  let main_v49 : FVec F S1024 .f32 := Host.absf main_arg11
  let main_cst_18 : FVec F S_ .f32 := constant S_ .f32 0x7F800000#32
  let main_v50 : FVec F S1024 .f32 := broadcastInDim S1024 ![] bcast_S_S1024 main_cst_18
  fn_part3 (F := F) main_arg12 main_arg13 main_v48 main_v49 main_v50

def fn_part1 {F : FTy → Type} [FloatOps F] (main_arg5 : FVec F S12 .f32) (main_arg6 : FVec F S1024x2048 .f32) (main_arg7 : FVec F S1024 .f32) (main_arg8 : FVec F S1024x1024 .f32) (main_arg9 : FVec F S1024x1024 .f32) (main_arg10 : FVec F S1024 .f32) (main_arg11 : FVec F S1024 .f32) (main_arg12 : FVec F S50257x1024 .f32) (main_arg13 : FVec F S50257 .f32) (main_v13 : IVec S_ 1) (main_v16 : IVec S12x2048 1) : IVec S_ 1 :=
  let main_c_5 : IVec S_ 1 := constantI S_ 1 1#1
  let main_v17 : IVec S_ 1 := (fun x v => Host.reduce IntOp.andi x v reducesTo_S12x2048_S_d0_1 h_S_) main_v16 main_c_5
  let main_v18 : IVec S_ 1 := andi main_v13 main_v17
  let main_v19 : FVec F S12 .f32 := Host.absf main_arg5
  let main_cst_6 : FVec F S_ .f32 := constant S_ .f32 0x7F800000#32
  let main_v20 : FVec F S12 .f32 := broadcastInDim S12 ![] bcast_S_S12 main_cst_6
  let main_v21 : IVec S12 1 := cmpf .olt main_v19 main_v20
  let main_c_7 : IVec S_ 1 := constantI S_ 1 1#1
  let main_v22 : IVec S_ 1 := (fun x v => Host.reduce IntOp.andi x v reducesTo_S12_S_d0 h_S_) main_v21 main_c_7
  let main_v23 : IVec S_ 1 := andi main_v18 main_v22
  let main_v24 : FVec F S1024x2048 .f32 := Host.absf main_arg6
  let main_cst_8 : FVec F S_ .f32 := constant S_ .f32 0x7F800000#32
  let main_v25 : FVec F S1024x2048 .f32 := broadcastInDim S1024x2048 ![] bcast_S_S1024x2048 main_cst_8
  let main_v26 : IVec S1024x2048 1 := cmpf .olt main_v24 main_v25
  let main_c_9 : IVec S_ 1 := constantI S_ 1 1#1
  let main_v27 : IVec S_ 1 := (fun x v => Host.reduce IntOp.andi x v reducesTo_S1024x2048_S_d0_1 h_S_) main_v26 main_c_9
  let main_v28 : IVec S_ 1 := andi main_v23 main_v27
  let main_v29 : FVec F S1024 .f32 := Host.absf main_arg7
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg8 main_arg9 main_arg10 main_arg11 main_arg12 main_arg13 main_v33

def fn {F : FTy → Type} [FloatOps F] (main_arg0 : IVec S1 32) (main_arg1 : FVec F S1x1x1024 .f32) (main_arg2 : FVec F S12x1024 .f32) (main_arg3 : FVec F S50257x1024 .f32) (main_arg4 : FVec F S12x2048 .f32) (main_arg5 : FVec F S12 .f32) (main_arg6 : FVec F S1024x2048 .f32) (main_arg7 : FVec F S1024 .f32) (main_arg8 : FVec F S1024x1024 .f32) (main_arg9 : FVec F S1024x1024 .f32) (main_arg10 : FVec F S1024 .f32) (main_arg11 : FVec F S1024 .f32) (main_arg12 : FVec F S50257x1024 .f32) (main_arg13 : FVec F S50257 .f32) : IVec S_ 1 :=
  let main_v0 : FVec F S1x1x1024 .f32 := Host.absf main_arg1
  let main_cst : FVec F S_ .f32 := constant S_ .f32 0x7F800000#32
  let main_v1 : FVec F S1x1x1024 .f32 := broadcastInDim S1x1x1024 ![] bcast_S_S1x1x1024 main_cst
  let main_v2 : IVec S1x1x1024 1 := cmpf .olt main_v0 main_v1
  let main_c : IVec S_ 1 := constantI S_ 1 1#1
  let main_v3 : IVec S_ 1 := (fun x v => Host.reduce IntOp.andi x v reducesTo_S1x1x1024_S_d0_1_2 h_S_) main_v2 main_c
  let main_v4 : FVec F S12x1024 .f32 := Host.absf main_arg2
  let main_cst_0 : FVec F S_ .f32 := constant S_ .f32 0x7F800000#32
  let main_v5 : FVec F S12x1024 .f32 := broadcastInDim S12x1024 ![] bcast_S_S12x1024 main_cst_0
  let main_v6 : IVec S12x1024 1 := cmpf .olt main_v4 main_v5
  let main_c_1 : IVec S_ 1 := constantI S_ 1 1#1
  let main_v7 : IVec S_ 1 := (fun x v => Host.reduce IntOp.andi x v reducesTo_S12x1024_S_d0_1 h_S_) main_v6 main_c_1
  let main_v8 : IVec S_ 1 := andi main_v3 main_v7
  let main_v9 : FVec F S50257x1024 .f32 := Host.absf main_arg3
  let main_cst_2 : FVec F S_ .f32 := constant S_ .f32 0x7F800000#32
  let main_v10 : FVec F S50257x1024 .f32 := broadcastInDim S50257x1024 ![] bcast_S_S50257x1024 main_cst_2
  let main_v11 : IVec S50257x1024 1 := cmpf .olt main_v9 main_v10
  let main_c_3 : IVec S_ 1 := constantI S_ 1 1#1
  let main_v12 : IVec S_ 1 := (fun x v => Host.reduce IntOp.andi x v reducesTo_S50257x1024_S_d0_1 h_S_) main_v11 main_c_3
  let main_v13 : IVec S_ 1 := andi main_v8 main_v12
  let main_v14 : FVec F S12x2048 .f32 := Host.absf main_arg4
  let main_cst_4 : FVec F S_ .f32 := constant S_ .f32 0x7F800000#32
  let main_v15 : FVec F S12x2048 .f32 := broadcastInDim S12x2048 ![] bcast_S_S12x2048 main_cst_4
  let main_v16 : IVec S12x2048 1 := cmpf .olt main_v14 main_v15
  fn_part1 (F := F) main_arg5 main_arg6 main_arg7 main_arg8 main_arg9 main_arg10 main_arg11 main_arg12 main_arg13 main_v13 main_v16
-- ==== Kernel.lean ====
abbrev S1 : Shape := ⟨1, ![1]⟩
abbrev S1x1x1024 : Shape := ⟨3, ![1, 1, 1024]⟩
abbrev S12x1024 : Shape := ⟨2, ![12, 1024]⟩
abbrev S50257x1024 : Shape := ⟨2, ![50257, 1024]⟩
abbrev S12x2048 : Shape := ⟨2, ![12, 2048]⟩
abbrev S12 : Shape := ⟨1, ![12]⟩
abbrev S1024x2048 : Shape := ⟨2, ![1024, 2048]⟩
abbrev S1024 : Shape := ⟨1, ![1024]⟩
abbrev S1024x1024 : Shape := ⟨2, ![1024, 1024]⟩
abbrev S50257 : Shape := ⟨1, ![50257]⟩
abbrev S_ : Shape := ⟨0, ![]⟩
abbrev S1x1024 : Shape := ⟨2, ![1, 1024]⟩
abbrev S1x12 : Shape := ⟨2, ![1, 12]⟩
abbrev S1x2048 : Shape := ⟨2, ![1, 2048]⟩
abbrev S2048x12 : Shape := ⟨2, ![2048, 12]⟩
abbrev S1x1 : Shape := ⟨2, ![1, 1]⟩
abbrev S2048x1024 : Shape := ⟨2, ![2048, 1024]⟩
abbrev S1x50257 : Shape := ⟨2, ![1, 50257]⟩
abbrev S3584x1024 : Shape := ⟨2, ![3584, 1024]⟩
abbrev S1x3584 : Shape := ⟨2, ![1, 3584]⟩
abbrev S1024x3584 : Shape := ⟨2, ![1024, 3584]⟩

abbrev nBuf : Space → Nat
  | .hbm => 56
  | .vmem => 20
  | .smem => 0
  | _ => 0

abbrev bufTy : (tb : Table) → Fin (tcTables nBuf tb) → BufTy
  | .hbm, ⟨0, _⟩ => ⟨S1, .i32⟩
  | .hbm, ⟨1, _⟩ => ⟨S1x1x1024, .f32⟩
  | .hbm, ⟨2, _⟩ => ⟨S12x1024, .f32⟩
  | .hbm, ⟨3, _⟩ => ⟨S50257x1024, .f32⟩
  | .hbm, ⟨4, _⟩ => ⟨S12x2048, .f32⟩
  | .hbm, ⟨5, _⟩ => ⟨S12, .f32⟩
  | .hbm, ⟨6, _⟩ => ⟨S1024x2048, .f32⟩
  | .hbm, ⟨7, _⟩ => ⟨S1024, .f32⟩
  | .hbm, ⟨8, _⟩ => ⟨S1024x1024, .f32⟩
  | .hbm, ⟨9, _⟩ => ⟨S1024x1024, .f32⟩
  | .hbm, ⟨10, _⟩ => ⟨S1024, .f32⟩
  | .hbm, ⟨11, _⟩ => ⟨S1024, .f32⟩
  | .hbm, ⟨12, _⟩ => ⟨S50257x1024, .f32⟩
  | .hbm, ⟨13, _⟩ => ⟨S50257, .f32⟩
  | .hbm, ⟨14, _⟩ => ⟨S_, .i32⟩
  | .hbm, ⟨15, _⟩ => ⟨S_, .i32⟩
  | .hbm, ⟨16, _⟩ => ⟨S_, .i1⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S_, .i1⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S1x1024, .f32⟩
  | .hbm, ⟨29, _⟩ => ⟨S1024, .f32⟩
  | .hbm, ⟨30, _⟩ => ⟨S1x1024, .f32⟩
  | .hbm, ⟨31, _⟩ => ⟨S1x1024, .f32⟩
  | .hbm, ⟨32, _⟩ => ⟨S1x12, .f32⟩
  | .hbm, ⟨33, _⟩ => ⟨S1x1024, .f32⟩
  | .hbm, ⟨34, _⟩ => ⟨S1x1024, .f32⟩
  | .hbm, ⟨35, _⟩ => ⟨S1x1024, .f32⟩
  | .hbm, ⟨36, _⟩ => ⟨S1x1024, .f32⟩
  | .hbm, ⟨37, _⟩ => ⟨S1x12, .f32⟩
  | .hbm, ⟨38, _⟩ => ⟨S1x50257, .f32⟩
  | .hbm, ⟨39, _⟩ => ⟨S1x50257, .f32⟩
  | .hbm, ⟨40, _⟩ => ⟨S_, .f32⟩
  | .hbm, ⟨41, _⟩ => ⟨S1, .f32⟩
  | .hbm, ⟨42, _⟩ => ⟨S_, .f32⟩
  | .hbm, ⟨43, _⟩ => ⟨S1, .f32⟩
  | .hbm, ⟨44, _⟩ => ⟨S1, .f32⟩
  | .hbm, ⟨45, _⟩ => ⟨S1x1, .f32⟩
  | .hbm, ⟨46, _⟩ => ⟨S1x50257, .f32⟩
  | .hbm, ⟨47, _⟩ => ⟨S1x50257, .f32⟩
  | .hbm, ⟨48, _⟩ => ⟨S1x50257, .f32⟩
  | .hbm, ⟨49, _⟩ => ⟨S_, .f32⟩
  | .hbm, ⟨50, _⟩ => ⟨S1, .f32⟩
  | .hbm, ⟨51, _⟩ => ⟨S1x1, .f32⟩
  | .hbm, ⟨52, _⟩ => ⟨S1x1, .f32⟩
  | .hbm, ⟨53, _⟩ => ⟨S1x50257, .f32⟩
  | .hbm, ⟨54, _⟩ => ⟨S1x50257, .f32⟩
  | .hbm, ⟨55, _⟩ => ⟨S1x1x1024, .f32⟩
  | .local _ .vmem, ⟨0, _⟩ => ⟨S1x1024, .f32⟩
  | .local _ .vmem, ⟨1, _⟩ => ⟨S1x1024, .f32⟩
  | .local _ .vmem, ⟨2, _⟩ => ⟨S12x1024, .f32⟩
  | .local _ .vmem, ⟨3, _⟩ => ⟨S12x2048, .f32⟩
  | .local _ .vmem, ⟨4, _⟩ => ⟨S1x12, .f32⟩
  | .local _ .vmem, ⟨5, _⟩ => ⟨S1024x2048, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S1x12, .f32⟩
  | .local _ .vmem, ⟨13, _⟩ => ⟨S1x1024, .f32⟩
  | .local _ .vmem, ⟨14, _⟩ => ⟨S3584x1024, .f32⟩
  | .local _ .vmem, ⟨15, _⟩ => ⟨S3584x1024, .f32⟩
  | .local _ .vmem, ⟨16, _⟩ => ⟨S1x3584, .f32⟩
  | .local _ .vmem, ⟨17, _⟩ => ⟨S1x3584, .f32⟩
  | .local _ .vmem, ⟨18, _⟩ => ⟨S1x3584, .f32⟩
  | .local _ .vmem, ⟨19, _⟩ => ⟨S1x3584, .f32⟩
  | _, _ => ⟨S1, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_c : Ref sig .tc := ⟨.hbm, 15, rfl⟩
abbrev main_v1 : Ref sig .tc := ⟨.hbm, 16, rfl⟩
abbrev main_c_0 : Ref sig .tc := ⟨.hbm, 17, rfl⟩
abbrev main_v2 : Ref sig .tc := ⟨.hbm, 18, rfl⟩
abbrev main_v3 : Ref sig .tc := ⟨.hbm, 19, rfl⟩
abbrev main_c_1 : Ref sig .tc := ⟨.hbm, 20, rfl⟩
abbrev main_c_2 : Ref sig .tc := ⟨.hbm, 21, rfl⟩
abbrev main_v4 : Ref sig .tc := ⟨.hbm, 22, rfl⟩
abbrev main_c_3 : Ref sig .tc := ⟨.hbm, 23, rfl⟩
abbrev main_c_4 : Ref sig .tc := ⟨.hbm, 24, rfl⟩
abbrev main_v5 : Ref sig .tc := ⟨.hbm, 25, rfl⟩
abbrev main_c_5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15_0 : Ref sig .tc := ⟨.hbm, 36, rfl⟩
abbrev main_v15_1 : Ref sig .tc := ⟨.hbm, 37, rfl⟩
abbrev main_v16 : Ref sig .tc := ⟨.hbm, 38, rfl⟩
abbrev main_v17 : Ref sig .tc := ⟨.hbm, 39, rfl⟩
abbrev main_call0_cst : Ref sig .tc := ⟨.hbm, 40, rfl⟩
abbrev main_call0_v0 : Ref sig .tc := ⟨.hbm, 41, rfl⟩
abbrev main_call0_cst_0 : Ref sig .tc := ⟨.hbm, 42, rfl⟩
abbrev main_call0_v1 : Ref sig .tc := ⟨.hbm, 43, rfl⟩
abbrev main_call0_v2 : Ref sig .tc := ⟨.hbm, 44, rfl⟩
abbrev main_call0_v3 : Ref sig .tc := ⟨.hbm, 45, rfl⟩
abbrev main_call0_v4 : Ref sig .tc := ⟨.hbm, 46, rfl⟩
abbrev main_call0_v5 : Ref sig .tc := ⟨.hbm, 47, rfl⟩
abbrev main_call0_v6 : Ref sig .tc := ⟨.hbm, 48, rfl⟩
abbrev main_call0_cst_1 : Ref sig .tc := ⟨.hbm, 49, rfl⟩
abbrev main_call0_v7 : Ref sig .tc := ⟨.hbm, 50, rfl⟩
abbrev main_call0_v8 : Ref sig .tc := ⟨.hbm, 51, rfl⟩
abbrev main_call0_v9 : Ref sig .tc := ⟨.hbm, 52, rfl⟩
abbrev main_call0_v10 : Ref sig .tc := ⟨.hbm, 53, rfl⟩
abbrev main_v18 : Ref sig .tc := ⟨.hbm, 54, rfl⟩
abbrev main_v19 : Ref sig .tc := ⟨.hbm, 55, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc1_stg0_0 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc1_sem0_0 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S12x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S12x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x12 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x12 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev grid1 : Pipeline.Grid := ⟨1, ![15], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S1x1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S3584x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x3584 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x3584 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  shapeCasts_S1_S_ : S1.ShapeCasts S_
  sliceFits_S50257x1024_S1x1024 : S50257x1024.Slices (fun _ => 0) S1x1024
  h_S_ : 0 < S_.numel
  shapeCasts_S1x1024_S1024 : S1x1024.ShapeCasts S1024
  bcast_S1024_S1x1024_1 : S1024.BroadcastsInDim S1x1024 (![1] : Fin 1 → Fin S1x1024.rank)
  shapeCasts_S1x1x1024_S1x1024 : S1x1x1024.ShapeCasts S1x1024
  shapeCasts_S12_S1x12 : S12.ShapeCasts S1x12
  shapeCasts_S1024_S1x1024 : S1024.ShapeCasts S1x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  concatenates_S1x1024_S1x1024_S1x2048_d1 : Shape.Concatenates [S1x1024, S1x1024] S1x2048 1
  inb_S12x2048_S12x2048_0_0 : ∀ a, (![0, 0] : Fin 2 → Nat) a + S12x2048.size a ≤ S12x2048.size a
  h_S12x2048 : 0 < S12x2048.numel
  bitsLt_bf16_f32 : FTy.bits .bf16 < FTy.bits .f32
  transposes_S12x2048_p1_0_S2048x12 : S12x2048.Transposes [1, 0] S2048x12
  inb_S1x12_S1x12_0_0 : ∀ a, (![0, 0] : Fin 2 → Nat) a + S1x12.size a ≤ S1x12.size a
  h_S1x12 : 0 < S1x12.numel
  shapeCasts_S1x12_S1x12 : S1x12.ShapeCasts S1x12
  reduces_S1x12_S1 : S1x12.Reduces [1] S1
  shapeCasts_S1_S1x1 : S1.ShapeCasts S1x1
  broadcasts_S1x1_S1x12 : S1x1.Broadcasts S1x12
  inb_S12x1024_S12x1024_0_0 : ∀ a, (![0, 0] : Fin 2 → Nat) a + S12x1024.size a ≤ S12x1024.size a
  h_S12x1024 : 0 < S12x1024.numel
  inb_S1024x2048_S1024x2048_0_0 : ∀ a, (![0, 0] : Fin 2 → Nat) a + S1024x2048.size a ≤ S1024x2048.size a
  h_S1024x2048 : 0 < S1024x2048.numel
  transposes_S1024x2048_p1_0_S2048x1024 : S1024x2048.Transposes [1, 0] S2048x1024
  inb_S1024x1024_S1024x1024_0_0 : ∀ a, (![0, 0] : Fin 2 → Nat) a + S1024x1024.size a ≤ S1024x1024.size a
  h_S1024x1024 : 0 < S1024x1024.numel
  transposes_S1024x1024_p1_0_S1024x1024 : S1024x1024.Transposes [1, 0] S1024x1024
  shapeCasts_S50257_S1x50257 : S50257.ShapeCasts S1x50257
  inb_S3584x1024_S3584x1024_0_0 : ∀ a, (![0, 0] : Fin 2 → Nat) a + S3584x1024.size a ≤ S3584x1024.size a
  h_S3584x1024 : 0 < S3584x1024.numel
  transposes_S3584x1024_p1_0_S1024x3584 : S3584x1024.Transposes [1, 0] S1024x3584
  inb_S1x3584_S1x3584_0_0 : ∀ a, (![0, 0] : Fin 2 → Nat) a + S1x3584.size a ≤ S1x3584.size a
  h_S1x3584 : 0 < S1x3584.numel
  shapeCasts_S1x3584_S1x3584 : S1x3584.ShapeCasts S1x3584
  reducesTo_S1x50257_S1_d1 : S1x50257.ReducesTo [1] S1
  bcast_S_S1 : S_.BroadcastsInDim S1 (![] : Fin 0 → Fin S1.rank)
  bcast_S1_S1x1_0 : S1.BroadcastsInDim S1x1 (![0] : Fin 1 → Fin S1x1.rank)
  bcast_S1x1_S1x50257_0_1 : S1x1.BroadcastsInDim S1x50257 (![0, 1] : Fin 2 → Fin S1x50257.rank)
  bcast_S1x1024_S1x1x1024_1_2 : S1x1024.BroadcastsInDim S1x1x1024 (![1, 2] : Fin 2 → Fin S1x1x1024.rank)
  dot_S1x2048_S2048x12_S1x12_1_0_0_1_n_n_wf : DotDims.WF S1x2048 S2048x12 S1x12 [1] [0] [0] [1] [] []
  dot_S1x12_S12x1024_S1x1024_1_0_0_1_n_n_wf : DotDims.WF S1x12 S12x1024 S1x1024 [1] [0] [0] [1] [] []
  dot_S1x2048_S2048x1024_S1x1024_1_0_0_1_n_n_wf : DotDims.WF S1x2048 S2048x1024 S1x1024 [1] [0] [0] [1] [] []
  dot_S1x1024_S1024x1024_S1x1024_1_0_0_1_n_n_wf : DotDims.WF S1x1024 S1024x1024 S1x1024 [1] [0] [0] [1] [] []
  dot_S1x1024_S1024x3584_S1x3584_1_0_0_1_n_n_wf : DotDims.WF S1x1024 S1024x3584 S1x3584 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x1024.size a ≤ S1x1024.size a
  hwx0_0 : ∀ i : grid0.Coords, EltTy.bits .f32 = 32 ∨ (Rect.block (s := S1x1024) S1x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1024.size a ≤ S1x1024.size a
  hwx0_1 : ∀ i : grid0.Coords, EltTy.bits .f32 = 32 ∨ (Rect.block (s := S1x1024) S1x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S12x1024.size a ≤ S12x1024.size a
  hwx0_2 : ∀ i : grid0.Coords, EltTy.bits .f32 = 32 ∨ (Rect.block (s := S12x1024) S12x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S12x2048.size a ≤ S12x2048.size a
  hwx0_3 : ∀ i : grid0.Coords, EltTy.bits .f32 = 32 ∨ (Rect.block (s := S12x2048) S12x2048.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x12.size a ≤ S1x12.size a
  hwx0_4 : ∀ i : grid0.Coords, EltTy.bits .f32 = 32 ∨ (Rect.block (s := S1x12) S1x12.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x2048.size a ≤ S1024x2048.size a
  hwx0_5 : ∀ i : grid0.Coords, EltTy.bits .f32 = 32 ∨ (Rect.block (s := S1024x2048) S1024x2048.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1024x1024.size a ≤ S1024x1024.size a
  hwx0_7 : ∀ i : grid0.Coords, EltTy.bits .f32 = 32 ∨ (Rect.block (s := S1024x1024) S1024x1024.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1024x1024.size a ≤ S1024x1024.size a
  hwx0_8 : ∀ i : grid0.Coords, EltTy.bits .f32 = 32 ∨ (Rect.block (s := S1024x1024) S1024x1024.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x1024.size a ≤ S1x1024.size a
  hwx0_9 : ∀ i : grid0.Coords, EltTy.bits .f32 = 32 ∨ (Rect.block (s := S1x1024) S1x1024.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x1024.size a ≤ S1x1024.size a
  hwx0_10 : ∀ i : grid0.Coords, EltTy.bits .f32 = 32 ∨ (Rect.block (s := S1x1024) S1x1024.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x1024.size a ≤ S1x1024.size a
  hwx0_11 : ∀ i : grid0.Coords, EltTy.bits .f32 = 32 ∨ (Rect.block (s := S1x1024) S1x1024.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x12.size a ≤ S1x12.size a
  hwx0_12 : ∀ i : grid0.Coords, EltTy.bits .f32 = 32 ∨ (Rect.block (s := S1x12) S1x12.size (cc0_transform_12 i) (hinb0_12 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S1x1024.size a ≤ S1x1024.size a
  hwx1_0 : ∀ i : grid1.Coords, EltTy.bits .f32 = 32 ∨ (Rect.block (s := S1x1024) S1x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hstart1_1 : ∀ (i : grid1.Coords) a, cc1_transform_1 i a * S3584x1024.size a < S50257x1024.size a
  hwx1_1 : ∀ i : grid1.Coords, EltTy.bits .f32 = 32 ∨ (Rect.unit (s := S50257x1024) (fun a => cc1_transform_1 i a * S3584x1024.size a) (fun a => (Pipeline.Clip.of (cc1_transform_1 i a) (S3584x1024.size a) (S50257x1024.size a)).extent (S3584x1024.size a)) fun a => Pipeline.Clip.inb (Pipeline.Clip.ok_of (hstart1_1 i a))).WholeWords (EltTy.packing .f32)
  hwxs1_1 : ∀ i : grid1.Coords, EltTy.bits .f32 = 32 ∨ (Rect.unit (s := S3584x1024) (fun _ => 0) (fun a => (Pipeline.Clip.of (cc1_transform_1 i a) (S3584x1024.size a) (S50257x1024.size a)).extent (S3584x1024.size a)) fun a => (Nat.zero_add _).trans_le (Pipeline.Clip.extent_le (Pipeline.Clip.ok_of (hstart1_1 i a)))).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hstart1_2 : ∀ (i : grid1.Coords) a, cc1_transform_2 i a * S1x3584.size a < S1x50257.size a
  hwx1_2 : ∀ i : grid1.Coords, EltTy.bits .f32 = 32 ∨ (Rect.unit (s := S1x50257) (fun a => cc1_transform_2 i a * S1x3584.size a) (fun a => (Pipeline.Clip.of (cc1_transform_2 i a) (S1x3584.size a) (S1x50257.size a)).extent (S1x3584.size a)) fun a => Pipeline.Clip.inb (Pipeline.Clip.ok_of (hstart1_2 i a))).WholeWords (EltTy.packing .f32)
  hwxs1_2 : ∀ i : grid1.Coords, EltTy.bits .f32 = 32 ∨ (Rect.unit (s := S1x3584) (fun _ => 0) (fun a => (Pipeline.Clip.of (cc1_transform_2 i a) (S1x3584.size a) (S1x50257.size a)).extent (S1x3584.size a)) fun a => (Nat.zero_add _).trans_le (Pipeline.Clip.extent_le (Pipeline.Clip.ok_of (hstart1_2 i a)))).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hstart1_3 : ∀ (i : grid1.Coords) a, cc1_transform_3 i a * S1x3584.size a < S1x50257.size a
  hwx1_3 : ∀ i : grid1.Coords, EltTy.bits .f32 = 32 ∨ (Rect.unit (s := S1x50257) (fun a => cc1_transform_3 i a * S1x3584.size a) (fun a => (Pipeline.Clip.of (cc1_transform_3 i a) (S1x3584.size a) (S1x50257.size a)).extent (S1x3584.size a)) fun a => Pipeline.Clip.inb (Pipeline.Clip.ok_of (hstart1_3 i a))).WholeWords (EltTy.packing .f32)
  hwxs1_3 : ∀ i : grid1.Coords, EltTy.bits .f32 = 32 ∨ (Rect.unit (s := S1x3584) (fun _ => 0) (fun a => (Pipeline.Clip.of (cc1_transform_3 i a) (S1x3584.size a) (S1x50257.size a)).extent (S1x3584.size a)) fun a => (Nat.zero_add _).trans_le (Pipeline.Clip.extent_le (Pipeline.Clip.ok_of (hstart1_3 i a)))).WholeWords (EltTy.packing .f32)

variable [Facts₀]

def dot_S1x2048_S2048x12_S1x12_1_0_0_1_n_n : DotDims S1x2048 S2048x12 S1x12 where
  lhsContracting := [1]
  rhsContracting := [0]
  lhsNonContracting := [0]
  rhsNonContracting := [1]
  lhsBatch := []
  rhsBatch := []
  wf := dot_S1x2048_S2048x12_S1x12_1_0_0_1_n_n_wf
def dot_S1x12_S12x1024_S1x1024_1_0_0_1_n_n : DotDims S1x12 S12x1024 S1x1024 where
  lhsContracting := [1]
  rhsContracting := [0]
  lhsNonContracting := [0]
  rhsNonContracting := [1]
  lhsBatch := []
  rhsBatch := []
  wf := dot_S1x12_S12x1024_S1x1024_1_0_0_1_n_n_wf
def dot_S1x2048_S2048x1024_S1x1024_1_0_0_1_n_n : DotDims S1x2048 S2048x1024 S1x1024 where
  lhsContracting := [1]
  rhsContracting := [0]
  lhsNonContracting := [0]
  rhsNonContracting := [1]
  lhsBatch := []
  rhsBatch := []
  wf := dot_S1x2048_S2048x1024_S1x1024_1_0_0_1_n_n_wf
def dot_S1x1024_S1024x1024_S1x1024_1_0_0_1_n_n : DotDims S1x1024 S1024x1024 S1x1024 where
  lhsContracting := [1]
  rhsContracting := [0]
  lhsNonContracting := [0]
  rhsNonContracting := [1]
  lhsBatch := []
  rhsBatch := []
  wf := dot_S1x1024_S1024x1024_S1x1024_1_0_0_1_n_n_wf
def dot_S1x1024_S1024x3584_S1x3584_1_0_0_1_n_n : DotDims S1x1024 S1024x3584 S1x3584 where
  lhsContracting := [1]
  rhsContracting := [0]
  lhsNonContracting := [0]
  rhsNonContracting := [1]
  lhsBatch := []
  rhsBatch := []
  wf := dot_S1x1024_S1024x3584_S1x3584_1_0_0_1_n_n_wf

abbrev win0_0 : Pipeline.Window sig grid0 :=
  Pipeline.Window.ofSpec (Memref.whole main_v9) S1x1024.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v10) S1x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S12x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S12x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v11) S1x12.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S1024x2048.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v12) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg8) S1024x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg9) S1024x1024.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v13) S1x1024.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v14) S1x1024.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v15_0) S1x1024.size cc0_transform_11 reads0_11 true true 1 stage0_11 sem0_11
    hrank0 hreads0_11 hinb0_11 nbuf0_11 (Memref.isWhole_whole _) hwx0_11 hstage0_11

abbrev win0_12 : Pipeline.Window sig grid0 :=
  Pipeline.Window.ofSpec (Memref.whole main_v15_1) S1x12.size cc0_transform_12 reads0_12 true true 1 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

abbrev win1_0 : Pipeline.Window sig grid1 :=
  Pipeline.Window.ofSpec (Memref.whole main_v15_0) S1x1024.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpecClip (Memref.whole main_arg12) S3584x1024.size cc1_transform_1 reads1_1 false false 2 stage1_1 sem1_1
    hrank1 hreads1_1 hstart1_1 nbuf1_1 (Memref.isWhole_whole _) hwx1_1 hwxs1_1 hstage1_1

abbrev win1_2 : Pipeline.Window sig grid1 :=
  Pipeline.Window.ofSpecClip (Memref.whole main_v16) S1x3584.size cc1_transform_2 reads1_2 false false 2 stage1_2 sem1_2
    hrank1 hreads1_2 hstart1_2 nbuf1_2 (Memref.isWhole_whole _) hwx1_2 hwxs1_2 hstage1_2

abbrev win1_3 : Pipeline.Window sig grid1 :=
  Pipeline.Window.ofSpecClip (Memref.whole main_v17) S1x3584.size cc1_transform_3 reads1_3 true false 2 stage1_3 sem1_3
    hrank1 hreads1_3 hstart1_3 nbuf1_3 (Memref.isWhole_whole _) hwx1_3 hwxs1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S1 : Shape := ⟨1, ![1]⟩
abbrev S1x1x1024 : Shape := ⟨3, ![1, 1, 1024]⟩
abbrev S12x1024 : Shape := ⟨2, ![12, 1024]⟩
abbrev S50257x1024 : Shape := ⟨2, ![50257, 1024]⟩
abbrev S12x2048 : Shape := ⟨2, ![12, 2048]⟩
abbrev S12 : Shape := ⟨1, ![12]⟩
abbrev S1024x2048 : Shape := ⟨2, ![1024, 2048]⟩
abbrev S1024 : Shape := ⟨1, ![1024]⟩
abbrev S1024x1024 : Shape := ⟨2, ![1024, 1024]⟩
abbrev S50257 : Shape := ⟨1, ![50257]⟩
abbrev S_ : Shape := ⟨0, ![]⟩
abbrev S1x1024 : Shape := ⟨2, ![1, 1024]⟩
abbrev S1x2048 : Shape := ⟨2, ![1, 2048]⟩
abbrev S2048x12 : Shape := ⟨2, ![2048, 12]⟩
abbrev S1x12 : Shape := ⟨2, ![1, 12]⟩
abbrev S1x1 : Shape := ⟨2, ![1, 1]⟩
abbrev S2048x1024 : Shape := ⟨2, ![2048, 1024]⟩
abbrev S1024x50257 : Shape := ⟨2, ![1024, 50257]⟩
abbrev S1x50257 : Shape := ⟨2, ![1, 50257]⟩

abbrev nBuf : Space → Nat
  | .hbm => 90
  | .vmem => 0
  | .smem => 0
  | _ => 0

abbrev bufTy : (tb : Table) → Fin (tcTables nBuf tb) → BufTy
  | .hbm, ⟨0, _⟩ => ⟨S1, .i32⟩
  | .hbm, ⟨1, _⟩ => ⟨S1x1x1024, .f32⟩
  | .hbm, ⟨2, _⟩ => ⟨S12x1024, .f32⟩
  | .hbm, ⟨3, _⟩ => ⟨S50257x1024, .f32⟩
  | .hbm, ⟨4, _⟩ => ⟨S12x2048, .f32⟩
  | .hbm, ⟨5, _⟩ => ⟨S12, .f32⟩
  | .hbm, ⟨6, _⟩ => ⟨S1024x2048, .f32⟩
  | .hbm, ⟨7, _⟩ => ⟨S1024, .f32⟩
  | .hbm, ⟨8, _⟩ => ⟨S1024x1024, .f32⟩
  | .hbm, ⟨9, _⟩ => ⟨S1024x1024, .f32⟩
  | .hbm, ⟨10, _⟩ => ⟨S1024, .f32⟩
  | .hbm, ⟨11, _⟩ => ⟨S1024, .f32⟩
  | .hbm, ⟨12, _⟩ => ⟨S50257x1024, .f32⟩
  | .hbm, ⟨13, _⟩ => ⟨S50257, .f32⟩
  | .hbm, ⟨14, _⟩ => ⟨S_, .i32⟩
  | .hbm, ⟨15, _⟩ => ⟨S_, .i32⟩
  | .hbm, ⟨16, _⟩ => ⟨S_, .i1⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S_, .i1⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S1x1024, .f32⟩
  | .hbm, ⟨29, _⟩ => ⟨S1024, .f32⟩
  | .hbm, ⟨30, _⟩ => ⟨S1x1024, .f32⟩
  | .hbm, ⟨31, _⟩ => ⟨S1x1024, .f32⟩
  | .hbm, ⟨32, _⟩ => ⟨S1x2048, .f32⟩
  | .hbm, ⟨33, _⟩ => ⟨S2048x12, .f32⟩
  | .hbm, ⟨34, _⟩ => ⟨S1x12, .f32⟩
  | .hbm, ⟨35, _⟩ => ⟨S1x12, .f32⟩
  | .hbm, ⟨36, _⟩ => ⟨S1x12, .f32⟩
  | .hbm, ⟨37, _⟩ => ⟨S_, .f32⟩
  | .hbm, ⟨38, _⟩ => ⟨S1, .f32⟩
  | .hbm, ⟨39, _⟩ => ⟨S_, .f32⟩
  | .hbm, ⟨40, _⟩ => ⟨S1, .f32⟩
  | .hbm, ⟨41, _⟩ => ⟨S1, .f32⟩
  | .hbm, ⟨42, _⟩ => ⟨S1x1, .f32⟩
  | .hbm, ⟨43, _⟩ => ⟨S1x12, .f32⟩
  | .hbm, ⟨44, _⟩ => ⟨S1x12, .f32⟩
  | .hbm, ⟨45, _⟩ => ⟨S1x12, .f32⟩
  | .hbm, ⟨46, _⟩ => ⟨S_, .f32⟩
  | .hbm, ⟨47, _⟩ => ⟨S1, .f32⟩
  | .hbm, ⟨48, _⟩ => ⟨S1x1, .f32⟩
  | .hbm, ⟨49, _⟩ => ⟨S1x12, .f32⟩
  | .hbm, ⟨50, _⟩ => ⟨S1x12, .f32⟩
  | .hbm, ⟨51, _⟩ => ⟨S1x1024, .f32⟩
  | .hbm, ⟨52, _⟩ => ⟨S1x2048, .f32⟩
  | .hbm, ⟨53, _⟩ => ⟨S2048x1024, .f32⟩
  | .hbm, ⟨54, _⟩ => ⟨S1x1024, .f32⟩
  | .hbm, ⟨55, _⟩ => ⟨S1x1024, .f32⟩
  | .hbm, ⟨56, _⟩ => ⟨S1x1024, .f32⟩
  | .hbm, ⟨57, _⟩ => ⟨S_, .f32⟩
  | .hbm, ⟨58, _⟩ => ⟨S1x1024, .f32⟩
  | .hbm, ⟨59, _⟩ => ⟨S1x1024, .f32⟩
  | .hbm, ⟨60, _⟩ => ⟨S1024x1024, .f32⟩
  | .hbm, ⟨61, _⟩ => ⟨S1x1024, .f32⟩
  | .hbm, ⟨62, _⟩ => ⟨S1x1024, .f32⟩
  | .hbm, ⟨63, _⟩ => ⟨S1x1024, .f32⟩
  | .hbm, ⟨64, _⟩ => ⟨S1024x1024, .f32⟩
  | .hbm, ⟨65, _⟩ => ⟨S1x1024, .f32⟩
  | .hbm, ⟨66, _⟩ => ⟨S1x1024, .f32⟩
  | .hbm, ⟨67, _⟩ => ⟨S1x1024, .f32⟩
  | .hbm, ⟨68, _⟩ => ⟨S1x1024, .f32⟩
  | .hbm, ⟨69, _⟩ => ⟨S1x1024, .f32⟩
  | .hbm, ⟨70, _⟩ => ⟨S1024x50257, .f32⟩
  | .hbm, ⟨71, _⟩ => ⟨S1x50257, .f32⟩
  | .hbm, ⟨72, _⟩ => ⟨S1x50257, .f32⟩
  | .hbm, ⟨73, _⟩ => ⟨S1x50257, .f32⟩
  | .hbm, ⟨74, _⟩ => ⟨S_, .f32⟩
  | .hbm, ⟨75, _⟩ => ⟨S1, .f32⟩
  | .hbm, ⟨76, _⟩ => ⟨S_, .f32⟩
  | .hbm, ⟨77, _⟩ => ⟨S1, .f32⟩
  | .hbm, ⟨78, _⟩ => ⟨S1, .f32⟩
  | .hbm, ⟨79, _⟩ => ⟨S1x1, .f32⟩
  | .hbm, ⟨80, _⟩ => ⟨S1x50257, .f32⟩
  | .hbm, ⟨81, _⟩ => ⟨S1x50257, .f32⟩
  | .hbm, ⟨82, _⟩ => ⟨S1x50257, .f32⟩
  | .hbm, ⟨83, _⟩ => ⟨S_, .f32⟩
  | .hbm, ⟨84, _⟩ => ⟨S1, .f32⟩
  | .hbm, ⟨85, _⟩ => ⟨S1x1, .f32⟩
  | .hbm, ⟨86, _⟩ => ⟨S1x1, .f32⟩
  | .hbm, ⟨87, _⟩ => ⟨S1x50257, .f32⟩
  | .hbm, ⟨88, _⟩ => ⟨S1x50257, .f32⟩
  | .hbm, ⟨89, _⟩ => ⟨S1x1x1024, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_c : Ref sig .tc := ⟨.hbm, 15, rfl⟩
abbrev main_v1 : Ref sig .tc := ⟨.hbm, 16, rfl⟩
abbrev main_c_0 : Ref sig .tc := ⟨.hbm, 17, rfl⟩
abbrev main_v2 : Ref sig .tc := ⟨.hbm, 18, rfl⟩
abbrev main_v3 : Ref sig .tc := ⟨.hbm, 19, rfl⟩
abbrev main_c_1 : Ref sig .tc := ⟨.hbm, 20, rfl⟩
abbrev main_c_2 : Ref sig .tc := ⟨.hbm, 21, rfl⟩
abbrev main_v4 : Ref sig .tc := ⟨.hbm, 22, rfl⟩
abbrev main_c_3 : Ref sig .tc := ⟨.hbm, 23, rfl⟩
abbrev main_c_4 : Ref sig .tc := ⟨.hbm, 24, rfl⟩
abbrev main_v5 : Ref sig .tc := ⟨.hbm, 25, rfl⟩
abbrev main_c_5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_cst : Ref sig .tc := ⟨.hbm, 37, rfl⟩
abbrev main_v16 : Ref sig .tc := ⟨.hbm, 38, rfl⟩
abbrev main_cst_6 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_cst_7 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_call0_cst : Ref sig .tc := ⟨.hbm, 57, rfl⟩
abbrev main_call0_v0 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_call1_cst : Ref sig .tc := ⟨.hbm, 74, rfl⟩
abbrev main_call1_v0 : Ref sig .tc := ⟨.hbm, 75, rfl⟩
abbrev main_call1_cst_0 : Ref sig .tc := ⟨.hbm, 76, rfl⟩
abbrev main_call1_v1 : Ref sig .tc := ⟨.hbm, 77, rfl⟩
abbrev main_call1_v2 : Ref sig .tc := ⟨.hbm, 78, rfl⟩
abbrev main_call1_v3 : Ref sig .tc := ⟨.hbm, 79, rfl⟩
abbrev main_call1_v4 : Ref sig .tc := ⟨.hbm, 80, rfl⟩
abbrev main_call1_v5 : Ref sig .tc := ⟨.hbm, 81, rfl⟩
abbrev main_call1_v6 : Ref sig .tc := ⟨.hbm, 82, rfl⟩
abbrev main_call1_cst_1 : Ref sig .tc := ⟨.hbm, 83, rfl⟩
abbrev main_call1_v7 : Ref sig .tc := ⟨.hbm, 84, rfl⟩
abbrev main_call1_v8 : Ref sig .tc := ⟨.hbm, 85, rfl⟩
abbrev main_call1_v9 : Ref sig .tc := ⟨.hbm, 86, rfl⟩
abbrev main_call1_v10 : Ref sig .tc := ⟨.hbm, 87, rfl⟩
abbrev main_v48 : Ref sig .tc := ⟨.hbm, 88, rfl⟩
abbrev main_v49 : Ref sig .tc := ⟨.hbm, 89, rfl⟩

abbrev nD : Nat := 1
abbrev τ : Topo := Topo.v7x

variable {F : FTy → Type} [FloatOps F]

class Facts₀ : Prop where
  shapeCasts_S1_S_ : S1.ShapeCasts S_
  sliceFits_S50257x1024_S1x1024 : S50257x1024.Slices (fun _ => 0) S1x1024
  h_S_ : 0 < S_.numel
  shapeCasts_S1x1024_S1024 : S1x1024.ShapeCasts S1024
  bcast_S1024_S1x1024_1 : S1024.BroadcastsInDim S1x1024 (![1] : Fin 1 → Fin S1x1024.rank)
  shapeCasts_S1x1x1024_S1x1024 : S1x1x1024.ShapeCasts S1x1024
  concatenates_S1x1024_S1x1024_S1x2048_d1 : Shape.Concatenates [S1x1024, S1x1024] S1x2048 1
  transposes_S12x2048_S2048x12_1_0 : S12x2048.Transposes [1, 0] S2048x12
  bcast_S12_S1x12_1 : S12.BroadcastsInDim S1x12 (![1] : Fin 1 → Fin S1x12.rank)
  reducesTo_S1x12_S1_d1 : S1x12.ReducesTo [1] S1
  bcast_S_S1 : S_.BroadcastsInDim S1 (![] : Fin 0 → Fin S1.rank)
  bcast_S1_S1x1_0 : S1.BroadcastsInDim S1x1 (![0] : Fin 1 → Fin S1x1.rank)
  bcast_S1x1_S1x12_0_1 : S1x1.BroadcastsInDim S1x12 (![0, 1] : Fin 2 → Fin S1x12.rank)
  transposes_S1024x2048_S2048x1024_1_0 : S1024x2048.Transposes [1, 0] S2048x1024
  bcast_S_S1x1024 : S_.BroadcastsInDim S1x1024 (![] : Fin 0 → Fin S1x1024.rank)
  transposes_S1024x1024_S1024x1024_1_0 : S1024x1024.Transposes [1, 0] S1024x1024
  transposes_S50257x1024_S1024x50257_1_0 : S50257x1024.Transposes [1, 0] S1024x50257
  bcast_S50257_S1x50257_1 : S50257.BroadcastsInDim S1x50257 (![1] : Fin 1 → Fin S1x50257.rank)
  reducesTo_S1x50257_S1_d1 : S1x50257.ReducesTo [1] S1
  bcast_S1x1_S1x50257_0_1 : S1x1.BroadcastsInDim S1x50257 (![0, 1] : Fin 2 → Fin S1x50257.rank)
  bcast_S1x1024_S1x1x1024_1_2 : S1x1024.BroadcastsInDim S1x1x1024 (![1, 2] : Fin 2 → Fin S1x1x1024.rank)
  dot_S1x2048_S2048x12_S1x12_1_0_0_1_n_n_wf : DotDims.WF S1x2048 S2048x12 S1x12 [1] [0] [0] [1] [] []
  dot_S1x12_S12x1024_S1x1024_1_0_0_1_n_n_wf : DotDims.WF S1x12 S12x1024 S1x1024 [1] [0] [0] [1] [] []
  dot_S1x2048_S2048x1024_S1x1024_1_0_0_1_n_n_wf : DotDims.WF S1x2048 S2048x1024 S1x1024 [1] [0] [0] [1] [] []
  dot_S1x1024_S1024x1024_S1x1024_1_0_0_1_n_n_wf : DotDims.WF S1x1024 S1024x1024 S1x1024 [1] [0] [0] [1] [] []
  dot_S1x1024_S1024x50257_S1x50257_1_0_0_1_n_n_wf : DotDims.WF S1x1024 S1024x50257 S1x50257 [1] [0] [0] [1] [] []

variable [Facts₀]

def dot_S1x2048_S2048x12_S1x12_1_0_0_1_n_n : DotDims S1x2048 S2048x12 S1x12 where
  lhsContracting := [1]
  rhsContracting := [0]
  lhsNonContracting := [0]
  rhsNonContracting := [1]
  lhsBatch := []
  rhsBatch := []
  wf := dot_S1x2048_S2048x12_S1x12_1_0_0_1_n_n_wf
def dot_S1x12_S12x1024_S1x1024_1_0_0_1_n_n : DotDims S1x12 S12x1024 S1x1024 where
  lhsContracting := [1]
  rhsContracting := [0]
  lhsNonContracting := [0]
  rhsNonContracting := [1]
  lhsBatch := []
  rhsBatch := []
  wf := dot_S1x12_S12x1024_S1x1024_1_0_0_1_n_n_wf
def dot_S1x2048_S2048x1024_S1x1024_1_0_0_1_n_n : DotDims S1x2048 S2048x1024 S1x1024 where
  lhsContracting := [1]
  rhsContracting := [0]
  lhsNonContracting := [0]
  rhsNonContracting := [1]
  lhsBatch := []
  rhsBatch := []
  wf := dot_S1x2048_S2048x1024_S1x1024_1_0_0_1_n_n_wf
def dot_S1x1024_S1024x1024_S1x1024_1_0_0_1_n_n : DotDims S1x1024 S1024x1024 S1x1024 where
  lhsContracting := [1]
  rhsContracting := [0]
  lhsNonContracting := [0]
  rhsNonContracting := [1]
  lhsBatch := []
  rhsBatch := []
  wf := dot_S1x1024_S1024x1024_S1x1024_1_0_0_1_n_n_wf
def dot_S1x1024_S1024x50257_S1x50257_1_0_0_1_n_n : DotDims S1x1024 S1024x50257 S1x50257 where
  lhsContracting := [1]
  rhsContracting := [0]
  lhsNonContracting := [0]
  rhsNonContracting := [1]
  lhsBatch := []
  rhsBatch := []
  wf := dot_S1x1024_S1024x50257_S1x50257_1_0_0_1_n_n_wf

class Facts : Prop extends Facts₀ where

variable [Facts]
-- ==== Proof.KbRegion0.lean ====
/- The word-level kernel's first region (the recurrent step: attention over the encoder states, the combined input, and
   the new hidden state), as one pipeline over a grid of one point whose every window is its whole array: the half of
   the certificate that is about the body. Stated at a parameter `V`, the TensorCore's buffer contents when the region is
   entered, and at any number format `F`. -/
import proofs.«103420_j15728170238452_2_alg».proof.Proof.Gen.Kernel.Launch
import proofs.«103420_j15728170238452_2_alg».proof.Proof.Gen.Kernel.Skeleton
import proofs.«103420_j15728170238452_2_alg».proof.Proof.Gen.Kernel.Points
import Idealize.ShloMosaic.Lib.Pipeline.FrameBody
import Idealize.ShloMosaic.Lib.Ring
import Idealize.ShloMosaic.Lib.Tactic

-- membership in a rectangle of full extents: the structural look recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 0 of @main: the recurrent step, at the entry contents `V` -/

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, fetched there or not, for any proof data whose
    array is the entry contents and whose body leaves the block in place; the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds its block at every point, fetched there or not, for any proof data whose
    array is the entry contents and whose body leaves the block in place; the window is uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's staging buffer holds its block at every point, fetched there or not, for any proof data whose
    array is the entry contents and whose body leaves the block in place; the window is uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's staging buffer holds its block at every point, fetched there or not, for any proof data whose
    array is the entry contents and whose body leaves the block in place; the window is uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's staging buffer holds its block at every point, fetched there or not, for any proof data whose
    array is the entry contents and whose body leaves the block in place; the window is uncut and never idle. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's staging buffer holds its block at every point, fetched there or not, for any proof data whose
    array is the entry contents and whose body leaves the block in place; the window is uncut and never idle. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6's staging buffer holds its block at every point, fetched there or not, for any proof data whose
    array is the entry contents and whose body leaves the block in place; the window is uncut and never idle. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-- Input window 7's staging buffer holds its block at every point, fetched there or not, for any proof data whose
    array is the entry contents and whose body leaves the block in place; the window is uncut and never idle. -/
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)

/-- Input window 8's staging buffer holds its block at every point, fetched there or not, for any proof data whose
    array is the entry contents and whose body leaves the block in place; the window is uncut and never idle. -/
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)

/-- Input window 9's staging buffer holds its block at every point, fetched there or not, for any proof data whose
    array is the entry contents and whose body leaves the block in place; the window is uncut and never idle. -/
theorem before0_9_of {c : Dev nD} (dat : Dat τ (Elt F) Unit ℕ (UR sig nD τ) ℕ cfg0 c) (hA : dat.A 9 = V c (Pipeline.arrRef spec0 9))
    (hafter : ∀ t, dat.after 9 t = iblk0 V c 9 t) (t : Fin cfg0.N) (d) : dat.before 9 t d = iblk0 V c 9 t :=
  (dat.before_in_eq_fetched 9 rfl (fun _ => rfl) (fun _ _ _ => rfl) (fun t => by rw [hafter]; unfold Dat.blockOf iblk0; rw [hA]; try rfl) t d).trans
    (by unfold Dat.fetched Dat.blockOf iblk0; rw [hA]; try rfl)

/-- Input window 10's staging buffer holds its block at every point, fetched there or not, for any proof data whose
    array is the entry contents and whose body leaves the block in place; the window is uncut and never idle. -/
theorem before0_10_of {c : Dev nD} (dat : Dat τ (Elt F) Unit ℕ (UR sig nD τ) ℕ cfg0 c) (hA : dat.A 10 = V c (Pipeline.arrRef spec0 10))
    (hafter : ∀ t, dat.after 10 t = iblk0 V c 10 t) (t : Fin cfg0.N) (d) : dat.before 10 t d = iblk0 V c 10 t :=
  (dat.before_in_eq_fetched 10 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and store is of a whole staging buffer -/

abbrev rc_S1x1024 : Rect S1x1024 := Rect.unit (s := S1x1024) ![0, 0] S1x1024.size inb_S1x1024_S1x1024_0_0
abbrev rc_S12x1024 : Rect S12x1024 := Rect.unit (s := S12x1024) ![0, 0] S12x1024.size inb_S12x1024_S12x1024_0_0
abbrev rc_S12x2048 : Rect S12x2048 := Rect.unit (s := S12x2048) ![0, 0] S12x2048.size inb_S12x2048_S12x2048_0_0
abbrev rc_S1x12 : Rect S1x12 := Rect.unit (s := S1x12) ![0, 0] S1x12.size inb_S1x12_S1x12_0_0
abbrev rc_S1024x2048 : Rect S1024x2048 := Rect.unit (s := S1024x2048) ![0, 0] S1024x2048.size inb_S1024x2048_S1024x2048_0_0
abbrev rc_S1024x1024 : Rect S1024x1024 := Rect.unit (s := S1024x1024) ![0, 0] S1024x1024.size inb_S1024x1024_S1024x1024_0_0

/-! ## What the body leaves in each output window's buffer -/

/-- The new hidden state's staging buffer after the body: its one store, the hyperbolic tangent of the two gate
    pre-activations' sum, over the loaded input blocks. -/
def out0_11 (x0 : Vec F S1x1024 .f32) (x1 : Vec F S1x1024 .f32) (x2 : Vec F S12x1024 .f32) (x3 : Vec F S12x2048 .f32) (x4 : Vec F S1x12 .f32) (x5 : Vec F S1024x2048 .f32) (x6 : Vec F S1x1024 .f32) (x7 : Vec F S1024x1024 .f32) (x8 : Vec F S1024x1024 .f32) (x9 : Vec F S1x1024 .f32) (x10 : Vec F S1x1024 .f32) : Vec F S1x1024 .f32 :=
  View.canon [⟨rc_S1x1024, k0_pay1 (k0_pay3 (View.ld x1 rc_S1x1024)) (k0_pay5 (View.ld x0 rc_S1x1024) (View.ld x1 rc_S1x1024) (View.ld x3 rc_S12x2048) (View.ld x4 rc_S1x12) (View.ld x2 rc_S12x1024) (View.ld x5 rc_S1024x2048) (View.ld x6 rc_S1x1024)) (k0_pay6 (F := F)) (View.ld x7 rc_S1024x1024) (View.ld x8 rc_S1024x1024) (View.ld x9 rc_S1x1024) (View.ld x10 rc_S1x1024)⟩]

/-- Its store covers the buffer. -/
theorem cover0_11 (p0 : Vec F S1x1024 .f32) (y : S1x1024.Idx) :
    ∃ pc ∈ ([⟨rc_S1x1024, p0⟩] : List (View.Piece (Elt F) S1x1024 .f32)), y ∈ pc.1.set :=
  View.cover_of_tiled [⟨rc_S1x1024, p0⟩] S1x1024.size (by rfl) y

/-- The attention weights' staging buffer after the body: its one store, the softmax of the attention scores, over the
    loaded input blocks. -/
def out0_12 (x0 : Vec F S1x1024 .f32) (x1 : Vec F S1x1024 .f32) (x2 : Vec F S12x1024 .f32) (x3 : Vec F S12x2048 .f32) (x4 : Vec F S1x12 .f32) (x5 : Vec F S1024x2048 .f32) (x6 : Vec F S1x1024 .f32) (x7 : Vec F S1024x1024 .f32) (x8 : Vec F S1024x1024 .f32) (x9 : Vec F S1x1024 .f32) (x10 : Vec F S1x1024 .f32) : Vec F S1x12 .f32 :=
  View.canon [⟨rc_S1x12, k0_pay4 (View.ld x0 rc_S1x1024) (View.ld x1 rc_S1x1024) (View.ld x3 rc_S12x2048) (View.ld x4 rc_S1x12)⟩]

/-- Its store covers the buffer. -/
theorem cover0_12 (p0 : Vec F S1x12 .f32) (y : S1x12.Idx) :
    ∃ pc ∈ ([⟨rc_S1x12, p0⟩] : List (View.Piece (Elt F) S1x12 .f32)), y ∈ pc.1.set :=
  View.cover_of_tiled [⟨rc_S1x12, p0⟩] S1x12.size (by rfl) y

/-! ## The body's triple -/

set_option maxHeartbeats 4000000 in
/-- The kernel body on whole staging memrefs, the inputs' at read contents `xW` and the outputs' at anything, runs to the
    continuation holding the inputs' as they were and each output's at `out0_W` of the inputs': the printed function and
    the part it calls are their skeletons, run statement by statement. -/
theorem sound_kernel0 (c : Dev nD) (E : Set ℕ) (i : grid0.Coords) (arg1 : Memref sig .tc .vmem S1x1024 .f32) (harg1 : arg1.IsWhole) (arg2 : Memref sig .tc .vmem S1x1024 .f32) (harg2 : arg2.IsWhole) (arg3 : Memref sig .tc .vmem S12x1024 .f32) (harg3 : arg3.IsWhole) (arg4 : Memref sig .tc .vmem S12x2048 .f32) (harg4 : arg4.IsWhole) (arg5 : Memref sig .tc .vmem S1x12 .f32) (harg5 : arg5.IsWhole) (arg6 : Memref sig .tc .vmem S1024x2048 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x12 .f32) (harg13 : arg13.IsWhole)
    (x0 : Vec F S1x1024 .f32) (x1 : Vec F S1x1024 .f32) (x2 : Vec F S12x1024 .f32) (x3 : Vec F S12x2048 .f32) (x4 : Vec F S1x12 .f32) (x5 : Vec F S1024x2048 .f32) (x6 : Vec F S1x1024 .f32) (x7 : Vec F S1024x1024 .f32) (x8 : Vec F S1024x1024 .f32) (x9 : Vec F S1x1024 .f32) (x10 : Vec F S1x1024 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d) ∗ (∃ d, owns (c : Thread nD τ) arg13 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare (out0_11 x0 x1 x2 x3 x4 x5 x6 x7 x8 x9 x10) ∗ owns (c : Thread nD τ) arg13 fullShare (out0_12 x0 x1 x2 x3 x4 x5 x6 x7 x8 x9 x10)) -∗ K ⟨⟩))
      ⊢ wp frame (wpE (defs₀ (F := F)) Variants.none c none) E (cc0__rnn_step_kernel i arg1 harg1 arg2 harg2 arg3 harg3 arg4 harg4 arg5 harg5 arg6 harg6 arg7 harg7 arg8 harg8 arg9 harg9 arg10 harg10 arg11 harg11 arg12 harg12 arg13 harg13) K := by
  simp only [cc0__rnn_step_kernel_eq_skeleton]; unfold cc0__rnn_step_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, Hk⟩
  subst hf0 hf1 hf2 hf3 hf4 hf5 hf6 hf7 hf8 hf9 hf10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists _; isplitr
    swap; · iexact H11
    ipureintro
    try dsimp only
    exact View.read_writes_eq_canon _ _ _ (cover0_11 _)
  iexists _; isplitr
  swap; · iexact H12
  ipureintro
  try dsimp only
  exact View.read_writes_eq_canon _ _ _ (cover0_12 _)

/-! ## The pipeline's proof data -/

/-- The proof data of the region on core `c`: the arrays as the region finds them; after the body at point `t` each
    input's buffer at its block and each output's at `out0_W` of the input blocks; the invariant the scoped rest and the
    generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => iblk0 V c 10 t
    | ⟨11, _⟩ => out0_11 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t)
    | ⟨12, _⟩ => out0_12 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = iblk0 V c 9 t := by dsimp only [dat0]
theorem after0_10 (c : Dev nD) (t : Fin cfg0.N) : (dat0 V c).after 10 t = iblk0 V c 10 t := by dsimp only [dat0]
theorem after0_11 (c : Dev nD) (t : Fin cfg0.N) : (dat0 V c).after 11 t = out0_11 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) := by dsimp only [dat0]
theorem after0_12 (c : Dev nD) (t : Fin cfg0.N) : (dat0 V c).after 12 t = out0_12 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d
theorem before0_9 (c : Dev nD) (t : Fin cfg0.N) (d) : (dat0 V c).before 9 t d = iblk0 V c 9 t :=
  before0_9_of V (dat0 V c) (A_eq0 V c 9) (after0_9 V c) t d
theorem before0_10 (c : Dev nD) (t : Fin cfg0.N) (d) : (dat0 V c).before 10 t d = iblk0 V c 10 t :=
  before0_10_of V (dat0 V c) (A_eq0 V c 10) (after0_10 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d))
    ∗ (∃ d, owns (c : Thread nD τ) (st0_12 t) fullShare ((dat0 V c).before 12 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t)
    ∗ owns (c : Thread nD τ) (st0_11 t) fullShare ((dat0 V c).after 11 t)
    ∗ owns (c : Thread nD τ) (st0_12 t) fullShare ((dat0 V c).after 12 t))

set_option maxHeartbeats 1000000 in
/-- The body at any point: the inputs' memrefs hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9, before0_10]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10, after0_11, after0_12]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (sound_kernel0 c Set.univ (grid0.coords t) _ _ _ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  iintro ⟨H0, H1, H2, H3, H4, H5, H6, H7, H8, H9, H10, H11, H12⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KbRegion1.lean ====
/-
  Region 1 of the word-level program: the output projection swept over the vocabulary in fifteen tiles of 3584.

  The hidden row (window 0) is one whole block, fetched once. The vocabulary matrix (window 1), the bias row
  (window 2) and the logits (window 3) are cut into tiles along the vocabulary axis, and the last tile overhangs the
  50257 entries by 3503: a fetch of it fills only the part inside the array and leaves words nothing names in the
  rest of the buffer. At the word level one entry of the product may depend on the whole right operand, those words
  included, so nothing is said here of what the body writes into the logits' buffer: that window is forgotten. What is
  proved is what a frame needs: at every point the body runs on the buffers the sweep hands it, leaves the three
  input buffers as it found them, and leaves the logits' buffer at some contents.
-/
import proofs.«103420_j15728170238452_2_alg».proof.Proof.Gen.Kernel.Launch
import proofs.«103420_j15728170238452_2_alg».proof.Proof.Gen.Kernel.Skeleton
import proofs.«103420_j15728170238452_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The tiles -/

/-- Window `w`'s tile at point `t`: the part of it inside the array, read off the array as the region finds it. -/
def tile1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The logits' window is the one forgotten. -/
def forgets1 : Fin 4 → Bool := fun w => w.val == 3

/-- The proof data of the sweep on core `c`: the arrays as the region finds them; after the body the hidden row's
    buffer at its block, the matrix's and the bias's at their tiles filled out past the array's end with the zero
    word (nothing reads the filling), the logits' at contents not named. -/
def dat1 (c : Dev nD) : Dat τ (Elt F) Unit ℕ (UR sig nD τ) ℕ cfg1 c where
  A w := V c (Pipeline.arrRef spec1 w)
  after w t := match w with
    | ⟨0, _⟩ => tile1 V c 0 t
    | ⟨1, _⟩ => win1_1.fill (grid1.coords t) (fun _ => Scalar.ofBits .f32 0#32) (tile1 V c 1 t)
    | ⟨2, _⟩ => win1_2.fill (grid1.coords t) (fun _ => Scalar.ofBits .f32 0#32) (tile1 V c 2 t)
    | ⟨3, h⟩ => Pipeline.Dat.unnamed (cfg := cfg1) ⟨3, h⟩ t
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = tile1 V c 0 t := by dsimp only [dat1]
theorem after1_1 (c : Dev nD) (t : Fin cfg1.N) :
    (dat1 V c).after 1 t = win1_1.fill (grid1.coords t) (fun _ => Scalar.ofBits .f32 0#32) (tile1 V c 1 t) := by dsimp only [dat1]
theorem after1_2 (c : Dev nD) (t : Fin cfg1.N) :
    (dat1 V c).after 2 t = win1_2.fill (grid1.coords t) (fun _ => Scalar.ofBits .f32 0#32) (tile1 V c 2 t) := by dsimp only [dat1]

/-- The hidden row's buffer holds its block at every point, fetched there or not: the block index never moves. -/
theorem before1_0 (c : Dev nD) (t : Fin cfg1.N) (d) : (dat1 V c).before 0 t d = tile1 V c 0 t :=
  ((dat1 V c).before_in_eq_fetched 0 rfl (fun _ => rfl) (fun _ _ _ => rfl)
    (fun t => by rw [after1_0]; unfold Dat.blockOf tile1; rw [A_eq1]; try rfl) t d).trans
    (by unfold Dat.fetched Dat.blockOf tile1; rw [A_eq1]; try rfl)

/-- The matrix's and the bias's buffers are fetched at every point: the tile on the part inside the array, what the
    buffer held before elsewhere. -/
theorem before1_1 (c : Dev nD) (t : Fin cfg1.N) (d) :
    (dat1 V c).before 1 t d = win1_1.fill (grid1.coords t) d (tile1 V c 1 t) :=
  ((dat1 V c).before_fetched 1 t (fetch1_1 t) d).trans (by unfold Dat.fetched Dat.blockOf tile1; rw [A_eq1]; try rfl)
theorem before1_2 (c : Dev nD) (t : Fin cfg1.N) (d) :
    (dat1 V c).before 2 t d = win1_2.fill (grid1.coords t) d (tile1 V c 2 t) :=
  ((dat1 V c).before_fetched 2 t (fetch1_2 t) d).trans (by unfold Dat.fetched Dat.blockOf tile1; rw [A_eq1]; try rfl)

/-! ## The body -/

set_option maxHeartbeats 1000000 in
/-- The body on whole staging memrefs, the three inputs' read at `x0`, `x1`, `x2` and the logits' at anything: it runs,
    leaves the inputs' as they were and the logits' at some contents. -/
theorem sound_kernel1 (c : Dev nD) (E : Set ℕ) (i : grid1.Coords)
    (arg1 : Memref sig .tc .vmem S1x1024 .f32) (harg1 : arg1.IsWhole) (arg2 : Memref sig .tc .vmem S3584x1024 .f32) (harg2 : arg2.IsWhole)
    (arg3 : Memref sig .tc .vmem S1x3584 .f32) (harg3 : arg3.IsWhole) (arg4 : Memref sig .tc .vmem S1x3584 .f32) (harg4 : arg4.IsWhole)
    (x0 : Vec F S1x1024 .f32) (x1 : Vec F S3584x1024 .f32) (x2 : Vec F S1x3584 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ (∃ d, owns (c : Thread nD τ) arg4 fullShare d)) -∗ K ⟨⟩))
      ⊢ wp frame (wpE (defs₀ (F := F)) Variants.none c none) E (cc1__outproj_kernel i arg1 harg1 arg2 harg2 arg3 harg3 arg4 harg4) K := by
  simp only [cc1__outproj_kernel_eq_skeleton]; unfold cc1__outproj_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; iexists _; isplitr
  swap; · iexact H3
  ipureintro; rfl

/-! ## The body obligation, at a generic point -/

/-- What the body is called with at point `t`: the inputs' buffers at what the sweep put there, the logits' at anything. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ X, owns (c : Thread nD τ) (st1_3 t) fullShare X))

/-- and what it returns: the hidden row's buffer at its block; the matrix's and the bias's stated on the part inside
    the array only; the logits' at anything. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ (∃ d, owns (c : Thread nD τ) (st1_1 t) fullShare
        ((cfg1.win 1).fill (cfg1.grid.coords t) d ((cfg1.win 1).cut (cfg1.grid.coords t) ((dat1 V c).after 1 t))))
    ∗ (∃ d, owns (c : Thread nD τ) (st1_2 t) fullShare
        ((cfg1.win 2).fill (cfg1.grid.coords t) d ((cfg1.win 2).cut (cfg1.grid.coords t) ((dat1 V c).after 2 t))))
    ∗ (∃ X, owns (c : Thread nD τ) (st1_3 t) fullShare X))

/-- The body at any point: the inputs arrive holding their tiles (filled out with whatever the buffer held), the body
    leaves them so, and a tile filled out and cut back is the tile. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩, ⟨%d3, H3⟩⟩
  rw [before1_0 V c t d0, before1_1 V c t d1, before1_2 V c t d2]
  iapply (sound_kernel1 c Set.univ (grid1.coords t) _ _ _ _ _ _ _ _ (tile1 V c 0 t)
    (win1_1.fill (grid1.coords t) d1 (tile1 V c 1 t)) (win1_2.fill (grid1.coords t) d2 (tile1 V c 2 t)) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  have h1 : win1_1.cut (grid1.coords t) (win1_1.fill (grid1.coords t) (fun _ => Scalar.ofBits .f32 0#32) (tile1 V c 1 t)) = tile1 V c 1 t :=
    win1_1.cut_fill _ _ _
  have h2 : win1_2.cut (grid1.coords t) (win1_2.fill (grid1.coords t) (fun _ => Scalar.ofBits .f32 0#32) (tile1 V c 2 t)) = tile1 V c 2 t :=
    win1_2.cut_fill _ _ _
  isplitl [H1]
  · iexists d1
    change _ ⊢ owns (c : Thread nD τ) (st1_1 t) fullShare (win1_1.fill (grid1.coords t) d1
      (win1_1.cut (grid1.coords t) (win1_1.fill (grid1.coords t) (fun _ => Scalar.ofBits .f32 0#32) (tile1 V c 1 t))))
    rw [h1]; try iexact H1
  isplitl [H2]
  · iexists d2
    change _ ⊢ owns (c : Thread nD τ) (st1_2 t) fullShare (win1_2.fill (grid1.coords t) d2
      (win1_2.cut (grid1.coords t) (win1_2.fill (grid1.coords t) (fun _ => Scalar.ofBits .f32 0#32) (tile1 V c 2 t))))
    rw [h2]; try iexact H2
  iexact H3

/-- The sweep's body obligation at every point, the logits' window forgotten. -/
theorem body_obligation1 (c : Dev nD) :
    BodyObligationLoose (dat1 (F := F) V c) (defs₀ (F := F)) Variants.none () Set.univ forgets1 := fun t => by
  rw [bigSep_W1, bigSep_W1]
  exact sound_body1 V c t

end Cert.Kernel.Hand

end
-- ==== Proof.KbRun.lean ====
/-
  The run of the word-level program, and its frame.

  @main is six items: the host stretch that gathers the embedding row and reshapes the biases, the recurrent-step
  region, one reshape, the output-projection region, the host log-softmax, and one broadcast. The contents of the
  core's buffers are followed item by item from the launch: a host stretch applies its operations; the first region
  leaves its two result arrays at what its body stores (every window is one whole block); the second region leaves
  the logits array at contents nothing names here (at the word level an entry of the product may depend on words the
  clipped fetches never wrote), and its three input arrays as they were. From that point on only one fact is carried
  about the contents: the fourteen argument arrays still hold what they held at launch, because no host operation and
  no region writes one. That fact at the end is the frame.
-/
import proofs.«103420_j15728170238452_2_alg».proof.Proof.KbRegion0
import proofs.«103420_j15728170238452_2_alg».proof.Proof.KbRegion1
import proofs.«103420_j15728170238452_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents, item by item -/

/-- The first region's entry contents: the launch memory after the first host stretch, read at the core's references. -/
abbrev ent0 : (c : Dev nD) → (b : Ref sig .tc) → Buf (Elt F) ((c : Thread nD τ).loc b) := fun c b => V1 m c b

/-- After the first region: its two result arrays at what the write-back of its one point leaves, every other
    buffer as entered. -/
def aft0 (c : Dev nD) : Valuation τ sig (Elt F) :=
  Pipeline.withArrays spec0 c (V1 m c) fun w => (dat0 (ent0 m) c).arrAt w cfg0.N
theorem aft0_arr (c : Dev nD) (w : Fin cfg0.W) :
    aft0 m c (Proc.devRef .tc (Pipeline.arrRef spec0 w)) = (dat0 (ent0 m) c).arrAt w cfg0.N := by
  unfold aft0; exact Pipeline.withArrays_arr spec0 launch0.win.arr_inj c _ _ w
theorem aft0_of_ne (c : Dev nD) (b : Ref sig .tc) (hb : ∀ w, Pipeline.arrRef spec0 w ≠ b) :
    aft0 m c (Proc.devRef .tc b) = V1 m c (Proc.devRef .tc b) := by
  unfold aft0; exact Pipeline.withArrays_of_ne spec0 c _ _ b hb
abbrev ext0 : (c : Dev nD) → (b : Ref sig .tc) → Buf (Elt F) ((c : Thread nD τ).loc b) := fun c b => aft0 m c b
theorem hF0 (c : Dev nD) (w : Fin cfg0.W) : (dat0 (ent0 m) c).arrAt w cfg0.N = ext0 m c (Pipeline.arrRef spec0 w) :=
  (aft0_arr m c w).symm
theorem hrest0 (c : Dev nD) : ∀ b, b ∉ Finset.univ.image (Pipeline.arrRef spec0) → ext0 m c b = ent0 m c b :=
  fun b hb => aft0_of_ne m c b fun w e => hb (Finset.mem_image.mpr ⟨w, Finset.mem_univ _, e⟩)

/-- After the reshape of the output bias: the second region's entry contents. -/
abbrev mid1 : Dev nD → Valuation τ sig (Elt F) := fun c => StableHlo.after hostOps1 (aft0 m c)
abbrev ent1 : (c : Dev nD) → (b : Ref sig .tc) → Buf (Elt F) ((c : Thread nD τ).loc b) := fun c b => mid1 m c b

/-! ## The argument arrays keep their launch contents -/

/-- @main's fourteen argument arrays. -/
abbrev argRefs : List (Ref sig .tc) := [main_arg0, main_arg1, main_arg2, main_arg3, main_arg4, main_arg5, main_arg6, main_arg7, main_arg8, main_arg9, main_arg10, main_arg11, main_arg12, main_arg13]

/-- A valuation of core `c`'s buffers under which every argument array holds its launch contents. -/
def KeepsArgs (c : Dev nD) (Wv : Valuation τ sig (Elt F)) : Prop :=
  ∀ b ∈ argRefs, Wv (Proc.devRef .tc b) = m ((c : Thread nD τ).loc b)

theorem args_unscoped : ∀ b ∈ argRefs, ¬ (Proc.devRef .tc b : DevRef τ sig).isScoped := by decide
theorem args_not_w0 : ∀ b ∈ argRefs, b ∉ (hostOps0_W : List (Ref sig .tc)) := by decide
theorem args_not_w1 : ∀ b ∈ argRefs, b ∉ (hostOps1_W : List (Ref sig .tc)) := by decide
theorem args_not_w2 : ∀ b ∈ argRefs, b ∉ (hostOps2_W : List (Ref sig .tc)) := by decide
theorem args_not_w2_1 : ∀ b ∈ argRefs, b ∉ (hostOps2_1_W : List (Ref sig .tc)) := by decide
theorem args_not_out0 : ∀ b ∈ argRefs, b ≠ main_v15_0 ∧ b ≠ main_v15_1 := by decide
theorem args_not_out1 : ∀ b ∈ argRefs, b ≠ main_v17 := by decide
/-- A window of the first region whose array is neither result array is an input window. -/
theorem in0_of_ne : ∀ w : Fin 13, Pipeline.arrRef spec0 w ≠ main_v15_0 → Pipeline.arrRef spec0 w ≠ main_v15_1 →
    (cfg0.win w).isOut = false := by decide
/-- A window of the second region whose array is not the logits array is an input window. -/
theorem in1_of_ne : ∀ w : Fin 4, Pipeline.arrRef spec1 w ≠ main_v17 → (cfg1.win w).isOut = false := by decide

/-- The first region changes only its two result arrays. -/
theorem aft0_keep (c : Dev nD) (b : Ref sig .tc) (h0 : b ≠ main_v15_0) (h1 : b ≠ main_v15_1) :
    aft0 m c (Proc.devRef .tc b) = V1 m c (Proc.devRef .tc b) := by
  by_cases h : ∃ w, Pipeline.arrRef spec0 w = b
  · obtain ⟨w, rfl⟩ := h
    rw [aft0_arr]
    exact ((dat0 (ent0 m) c).arrAt_in w (in0_of_ne w h0 h1) _).trans (A_eq0 (ent0 m) c w)
  · exact aft0_of_ne m c b fun w e => h ⟨w, e⟩

theorem keeps_ent0 (c : Dev nD) : KeepsArgs m c (V1 m c) :=
  fun b hb => (V1_of m c b (args_not_w0 b hb)).trans rfl
theorem keeps_aft0 (c : Dev nD) : KeepsArgs m c (aft0 m c) :=
  fun b hb => (aft0_keep m c b (args_not_out0 b hb).1 (args_not_out0 b hb).2).trans (keeps_ent0 m c b hb)
theorem keeps_mid1 (c : Dev nD) : KeepsArgs m c (mid1 m c) :=
  fun b hb => (StableHlo.after_of_writes_sub hostOps1 _ hostOps1_writes (args_not_w1 b hb)).trans (keeps_aft0 m c b hb)

/-- The second region's arrays put back over its entry contents, the inputs as entered and the logits at `Fs`: the
    arguments are still as launched. -/
theorem keeps_aft1 (c : Dev nD) (Fs : (w : Fin cfg1.W) → Buf (Elt F) ((cfg1.win w).arr.view.loc (c : Thread nD τ)))
    (hFs : ∀ w, forgets1 w = false → Fs w = (dat1 (ent1 m) c).arrAt w cfg1.N) :
    KeepsArgs m c (Pipeline.withArrays spec1 c (mid1 m c) Fs) := by
  intro b hb
  refine Eq.trans ?_ (keeps_mid1 m c b hb)
  by_cases h : ∃ w, Pipeline.arrRef spec1 w = b
  · obtain ⟨w, rfl⟩ := h
    have hin : (cfg1.win w).isOut = false := in1_of_ne w (args_not_out1 _ hb)
    have hf : forgets1 w = false := by
      revert hin; revert w; decide
    rw [Pipeline.withArrays_arr spec1 launch1.win.arr_inj c _ _ w, hFs w hf]
    exact ((dat1 (ent1 m) c).arrAt_in w hin _).trans (A_eq1 (ent1 m) c w)
  · exact Pipeline.withArrays_of_ne spec1 c _ _ b fun w e => h ⟨w, e⟩

/-! ## The proof data family and the thread states -/

/-- Every pipeline's exact proof data, each at its region's entry contents. -/
def pdats : (p : Fin 2) → (c : Dev nD) → Dat τ (Elt F) Unit ℕ (UR sig nD τ) ℕ (Pipeline.pin (pcfgs (F := F)) adm p) c
  | ⟨0, _⟩ => fun c => dat0 (ent0 m) c
  | ⟨1, _⟩ => fun c => dat1 (ent1 m) c
/-- The same read relationally: the first region's as named, the second's with the logits' window forgotten. -/
def rdats : (p : Fin 2) → (c : Dev nD) → RDat τ (Elt F) Unit ℕ (UR sig nD τ) ℕ (Pipeline.pin (pcfgs (F := F)) adm p) c
  | ⟨0, _⟩ => fun c => (dat0 (ent0 m) c).toR
  | ⟨1, _⟩ => fun c => (dat1 (ent1 m) c).toRForget forgets1

abbrev noVar : Variants := Variants.none
/-- No core owes another anything: no level is assigned. -/
abbrev noL : GSem nD τ sig → Finset Unit := fun _ => ∅
abbrev noLv : GSem nD τ sig → Unit → ℕ := fun _ _ => 0
/-- What rides beside the buffers: the generator register at some state, and the core owing nothing. -/
abbrev side (c : Dev nD) : sProp 𝕄 := iprop((∃ r, prngReg c r) ∗ ∃ W, owes (c : Thread nD τ) (0 : CellTallies nD τ sig Unit) W)
/-- The thread state once the logits are no longer named: every unscoped buffer at SOME contents under which the
    arguments are as launched, the generator register at some state; beside it the core owes nothing. -/
abbrev loose (c : Dev nD) : sProp 𝕄 :=
  iprop(∃ Wv : Valuation τ sig (Elt F), ⌜KeepsArgs m c Wv⌝ ∗ StableHlo.held (c : Thread nD τ) (Pipeline.ucRefs τ sig) Wv ∗ ∃ r, prngReg c r)
abbrev looseSt (c : Dev nD) : sProp 𝕄 :=
  iprop(loose m c ∗ ∃ W, owes (c : Thread nD τ) (0 : CellTallies nD τ sig Unit) W)

/-- A host stretch from named contents (`HostSeg.ofOps`). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ noVar noL noLv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W side

-- a StableHLO rule stated for any thread meets the TensorCore thread only when unification may unfold plain
-- definitions in a metavariable's type
set_option backward.isDefEq.respectTransparency.types false in
/-- A host stretch from contents that are not named, of which only "the arguments are as launched" is known: it
    writes no argument (`hkeep`), so the same is known after it. -/
def hsegLoose (ops : List (HloOp τ sig (Elt F))) (hsub : ops.Forall fun op => op.bufs ⊆ StableHlo.tcRefs τ sig)
    (hfresh : ops.Forall fun op => op.fresh = ∅)
    (hkeep : ∀ (c : Dev nD) (Wv : Valuation τ sig (Elt F)), KeepsArgs m c Wv → KeepsArgs m c (StableHlo.after ops Wv)) :
    Pipeline.HostSeg (Name := ℕ) (U := UR sig nD τ) (pcfgs (F := F)) defs₀ noVar noL noLv where
  prog := StableHlo.seq ops
  pre c := looseSt m c
  post c := looseSt m c
  run c {β} k K := by
    iintro ⟨Hk, Hbd, ⟨⟨%Wv, %hK, Hh, Hp⟩, HO⟩, -⟩
    have hseq := StableHlo.wp_seq (defs := Pipeline.defs (pcfgs (F := F)) defs₀) (Variants.lift noVar) none Set.univ c
      (Pipeline.ucRefs τ sig) k (K := K) ops
      (fun op h => Pipeline.sub_ucRefs op ((List.forall_iff_forall_mem.mp hsub) op h))
      (fun op h => (List.forall_iff_forall_mem.mp hfresh) op h) Wv
    iapply hseq $$ [Hbd Hh]
    · isplitl [Hbd] <;> iassumption
    iintro ⟨Hbd, Hh⟩
    iapply Hk
    isplitl [Hbd]; · iexact Hbd
    isplitl [Hh Hp]
    · iexists (StableHlo.after ops Wv)
      isplitr; · ipureintro; exact hkeep c Wv hK
      isplitl [Hh] <;> iassumption
    iexact HO

theorem keep_ops2 (c : Dev nD) (Wv : Valuation τ sig (Elt F)) (h : KeepsArgs m c Wv) : KeepsArgs m c (StableHlo.after hostOps2 Wv) :=
  fun b hb => (StableHlo.after_of_writes_sub hostOps2 _ hostOps2_writes (args_not_w2 b hb)).trans (h b hb)
theorem keep_ops2_1 (c : Dev nD) (Wv : Valuation τ sig (Elt F)) (h : KeepsArgs m c Wv) : KeepsArgs m c (StableHlo.after hostOps2_1 Wv) :=
  fun b hb => (StableHlo.after_of_writes_sub hostOps2_1 _ hostOps2_1_writes (args_not_w2_1 b hb)).trans (h b hb)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

/-- Four windows' assertions, each a pure fact beside a resource: the four facts together, beside the resources. -/
theorem pure_out4 (P : Fin 4 → Prop) (R : Fin 4 → sProp 𝕄) :
    (bigSep Finset.univ fun w => iprop(⌜P w⌝ ∗ R w)) ⊢ iprop(⌜∀ w, P w⌝ ∗ bigSep Finset.univ R) := by
  rw [bigSep_W1, bigSep_W1]
  iintro ⟨⟨%h0, H0⟩, ⟨%h1, H1⟩, ⟨%h2, H2⟩, ⟨%h3, H3⟩⟩
  isplitr
  · ipureintro
    exact fun w => match w with
      | ⟨0, _⟩ => h0 | ⟨1, _⟩ => h1 | ⟨2, _⟩ => h2 | ⟨3, _⟩ => h3
  isplitl [H0]; · iexact H0
  isplitl [H1]; · iexact H1
  isplitl [H2]; · iexact H2
  iexact H3

/-- What the second region hands back: its four arrays at ONE family of contents, which at the three input windows
    is what the exact data names (their entry contents), and at the logits' window is anything. -/
theorem arrays_after1 (c : Dev nD) :
    ((rdats m 1 c).arraysAt cfg1.N : sProp 𝕄) ⊢ iprop(∃ Fs : (w : Fin cfg1.W) → Buf (Elt F) ((cfg1.win w).arr.view.loc (c : Thread nD τ)),
      ⌜∀ w, forgets1 w = false → Fs w = (dat1 (ent1 m) c).arrAt w cfg1.N⌝ ∗ (dat1 (ent1 m) c).arrays Fs) := by
  unfold RDat.arraysAt
  refine (bigSep_exists_pi (M := 𝕄) Finset.univ _).trans ?_
  iintro ⟨%Fs, H⟩
  iexists Fs
  ihave H' := (pure_out4 (fun w => (rdats m 1 c).ArrAt w cfg1.N (Fs w))
    (fun w => iprop((cfg1.win w).arr.view.loc (c : Thread nD τ) ↦[(cfg1.win w).arr.view.set]{(rdats m 1 c).share w} Fs w))) $$ H
  icases H' with ⟨%hA, H'⟩
  isplitr
  · ipureintro
    exact fun w hw => ((dat1 (ent1 m) c).toRForget_arrAt_iff hw cfg1.N (Fs w)).mp (hA w)
  · unfold Dat.arrays
    iexact H'

-- a library lemma stated over the pinned configuration meets the printed one only when unification may unfold plain
-- definitions in a metavariable's type
set_option backward.isDefEq.respectTransparency.types false in
/-- The recurrent-step region over the thread state: entered with every unscoped buffer at the contents after the
    first host stretch, left with them at `aft0`. -/
def reg0 : Pipeline.RDat.RegionSeg (pcfgs (F := F)) adm (rdats m) () defs₀ noVar noL noLv 0 where
  win := launch0.win.to₀
  block_pos := launch0.block_pos
  stage_whole := launch0.stage_whole
  K := PEmpty
  osem k := k.elim
  ho := Pipeline.OwnSemFacts.none _
  hbody c := (body_obligation0 (ent0 m) c).toR
  hwaits := Pipeline.RDat.hwaits_of_owed_zero _ _ _ _ noL noLv 0 fun _ _ => rfl
  pre c := iprop(StableHlo.held (c : Thread nD τ) (Pipeline.ucRefs τ sig) (V1 m c) ∗ side c)
  post c := iprop(StableHlo.held (c : Thread nD τ) (Pipeline.ucRefs τ sig) (aft0 m c) ∗ side c)
  X c := iprop(∃ r, prngReg c r)
  Y c := iprop(∃ r, prngReg c r)
  Z c := Pipeline.unscopedRest (Ix := Unit) (Name := ℕ) (U := UR sig nD τ) (Lvl := ℕ) spec0 c (ent0 m c)
  hentry c := by
    rw [Pipeline.ownSems0_none]
    have hsplit := Pipeline.RDat.arrays_of_unscopedBufs (p := 0) (pcfgs (F := F)) adm (rdats m) launch0.win launch0.arr_whole c
      ((rdats m 0 c).share_full fun _ => rfl) (ent0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (rdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (ent0 m c) (ext0 m c) ((pdats m 0 c).arrAt · cfg0.N) (hF0 m c) (hrest0 m c)
    rw [Pipeline.unscopedBufs_held] at hjoin
    rw [show (rdats m 0 c).arraysAt (Pipeline.pin (pcfgs (F := F)) adm 0).N = ((pdats m 0 c).arrays ((pdats m 0 c).arrAt · cfg0.N) : sProp 𝕄)
      from (dat0 (ent0 m) c).toR_arraysAt_eq cfg0.N]
    iintro ⟨Ha, HO, HY, Hrest⟩
    imodintro
    isplitl [Ha Hrest]
    · iapply hjoin; isplitl [Ha] <;> iassumption
    isplitl [HY]; · iexact HY
    unfold Pipeline.RDat.owesAt Pipeline.owesWithin
    icases HO with ⟨%W, -, HO⟩; iexists W; iexact HO

-- as above
set_option backward.isDefEq.respectTransparency.types false in
/-- The output-projection region over the thread state: entered with every unscoped buffer at the contents after the
    reshape of the bias, left with them at contents of which only "the arguments are as launched" is kept. -/
def reg1 : Pipeline.RDat.RegionSeg (pcfgs (F := F)) adm (rdats m) () defs₀ noVar noL noLv 1 where
  win := launch1.win.to₀
  block_pos := launch1.block_pos
  stage_whole := launch1.stage_whole
  K := PEmpty
  osem k := k.elim
  ho := Pipeline.OwnSemFacts.none _
  hbody c := (body_obligation1 (ent1 m) c).toRForget
  hwaits := Pipeline.RDat.hwaits_of_owed_zero _ _ _ _ noL noLv 1 fun _ _ => rfl
  pre c := iprop(StableHlo.held (c : Thread nD τ) (Pipeline.ucRefs τ sig) (mid1 m c) ∗ side c)
  post c := looseSt m c
  X c := iprop(∃ r, prngReg c r)
  Y c := iprop(∃ r, prngReg c r)
  Z c := Pipeline.unscopedRest (Ix := Unit) (Name := ℕ) (U := UR sig nD τ) (Lvl := ℕ) spec1 c (ent1 m c)
  hentry c := by
    rw [Pipeline.ownSems0_none]
    have hsplit := Pipeline.RDat.arrays_of_unscopedBufs (p := 1) (pcfgs (F := F)) adm (rdats m) launch1.win launch1.arr_whole c
      ((rdats m 1 c).share_full fun _ => rfl) (ent1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (rdats m 1 c).Φ (Fin.last _) = Pipeline.ΦA spec1 c from rfl]; unfold Pipeline.ΦA
    iintro ⟨Hr, Hp⟩
    isplitl [Hp]; · iexact Hp
    isplitr; · iempintro
    iexact Hr
  hexit c := by
    iintro ⟨Ha, HO, HY, Hrest⟩
    ihave Hs := (arrays_after1 m c) $$ Ha
    icases Hs with ⟨%Fs, %hFs, Ha⟩
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (ent1 m c) (fun b => Pipeline.withArrays spec1 c (mid1 m c) Fs b) Fs
      (fun w => (Pipeline.withArrays_arr spec1 launch1.win.arr_inj c _ _ w).symm)
      (fun b hb => Pipeline.withArrays_of_ne spec1 c _ _ b fun w e => hb (Finset.mem_image.mpr ⟨w, Finset.mem_univ _, e⟩))
    rw [Pipeline.unscopedBufs_held] at hjoin
    imodintro
    isplitr [HO]
    · iexists (Pipeline.withArrays spec1 c (mid1 m c) Fs)
      isplitr; · ipureintro; exact keeps_aft1 m c Fs hFs
      isplitl [Ha Hrest]
      · iapply hjoin
        isplitl [Ha]; · iexact Ha
        iexact Hrest
      iexact HY
    unfold Pipeline.RDat.owesAt Pipeline.owesWithin
    icases HO with ⟨%W, -, HO⟩; iexists W; iexact HO

/-! ## @main as segments, and the frame -/

/-- @main's six items in order. -/
abbrev segs : List (Pipeline.RDat.Seg (pcfgs (F := F)) adm (rdats m) () defs₀ noVar noL noLv) :=
  [ .host (hseg hostOps0 hostOps0_sub hostOps0_fresh (V0 m)),
    .region (reg0 m),
    .host (hseg hostOps1 hostOps1_sub hostOps1_fresh (aft0 m)),
    .region (reg1 m),
    .host (hsegLoose m hostOps2 hostOps2_sub hostOps2_fresh (keep_ops2 m)),
    .host (hsegLoose m hostOps2_1 hostOps2_1_sub hostOps2_1_fresh (keep_ops2_1 m)) ]

-- the launch theorem's implicit arguments are found by unifying its conclusion with this one, which takes unfolding
-- plain definitions in a metavariable's type
set_option backward.isDefEq.respectTransparency.types false in
/-- At the compiled mesh, at any number format, from any memory with zero counters: every weakly fair execution of
    @main terminates, nothing faulting, and every final state has the fourteen argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.RDat.θ_run_regions_kit (pcfgs (F := F)) adm (rdats m) () cellOf_inj emb₁ defs₀ noVar noL noLv m ρ main (segs m)
    (fun c Q => by
      rewrite [main_chain c, Pipeline.RDat.Seg.run_eq_chain,
        show (segs m).map Pipeline.RDat.Seg.prog = [
          StableHlo.seq hostOps0,
          Prog.lift (.customCall (Pipeline.entry 0) ()),
          StableHlo.seq hostOps1,
          Prog.lift (.customCall (Pipeline.entry 1) ()),
          StableHlo.seq hostOps2,
          StableHlo.seq hostOps2_1 ] from rfl]
      exact .rfl)
    (by simp only [segs, Pipeline.RDat.Seg.pipes_host, Pipeline.RDat.Seg.pipes_region, Pipeline.RDat.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ side c)) (Tₙ := loose m)
    (hch := ⟨fun _ => .rfl, fun _ => .rfl, fun _ => .rfl, fun _ => .rfl, fun _ => .rfl, fun _ => .rfl, fun _ => .rfl⟩)
    (hinit := by
      refine Pipeline.initEach noL noLv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ argRefs, s.mem ((c : Thread nD τ).loc b) = m ((c : Thread nD τ).loc b))
    (hfin := fun c s' => by
      iintro ⟨⟨%Wv, %hK, Hh, -⟩, HSI⟩
      unfold StableHlo.held
      ihave Hr := (pointsTo_read_all (Pipeline.ucRefs τ sig) (fun b => ((c : Thread nD τ).1, b)) Wv s') $$ [Hh HSI]
      · isplitl [Hh] <;> iassumption
      icases Hr with ⟨%h, HSI⟩
      imodintro
      isplitr
      · ipureintro
        exact fun b hb => (h (Proc.devRef .tc b) (mem_uc b (args_unscoped b hb))).trans (hK b hb)
      · iexact HSI)
    (hQ := fun s h c => ⟨h c main_arg0 (by decide), h c main_arg1 (by decide), h c main_arg2 (by decide), h c main_arg3 (by decide), h c main_arg4 (by decide), h c main_arg5 (by decide), h c main_arg6 (by decide), h c main_arg7 (by decide), h c main_arg8 (by decide), h c main_arg9 (by decide), h c main_arg10 (by decide), h c main_arg11 (by decide), h c main_arg12 (by decide), h c main_arg13 (by decide)⟩)

/-- info: 'Cert.Kernel.Hand.frame' depends on axioms: [propext, Classical.choice, Quot.sound] -/
#guard_msgs in #print axioms frame

end Cert.Kernel.Hand

end
-- ==== Proof.KiRegion0.lean ====
/- The idealized kernel's first region (the recurrent step: attention over the encoder states, the combined input, and
   the new hidden state), as one pipeline over a grid of one point whose every window is its whole array: the half of
   the certificate that is about the body. Stated at a parameter `V`, the TensorCore's buffer contents when the region is
   entered, and at any number format `F`. -/
import proofs.«103420_j15728170238452_2_alg».proof.Proof.Gen.KernelIdeal.Launch
import proofs.«103420_j15728170238452_2_alg».proof.Proof.Gen.KernelIdeal.Skeleton
import proofs.«103420_j15728170238452_2_alg».proof.Proof.Gen.KernelIdeal.Points
import Idealize.ShloMosaic.Lib.Pipeline.FrameBody
import Idealize.ShloMosaic.Lib.Ring
import Idealize.ShloMosaic.Lib.Tactic

-- membership in a rectangle of full extents: the structural look recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 0 of @main: the recurrent step, at the entry contents `V` -/

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, fetched there or not, for any proof data whose
    array is the entry contents and whose body leaves the block in place; the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds its block at every point, fetched there or not, for any proof data whose
    array is the entry contents and whose body leaves the block in place; the window is uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's staging buffer holds its block at every point, fetched there or not, for any proof data whose
    array is the entry contents and whose body leaves the block in place; the window is uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's staging buffer holds its block at every point, fetched there or not, for any proof data whose
    array is the entry contents and whose body leaves the block in place; the window is uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's staging buffer holds its block at every point, fetched there or not, for any proof data whose
    array is the entry contents and whose body leaves the block in place; the window is uncut and never idle. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's staging buffer holds its block at every point, fetched there or not, for any proof data whose
    array is the entry contents and whose body leaves the block in place; the window is uncut and never idle. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6's staging buffer holds its block at every point, fetched there or not, for any proof data whose
    array is the entry contents and whose body leaves the block in place; the window is uncut and never idle. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-- Input window 7's staging buffer holds its block at every point, fetched there or not, for any proof data whose
    array is the entry contents and whose body leaves the block in place; the window is uncut and never idle. -/
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)

/-- Input window 8's staging buffer holds its block at every point, fetched there or not, for any proof data whose
    array is the entry contents and whose body leaves the block in place; the window is uncut and never idle. -/
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)

/-- Input window 9's staging buffer holds its block at every point, fetched there or not, for any proof data whose
    array is the entry contents and whose body leaves the block in place; the window is uncut and never idle. -/
theorem before0_9_of {c : Dev nD} (dat : Dat τ (Elt F) Unit ℕ (UR sig nD τ) ℕ cfg0 c) (hA : dat.A 9 = V c (Pipeline.arrRef spec0 9))
    (hafter : ∀ t, dat.after 9 t = iblk0 V c 9 t) (t : Fin cfg0.N) (d) : dat.before 9 t d = iblk0 V c 9 t :=
  (dat.before_in_eq_fetched 9 rfl (fun _ => rfl) (fun _ _ _ => rfl) (fun t => by rw [hafter]; unfold Dat.blockOf iblk0; rw [hA]; try rfl) t d).trans
    (by unfold Dat.fetched Dat.blockOf iblk0; rw [hA]; try rfl)

/-- Input window 10's staging buffer holds its block at every point, fetched there or not, for any proof data whose
    array is the entry contents and whose body leaves the block in place; the window is uncut and never idle. -/
theorem before0_10_of {c : Dev nD} (dat : Dat τ (Elt F) Unit ℕ (UR sig nD τ) ℕ cfg0 c) (hA : dat.A 10 = V c (Pipeline.arrRef spec0 10))
    (hafter : ∀ t, dat.after 10 t = iblk0 V c 10 t) (t : Fin cfg0.N) (d) : dat.before 10 t d = iblk0 V c 10 t :=
  (dat.before_in_eq_fetched 10 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and store is of a whole staging buffer -/

abbrev rc_S1x1024 : Rect S1x1024 := Rect.unit (s := S1x1024) ![0, 0] S1x1024.size inb_S1x1024_S1x1024_0_0
abbrev rc_S12x1024 : Rect S12x1024 := Rect.unit (s := S12x1024) ![0, 0] S12x1024.size inb_S12x1024_S12x1024_0_0
abbrev rc_S12x2048 : Rect S12x2048 := Rect.unit (s := S12x2048) ![0, 0] S12x2048.size inb_S12x2048_S12x2048_0_0
abbrev rc_S1x12 : Rect S1x12 := Rect.unit (s := S1x12) ![0, 0] S1x12.size inb_S1x12_S1x12_0_0
abbrev rc_S1024x2048 : Rect S1024x2048 := Rect.unit (s := S1024x2048) ![0, 0] S1024x2048.size inb_S1024x2048_S1024x2048_0_0
abbrev rc_S1024x1024 : Rect S1024x1024 := Rect.unit (s := S1024x1024) ![0, 0] S1024x1024.size inb_S1024x1024_S1024x1024_0_0

/-! ## What the body leaves in each output window's buffer -/

/-- The new hidden state's staging buffer after the body: its one store, the hyperbolic tangent of the two gate
    pre-activations' sum, over the loaded input blocks. -/
def out0_11 (x0 : Vec F S1x1024 .f32) (x1 : Vec F S1x1024 .f32) (x2 : Vec F S12x1024 .f32) (x3 : Vec F S12x2048 .f32) (x4 : Vec F S1x12 .f32) (x5 : Vec F S1024x2048 .f32) (x6 : Vec F S1x1024 .f32) (x7 : Vec F S1024x1024 .f32) (x8 : Vec F S1024x1024 .f32) (x9 : Vec F S1x1024 .f32) (x10 : Vec F S1x1024 .f32) : Vec F S1x1024 .f32 :=
  View.canon [⟨rc_S1x1024, k0_pay1 (k0_pay3 (View.ld x1 rc_S1x1024)) (k0_pay5 (View.ld x0 rc_S1x1024) (View.ld x1 rc_S1x1024) (View.ld x3 rc_S12x2048) (View.ld x4 rc_S1x12) (View.ld x2 rc_S12x1024) (View.ld x5 rc_S1024x2048) (View.ld x6 rc_S1x1024)) (k0_pay6 (F := F)) (View.ld x7 rc_S1024x1024) (View.ld x8 rc_S1024x1024) (View.ld x9 rc_S1x1024) (View.ld x10 rc_S1x1024)⟩]

/-- Its store covers the buffer. -/
theorem cover0_11 (p0 : Vec F S1x1024 .f32) (y : S1x1024.Idx) :
    ∃ pc ∈ ([⟨rc_S1x1024, p0⟩] : List (View.Piece (Elt F) S1x1024 .f32)), y ∈ pc.1.set :=
  View.cover_of_tiled [⟨rc_S1x1024, p0⟩] S1x1024.size (by rfl) y

/-- The attention weights' staging buffer after the body: its one store, the softmax of the attention scores, over the
    loaded input blocks. -/
def out0_12 (x0 : Vec F S1x1024 .f32) (x1 : Vec F S1x1024 .f32) (x2 : Vec F S12x1024 .f32) (x3 : Vec F S12x2048 .f32) (x4 : Vec F S1x12 .f32) (x5 : Vec F S1024x2048 .f32) (x6 : Vec F S1x1024 .f32) (x7 : Vec F S1024x1024 .f32) (x8 : Vec F S1024x1024 .f32) (x9 : Vec F S1x1024 .f32) (x10 : Vec F S1x1024 .f32) : Vec F S1x12 .f32 :=
  View.canon [⟨rc_S1x12, k0_pay4 (View.ld x0 rc_S1x1024) (View.ld x1 rc_S1x1024) (View.ld x3 rc_S12x2048) (View.ld x4 rc_S1x12)⟩]

/-- Its store covers the buffer. -/
theorem cover0_12 (p0 : Vec F S1x12 .f32) (y : S1x12.Idx) :
    ∃ pc ∈ ([⟨rc_S1x12, p0⟩] : List (View.Piece (Elt F) S1x12 .f32)), y ∈ pc.1.set :=
  View.cover_of_tiled [⟨rc_S1x12, p0⟩] S1x12.size (by rfl) y

/-! ## The body's triple -/

set_option maxHeartbeats 4000000 in
/-- The kernel body on whole staging memrefs, the inputs' at read contents `xW` and the outputs' at anything, runs to the
    continuation holding the inputs' as they were and each output's at `out0_W` of the inputs': the printed function and
    the part it calls are their skeletons, run statement by statement. -/
theorem sound_kernel0 (c : Dev nD) (E : Set ℕ) (i : grid0.Coords) (arg1 : Memref sig .tc .vmem S1x1024 .f32) (harg1 : arg1.IsWhole) (arg2 : Memref sig .tc .vmem S1x1024 .f32) (harg2 : arg2.IsWhole) (arg3 : Memref sig .tc .vmem S12x1024 .f32) (harg3 : arg3.IsWhole) (arg4 : Memref sig .tc .vmem S12x2048 .f32) (harg4 : arg4.IsWhole) (arg5 : Memref sig .tc .vmem S1x12 .f32) (harg5 : arg5.IsWhole) (arg6 : Memref sig .tc .vmem S1024x2048 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x12 .f32) (harg13 : arg13.IsWhole)
    (x0 : Vec F S1x1024 .f32) (x1 : Vec F S1x1024 .f32) (x2 : Vec F S12x1024 .f32) (x3 : Vec F S12x2048 .f32) (x4 : Vec F S1x12 .f32) (x5 : Vec F S1024x2048 .f32) (x6 : Vec F S1x1024 .f32) (x7 : Vec F S1024x1024 .f32) (x8 : Vec F S1024x1024 .f32) (x9 : Vec F S1x1024 .f32) (x10 : Vec F S1x1024 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d) ∗ (∃ d, owns (c : Thread nD τ) arg13 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare (out0_11 x0 x1 x2 x3 x4 x5 x6 x7 x8 x9 x10) ∗ owns (c : Thread nD τ) arg13 fullShare (out0_12 x0 x1 x2 x3 x4 x5 x6 x7 x8 x9 x10)) -∗ K ⟨⟩))
      ⊢ wp frame (wpE (defs₀ (F := F)) Variants.none c none) E (cc0__rnn_step_kernel i arg1 harg1 arg2 harg2 arg3 harg3 arg4 harg4 arg5 harg5 arg6 harg6 arg7 harg7 arg8 harg8 arg9 harg9 arg10 harg10 arg11 harg11 arg12 harg12 arg13 harg13) K := by
  simp only [cc0__rnn_step_kernel_eq_skeleton]; unfold cc0__rnn_step_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, Hk⟩
  subst hf0 hf1 hf2 hf3 hf4 hf5 hf6 hf7 hf8 hf9 hf10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists _; isplitr
    swap; · iexact H11
    ipureintro
    try dsimp only
    exact View.read_writes_eq_canon _ _ _ (cover0_11 _)
  iexists _; isplitr
  swap; · iexact H12
  ipureintro
  try dsimp only
  exact View.read_writes_eq_canon _ _ _ (cover0_12 _)

/-! ## The pipeline's proof data -/

/-- The proof data of the region on core `c`: the arrays as the region finds them; after the body at point `t` each
    input's buffer at its block and each output's at `out0_W` of the input blocks; the invariant the scoped rest and the
    generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => iblk0 V c 10 t
    | ⟨11, _⟩ => out0_11 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t)
    | ⟨12, _⟩ => out0_12 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = iblk0 V c 9 t := by dsimp only [dat0]
theorem after0_10 (c : Dev nD) (t : Fin cfg0.N) : (dat0 V c).after 10 t = iblk0 V c 10 t := by dsimp only [dat0]
theorem after0_11 (c : Dev nD) (t : Fin cfg0.N) : (dat0 V c).after 11 t = out0_11 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) := by dsimp only [dat0]
theorem after0_12 (c : Dev nD) (t : Fin cfg0.N) : (dat0 V c).after 12 t = out0_12 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d
theorem before0_9 (c : Dev nD) (t : Fin cfg0.N) (d) : (dat0 V c).before 9 t d = iblk0 V c 9 t :=
  before0_9_of V (dat0 V c) (A_eq0 V c 9) (after0_9 V c) t d
theorem before0_10 (c : Dev nD) (t : Fin cfg0.N) (d) : (dat0 V c).before 10 t d = iblk0 V c 10 t :=
  before0_10_of V (dat0 V c) (A_eq0 V c 10) (after0_10 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d))
    ∗ (∃ d, owns (c : Thread nD τ) (st0_12 t) fullShare ((dat0 V c).before 12 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t)
    ∗ owns (c : Thread nD τ) (st0_11 t) fullShare ((dat0 V c).after 11 t)
    ∗ owns (c : Thread nD τ) (st0_12 t) fullShare ((dat0 V c).after 12 t))

set_option maxHeartbeats 1000000 in
/-- The body at any point: the inputs' memrefs hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9, before0_10]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10, after0_11, after0_12]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (sound_kernel0 c Set.univ (grid0.coords t) _ _ _ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  iintro ⟨H0, H1, H2, H3, H4, H5, H6, H7, H8, H9, H10, H11, H12⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.SpecLogit.lean ====
/-
  One entry of the output projection, as a formula on the extended reals.

  The projection multiplies the new hidden row `h` (1 × 1024) by the transpose of the vocabulary matrix `W`
  (50257 × 1024) and adds the bias row `b` (1 × 50257): entry `n` is `∑ k, h[0,k] · W[n,k] + b[0,n]`.
  It reads row `n` of `W` and entry `n` of `b` only, so a tile of the vocabulary axis computes its entries from
  its own rows, whatever the other rows of the tile hold.
-/
import Idealize.ShloMosaic.PureOps.Ideal
import Idealize.ShloMosaic.Lib.ValueIdx

noncomputable section

open scoped BigOperators

namespace Cert.Spec

open Idealize.ShloMosaic Idealize.ShloMosaic.ValueIdx

/-- Entry `n` of `h · Wᵀ + b`. -/
def logitAt (h : FVec Ideal ⟨2, ![1, 1024]⟩ .f32) (W : FVec Ideal ⟨2, ![50257, 1024]⟩ .f32)
    (b : FVec Ideal ⟨2, ![1, 50257]⟩ .f32) (n : Fin 50257) : EReal :=
  (∑ k : Fin 1024, h (ix2 (0 : Fin 1) k) * W (ix2 n k)) + b (ix2 (0 : Fin 1) n)

end Cert.Spec

end
-- ==== Proof.KiRegion1.lean ====
/-
  Region 1 of the idealized kernel: the output projection, swept over fifteen tiles of 3584 vocabulary entries.

  The vocabulary axis has 50257 = 14 · 3584 + 81 entries, so the fifteenth tile overhangs the arrays by 3503
  entries: the transfers of the vocabulary matrix, of the bias row and of the logits row are cut at the arrays' end,
  and a staging buffer's lanes past the cut hold words nothing names. The hidden row is one whole block, fetched at
  the first point and kept.

  What is proved: at the extended reals the body's result at lane `q` of a tile is
  `(∑ k, h[0,k] · Wtile[q,k]) + btile[0,q]` — it reads row `q` of the matrix tile and lane `q` of the bias tile
  and nothing else —, the three cut windows are cut at the same coordinate, so the lanes of the logits tile inside
  the array are computed from rows and lanes inside the arrays; the fifteen write-backs therefore leave entry `n`
  of the logits row at `(∑ k, h[0,k] · W[n,k]) + b[0,n]` (`region1_value`), whatever the lanes past the cut held.
-/
import proofs.«103420_j15728170238452_2_alg».proof.Proof.Gen.KernelIdeal.Launch
import proofs.«103420_j15728170238452_2_alg».proof.Proof.Gen.KernelIdeal.Skeleton
import proofs.«103420_j15728170238452_2_alg».proof.Proof.Gen.KernelIdeal.Points
import proofs.«103420_j15728170238452_2_alg».proof.Proof.SpecLogit
import Idealize.ShloMosaic.PureOps.Ideal.Laws
import Idealize.ShloMosaic.Lib.Pipeline.FrameBody
import Idealize.ShloMosaic.Lib.Pipeline.Value
import Idealize.ShloMosaic.Lib.Pipeline.Kit
import Idealize.ShloMosaic.Lib.Tactic

set_option maxRecDepth 16384

noncomputable section

namespace Cert.KernelIdeal.Hand

open Cert.KernelIdeal Cert.KernelIdeal.Gen

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open scoped BigOperators

local notation "𝕄" => MT nD τ sig Unit (Elt Ideal) ℕ (UR sig nD τ) ℕ

-- the TensorCore's buffer contents when the region is entered
variable (V : (c : Dev nD) → (b : Ref sig .tc) → Buf (Elt Ideal) ((c : Thread nD τ).loc b))

/-! ## The windows' blocks -/

/-- Window `w`'s block at point `t`, read off its array as the region finds it: the block's part inside the array. -/
def iblk1 (c : Dev nD) (w : Fin cfg1.W) (t : Fin cfg1.N) :
    ((cfg1.win w).xblock (cfg1.grid.coords t)).Idx → Elt Ideal (cfg1.win w).elt :=
  ((cfg1.win w).blk t).view.read (Elt Ideal) (V c (Pipeline.arrRef spec1 w))

/-- The logits row the region is shown to leave: entry `n` is `(∑ k, h[0,k] · W[n,k]) + b[0,n]`. -/
def logits1 (c : Dev nD) : Buf (Elt Ideal) ((c : Thread nD τ).loc main_v17) :=
  fun i => Cert.Spec.logitAt (V c main_v15_0) (V c main_arg12) (V c main_v16) (i 1)

/-- Its tile at point `t`: the part of the tile inside the array. -/
def oblk1 (c : Dev nD) (t : Fin cfg1.N) :
    ((cfg1.win 3).xblock (cfg1.grid.coords t)).Idx → Elt Ideal (cfg1.win 3).elt :=
  ((cfg1.win 3).blk t).view.read (Elt Ideal) (logits1 V c)

/-! ## The pipeline's proof data -/

/-- The proof data of the region on core `c`: the arrays as the region finds them; after the body at point `t` the
    hidden row's buffer at the hidden row, the matrix's and the bias's at their tiles and the logits' at the tile of
    `logits1`, each of the three filled out past the array's end with the zero word (nothing reads the filler: the
    three windows are stated on the part their transfers move); the class's invariant; nothing owed; full shares. -/
def dat1 (c : Dev nD) : Dat τ (Elt Ideal) Unit ℕ (UR sig nD τ) ℕ cfg1 c where
  A w := V c (Pipeline.arrRef spec1 w)
  after w t := match w with
    | ⟨0, _⟩ => iblk1 V c 0 t
    | ⟨1, _⟩ => win1_1.fill (grid1.coords t) (fun _ => (0 : EReal)) (iblk1 V c 1 t)
    | ⟨2, _⟩ => win1_2.fill (grid1.coords t) (fun _ => (0 : EReal)) (iblk1 V c 2 t)
    | ⟨3, _⟩ => win1_3.fill (grid1.coords t) (fun _ => (0 : EReal)) (oblk1 V c t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) :
    (dat1 V c).after 1 t = win1_1.fill (grid1.coords t) (fun _ => (0 : EReal)) (iblk1 V c 1 t) := by dsimp only [dat1]
theorem after1_2 (c : Dev nD) (t : Fin cfg1.N) :
    (dat1 V c).after 2 t = win1_2.fill (grid1.coords t) (fun _ => (0 : EReal)) (iblk1 V c 2 t) := by dsimp only [dat1]
theorem after1_3 (c : Dev nD) (t : Fin cfg1.N) :
    (dat1 V c).after 3 t = win1_3.fill (grid1.coords t) (fun _ => (0 : EReal)) (oblk1 V c t) := by dsimp only [dat1]

/-! ## The tiles' places

Decided once over the fifteen points. -/

theorem idx1_3 : ∀ t : Fin cfg1.N, win1_3.index t (0 : Fin 2) = 0 ∧ win1_3.index t (1 : Fin 2) = t.val
    ∧ win1_3.xsize (grid1.coords t) (0 : Fin 2) = 1
    ∧ ((t.val < 14 ∧ win1_3.xsize (grid1.coords t) (1 : Fin 2) = 3584) ∨ (t.val = 14 ∧ win1_3.xsize (grid1.coords t) (1 : Fin 2) = 81)) :=
  (by decide +kernel : ∀ t : Fin grid1.N, _)

/-! ## The body's result at a lane

At the extended reals the roundings to bf16 are the identity, the transposed matrix tile read at (k, q) is the tile
at (q, k), and a product accumulated into the zero splat is the sum of the products: lane `q` of the body's result is
`(∑ k, h[0,k] · W[q,k]) + b[0,q]`. -/

theorem dotL0 (i : S1x3584.Idx) (p : dot_S1x1024_S1024x3584_S1x3584_1_0_0_1_n_n.contr.Idx) :
    (dot_S1x1024_S1024x3584_S1x3584_1_0_0_1_n_n.lhsIdx i p 0).val = (i 0).val := by
  unfold DotDims.lhsIdx
  rw [dif_neg (show ¬(0 : Fin S1x1024.rank) ∈ dot_S1x1024_S1024x3584_S1x3584_1_0_0_1_n_n.lhsBatch by decide), dif_pos (show (0 : Fin S1x1024.rank) ∈ dot_S1x1024_S1024x3584_S1x3584_1_0_0_1_n_n.lhsNonContracting by decide)]
  rfl
theorem dotL1 (i : S1x3584.Idx) (p : dot_S1x1024_S1024x3584_S1x3584_1_0_0_1_n_n.contr.Idx) :
    (dot_S1x1024_S1024x3584_S1x3584_1_0_0_1_n_n.lhsIdx i p 1).val = (p ⟨0, by decide⟩).val :=
  dot_S1x1024_S1024x3584_S1x3584_1_0_0_1_n_n.lhsIdx_val_of_single rfl i p
theorem dotR0 (i : S1x3584.Idx) (p : dot_S1x1024_S1024x3584_S1x3584_1_0_0_1_n_n.contr.Idx) :
    (dot_S1x1024_S1024x3584_S1x3584_1_0_0_1_n_n.rhsIdx i p 0).val = (p ⟨0, by decide⟩).val :=
  dot_S1x1024_S1024x3584_S1x3584_1_0_0_1_n_n.rhsIdx_val_of_single rfl i p
theorem dotR1 (i : S1x3584.Idx) (p : dot_S1x1024_S1024x3584_S1x3584_1_0_0_1_n_n.contr.Idx) :
    (dot_S1x1024_S1024x3584_S1x3584_1_0_0_1_n_n.rhsIdx i p 1).val = (i 1).val := by
  unfold DotDims.rhsIdx
  rw [dif_neg (show ¬(1 : Fin S1024x3584.rank) ∈ dot_S1x1024_S1024x3584_S1x3584_1_0_0_1_n_n.rhsBatch by decide), dif_pos (show (1 : Fin S1024x3584.rank) ∈ dot_S1x1024_S1024x3584_S1x3584_1_0_0_1_n_n.rhsNonContracting by decide)]
  rfl

theorem pay1_apply (h : Vec Ideal S1x1024 .f32) (W : Vec Ideal S3584x1024 .f32) (b : Vec Ideal S1x3584 .f32) (q : Fin 3584) :
    k1_pay1 (F := Ideal) h W b (ix2 (0 : Fin 1) q)
      = (∑ k : Fin 1024, h (ix2 (0 : Fin 1) k) * W (ix2 q k)) + b (ix2 (0 : Fin 1) q) := by
  unfold k1_pay1
  show FloatOps.matmul (F := Ideal) dot_S1x1024_S1024x3584_S1x3584_1_0_0_1_n_n none
        (truncf (F := Ideal) .bf16 (shapeCast S1x1024 h shapeCasts_S1x1024_S1x1024) bitsLt_bf16_f32)
        (transpose S1024x3584 [1, 0] (truncf (F := Ideal) .bf16 W bitsLt_bf16_f32) transposes_S3584x1024_p1_0_S1024x3584)
        (constant (F := Ideal) S1x3584 .f32 0x00000000#32) (ix2 (0 : Fin 1) q)
      + shapeCast S1x3584 b shapeCasts_S1x3584_S1x3584 (ix2 (0 : Fin 1) q) = _
  rw [shapeCast_self, shapeCast_self, Ideal.matmul_constant_zero_apply,
    ← Equiv.sum_comp (contrEquiv1 dot_S1x1024_S1024x3584_S1x3584_1_0_0_1_n_n 1024 rfl rfl).symm]
  refine congrArg (· + b (ix2 (0 : Fin 1) q)) (Finset.sum_congr rfl fun k _ => ?_)
  have hk := contrEquiv1_symm_val dot_S1x1024_S1024x3584_S1x3584_1_0_0_1_n_n 1024 rfl rfl k
  have el : dot_S1x1024_S1024x3584_S1x3584_1_0_0_1_n_n.lhsIdx (ix2 (0 : Fin 1) q) ((contrEquiv1 dot_S1x1024_S1024x3584_S1x3584_1_0_0_1_n_n 1024 rfl rfl).symm k) = ix2 (0 : Fin 1) k :=
    funext fun a => Fin.ext (by
      match a with
      | ⟨0, _⟩ => exact dotL0 _ _
      | ⟨1, _⟩ => exact (dotL1 _ _).trans hk)
  have er : transpose S1024x3584 [1, 0] (truncf (F := Ideal) .bf16 W bitsLt_bf16_f32) transposes_S3584x1024_p1_0_S1024x3584
        (dot_S1x1024_S1024x3584_S1x3584_1_0_0_1_n_n.rhsIdx (ix2 (0 : Fin 1) q) ((contrEquiv1 dot_S1x1024_S1024x3584_S1x3584_1_0_0_1_n_n 1024 rfl rfl).symm k))
      = W (ix2 q k) :=
    transpose_apply [1, 0] (truncf (F := Ideal) .bf16 W bitsLt_bf16_f32) transposes_S3584x1024_p1_0_S1024x3584
      (dot_S1x1024_S1024x3584_S1x3584_1_0_0_1_n_n.rhsIdx (ix2 (0 : Fin 1) q) ((contrEquiv1 dot_S1x1024_S1024x3584_S1x3584_1_0_0_1_n_n 1024 rfl rfl).symm k)) (ix2 q k) (fun a => by
      match a with
      | ⟨0, _⟩ => exact ((dotR0 (ix2 (0 : Fin 1) q) _).trans hk).symm
      | ⟨1, _⟩ => exact (dotR1 (ix2 (0 : Fin 1) q) _).symm)
  rw [el, er]
  rfl

/-! ## The three cut windows are cut alike

Decided once over the fifteen points: tile `t` of the matrix starts at row `t · 3584`, tile `t` of the bias and of the
logits at lane `t · 3584`; the three are cut to the same count of rows or lanes (3584, and 81 at the last point). -/

theorem idx1_1 : ∀ t : Fin cfg1.N, win1_1.index t (0 : Fin 2) = t.val ∧ win1_1.index t (1 : Fin 2) = 0
    ∧ win1_1.xsize (grid1.coords t) (1 : Fin 2) = 1024
    ∧ win1_1.xsize (grid1.coords t) (0 : Fin 2) = win1_3.xsize (grid1.coords t) (1 : Fin 2) :=
  (by decide +kernel : ∀ t : Fin grid1.N, _)

theorem idx1_2 : ∀ t : Fin cfg1.N, win1_2.index t (0 : Fin 2) = 0 ∧ win1_2.index t (1 : Fin 2) = t.val
    ∧ win1_2.xsize (grid1.coords t) (0 : Fin 2) = 1
    ∧ win1_2.xsize (grid1.coords t) (1 : Fin 2) = win1_3.xsize (grid1.coords t) (1 : Fin 2) :=
  (by decide +kernel : ∀ t : Fin grid1.N, _)

theorem idx1_0 : ∀ t : Fin cfg1.N, win1_0.index t (0 : Fin 2) = 0 ∧ win1_0.index t (1 : Fin 2) = 0 :=
  (by decide +kernel : ∀ t : Fin grid1.N, _)

/-- The matrix tile filled out past the array's end, read at a row inside the array, is the matrix's row. -/
theorem fillW_apply (t : Fin cfg1.N) (Wa : Vec Ideal S50257x1024 .f32) (d1 : Vec Ideal S3584x1024 .f32)
    (q : Fin 3584) (k : Fin 1024) (n : Fin 50257)
    (hq : q.val < win1_1.xsize (grid1.coords t) (0 : Fin 2)) (hn : n.val = t.val * 3584 + q.val) :
    win1_1.fill (grid1.coords t) d1 ((win1_1.blk t).view.read (Elt Ideal) Wa) (ix2 q k) = Wa (ix2 n k) := by
  obtain ⟨i0, i1, x1, -⟩ := idx1_1 t
  have hm : win1_1.moved (grid1.coords t) (ix2 q k) = true := (win1_1.moved_iff _ _).mpr fun a => by
    match a with
    | ⟨0, _⟩ => exact hq
    | ⟨1, _⟩ => show k.val < win1_1.xsize (grid1.coords t) (1 : Fin 2); rw [x1]; exact k.isLt
  unfold Window.fill
  rw [dif_pos hm]
  show Wa ((win1_1.rect t).emb _) = Wa (ix2 n k)
  refine congrArg Wa (funext fun a => Fin.ext ?_)
  rw [Window.rect_emb_val]
  match a with
  | ⟨0, _⟩ => show win1_1.index t (0 : Fin 2) * 3584 + q.val = n.val; rw [i0]; omega
  | ⟨1, _⟩ => show win1_1.index t (1 : Fin 2) * 1024 + k.val = k.val; rw [i1]; omega

/-- The bias tile filled out past the array's end, read at a lane inside the array, is the bias's lane. -/
theorem fillb_apply (t : Fin cfg1.N) (ba : Vec Ideal S1x50257 .f32) (d2 : Vec Ideal S1x3584 .f32)
    (q : Fin 3584) (n : Fin 50257)
    (hq : q.val < win1_2.xsize (grid1.coords t) (1 : Fin 2)) (hn : n.val = t.val * 3584 + q.val) :
    win1_2.fill (grid1.coords t) d2 ((win1_2.blk t).view.read (Elt Ideal) ba) (ix2 (0 : Fin 1) q) = ba (ix2 (0 : Fin 1) n) := by
  obtain ⟨i0, i1, x0, -⟩ := idx1_2 t
  have hm : win1_2.moved (grid1.coords t) (ix2 (0 : Fin 1) q) = true := (win1_2.moved_iff _ _).mpr fun a => by
    match a with
    | ⟨0, _⟩ => show (0 : Nat) < win1_2.xsize (grid1.coords t) (0 : Fin 2); rw [x0]; exact Nat.one_pos
    | ⟨1, _⟩ => exact hq
  unfold Window.fill
  rw [dif_pos hm]
  show ba ((win1_2.rect t).emb _) = ba (ix2 (0 : Fin 1) n)
  refine congrArg ba (funext fun a => Fin.ext ?_)
  rw [Window.rect_emb_val]
  match a with
  | ⟨0, _⟩ => show win1_2.index t (0 : Fin 2) * 1 + 0 = 0; rw [i0]
  | ⟨1, _⟩ => show win1_2.index t (1 : Fin 2) * 3584 + q.val = n.val; rw [i1]; omega

/-- THE TILE'S RESULT INSIDE THE ARRAY. The body's result from the hidden row and the matrix and bias tiles, each
    filled out past the arrays' end with anything, read at a lane the logits tile's write-back moves, is the named
    entry: that lane reads row and lane `t · 3584 + q` of the arrays, which the three cuts leave inside them. -/
theorem cut_pay1 (t : Fin cfg1.N) (h : Vec Ideal S1x1024 .f32) (Wa : Vec Ideal S50257x1024 .f32) (ba : Vec Ideal S1x50257 .f32)
    (d1 : Vec Ideal S3584x1024 .f32) (d2 : Vec Ideal S1x3584 .f32) (j : (win1_3.xblock (grid1.coords t)).Idx) :
    k1_pay1 (F := Ideal) h (win1_1.fill (grid1.coords t) d1 ((win1_1.blk t).view.read (Elt Ideal) Wa))
        (win1_2.fill (grid1.coords t) d2 ((win1_2.blk t).view.read (Elt Ideal) ba)) (win1_3.xinj (grid1.coords t) j)
      = Cert.Spec.logitAt h Wa ba ((win1_3.rect t).emb j (1 : Fin 2)) := by
  obtain ⟨e0, e1, x0, -⟩ := idx1_3 t
  obtain ⟨-, -, -, hx1⟩ := idx1_1 t
  obtain ⟨-, -, -, hx2⟩ := idx1_2 t
  have hj0 : (j (0 : Fin 2) : Nat) < win1_3.xsize (grid1.coords t) (0 : Fin 2) := (j (0 : Fin 2)).isLt
  have hj1 : (j (1 : Fin 2) : Nat) < win1_3.xsize (grid1.coords t) (1 : Fin 2) := (j (1 : Fin 2)).isLt
  have hle : win1_3.xsize (grid1.coords t) (1 : Fin 2) ≤ 3584 := win1_3.xsize_le _ (1 : Fin 2)
  have hq : (j (1 : Fin 2) : Nat) < 3584 := by omega
  have hx : win1_3.xinj (grid1.coords t) j = ix2 (0 : Fin 1) (⟨(j (1 : Fin 2) : Nat), hq⟩ : Fin 3584) :=
    funext fun a => Fin.ext (by
      match a with
      | ⟨0, _⟩ => show (j (0 : Fin 2) : Nat) = 0; omega
      | ⟨1, _⟩ => rfl)
  have hn : ((win1_3.rect t).emb j (1 : Fin 2) : Nat) = t.val * 3584 + (j (1 : Fin 2) : Nat) := by
    rw [Window.rect_emb_val]; show win1_3.index t (1 : Fin 2) * 3584 + (j (1 : Fin 2) : Nat) = _; rw [e1]
  rw [hx, pay1_apply]
  unfold Cert.Spec.logitAt
  refine congrArg₂ (· + ·) (Finset.sum_congr rfl fun k _ => congrArg (h (ix2 (0 : Fin 1) k) * ·) ?_) ?_
  · exact fillW_apply t Wa d1 _ k _ (by rw [hx1]; exact hj1) hn
  · exact fillb_apply t ba d2 _ _ (by rw [hx2]; exact hj1) hn

/-- The hidden row's one block is the hidden row. -/
theorem iblk1_0_eq (c : Dev nD) (t : Fin cfg1.N) : iblk1 V c 0 t = V c main_v15_0 := by
  obtain ⟨i0, i1⟩ := idx1_0 t
  funext y
  show V c main_v15_0 ((win1_0.rect t).emb y) = V c main_v15_0 y
  refine congrArg (V c main_v15_0) (funext fun a => Fin.ext ?_)
  rw [Window.rect_emb_val]
  match a with
  | ⟨0, _⟩ => show win1_0.index t (0 : Fin 2) * 1 + (y (0 : Fin 2) : Nat) = (y (0 : Fin 2) : Nat); rw [i0]; omega
  | ⟨1, _⟩ => show win1_0.index t (1 : Fin 2) * 1024 + (y (1 : Fin 2) : Nat) = (y (1 : Fin 2) : Nat); rw [i1]; omega

/-- The body's result on the blocks the pipeline hands it, cut back to what the write-back moves, is the named tile. -/
theorem cut_out1 (c : Dev nD) (t : Fin cfg1.N) (d1 : Vec Ideal S3584x1024 .f32) (d2 : Vec Ideal S1x3584 .f32) :
    win1_3.cut (grid1.coords t) (k1_pay1 (F := Ideal) (iblk1 V c 0 t)
        (win1_1.fill (grid1.coords t) d1 (iblk1 V c 1 t)) (win1_2.fill (grid1.coords t) d2 (iblk1 V c 2 t)))
      = oblk1 V c t := by
  funext j
  rw [iblk1_0_eq]
  exact cut_pay1 t (V c main_v15_0) (V c main_arg12) (V c main_v16) d1 d2 j

/-! ## The body's triple -/

abbrev r1_h : Rect S1x1024 := Rect.unit (s := S1x1024) ![0, 0] S1x1024.size inb_S1x1024_S1x1024_0_0
abbrev r1_W : Rect S3584x1024 := Rect.unit (s := S3584x1024) ![0, 0] S3584x1024.size inb_S3584x1024_S3584x1024_0_0
abbrev r1_b : Rect S1x3584 := Rect.unit (s := S1x3584) ![0, 0] S1x3584.size inb_S1x3584_S1x3584_0_0

/-- The logits' staging buffer after the body, from what the three input buffers hold: its one store, of the whole
    buffer, of the body's result on the three whole loads. -/
def out1_3 (x0 : Vec Ideal S1x1024 .f32) (x1 : Vec Ideal S3584x1024 .f32) (x2 : Vec Ideal S1x3584 .f32) : Vec Ideal S1x3584 .f32 :=
  View.canon [⟨r1_b, k1_pay1 (F := Ideal) (View.ld x0 r1_h) (View.ld x1 r1_W) (View.ld x2 r1_b)⟩]

theorem zero2 : (![0, 0] : Fin 2 → Nat) = fun _ => 0 := funext fun a => by fin_cases a <;> rfl

/-- The loads and the store are of whole buffers: the buffer ends holding the body's result on the three contents. -/
theorem out1_3_eq (x0 : Vec Ideal S1x1024 .f32) (x1 : Vec Ideal S3584x1024 .f32) (x2 : Vec Ideal S1x3584 .f32) :
    out1_3 x0 x1 x2 = k1_pay1 (F := Ideal) x0 x1 x2 := by
  unfold out1_3
  rw [View.canon_unit_zero zero2, View.ld_unit_zero zero2, View.ld_unit_zero zero2, View.ld_unit_zero zero2]

theorem cover1_out (p0 : Vec Ideal S1x3584 .f32) (y : S1x3584.Idx) :
    ∃ pc ∈ ([⟨r1_b, p0⟩] : List (View.Piece (Elt Ideal) S1x3584 .f32)), y ∈ pc.1.set :=
  ⟨⟨r1_b, p0⟩, List.mem_singleton_self _, View.mem_set_unit_zero zero2 inb_S1x3584_S1x3584_0_0 y⟩

set_option maxHeartbeats 1000000 in
/-- The kernel body on whole staging memrefs, the three inputs' at contents `x0`, `x1`, `x2` and the logits' at
    anything, runs to the continuation holding the inputs' as they were and the logits' at `out1_3` of them. -/
theorem sound_kernel1 (c : Dev nD) (E : Set ℕ) (i : grid1.Coords)
    (arg1 : Memref sig .tc .vmem S1x1024 .f32) (harg1 : arg1.IsWhole) (arg2 : Memref sig .tc .vmem S3584x1024 .f32) (harg2 : arg2.IsWhole)
    (arg3 : Memref sig .tc .vmem S1x3584 .f32) (harg3 : arg3.IsWhole) (arg4 : Memref sig .tc .vmem S1x3584 .f32) (harg4 : arg4.IsWhole)
    (x0 : Vec Ideal S1x1024 .f32) (x1 : Vec Ideal S3584x1024 .f32) (x2 : Vec Ideal S1x3584 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
              ∗ owns (c : Thread nD τ) arg4 fullShare (out1_3 x0 x1 x2)) -∗ K ⟨⟩))
      ⊢ wp frame (wpE (defs₀ (F := Ideal)) Variants.none c none) E (cc1__outproj_kernel i arg1 harg1 arg2 harg2 arg3 harg3 arg4 harg4) K := by
  simp only [cc1__outproj_kernel_eq_skeleton]; unfold cc1__outproj_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_out _)

/-! ## What the body finds, and what it must leave -/

/-- The hidden row's buffer holds the hidden row at every point, fetched there or not. -/
theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)

/-- The matrix's and the bias's buffers are fetched at every point: their tiles on the part the fetch fills, `d` past it. -/
theorem before1_1 (c : Dev nD) (t : Fin cfg1.N) (d) :
    (dat1 V c).before 1 t d = win1_1.fill (grid1.coords t) d (iblk1 V c 1 t) := by
  unfold Dat.before; rw [if_pos (fetch1_1 t)]; unfold Dat.fetched Dat.blockOf iblk1; rw [A_eq1]; try rfl
theorem before1_2 (c : Dev nD) (t : Fin cfg1.N) (d) :
    (dat1 V c).before 2 t d = win1_2.fill (grid1.coords t) d (iblk1 V c 2 t) := by
  unfold Dat.before; rw [if_pos (fetch1_2 t)]; unfold Dat.fetched Dat.blockOf iblk1; rw [A_eq1]; try rfl

/-- What the proof data name on the part each cut window's transfers move. -/
theorem kept1_1 (c : Dev nD) (t : Fin cfg1.N) : win1_1.cut (grid1.coords t) ((dat1 V c).after 1 t) = iblk1 V c 1 t := by
  rw [after1_1]; exact win1_1.cut_fill _ _ _
theorem kept1_2 (c : Dev nD) (t : Fin cfg1.N) : win1_2.cut (grid1.coords t) ((dat1 V c).after 2 t) = iblk1 V c 2 t := by
  rw [after1_2]; exact win1_2.cut_fill _ _ _
theorem kept1_3 (c : Dev nD) (t : Fin cfg1.N) : win1_3.cut (grid1.coords t) ((dat1 V c).after 3 t) = oblk1 V c t := by
  rw [after1_3]; exact win1_3.cut_fill _ _ _

/-- What the logits' buffer holds after the body is the named tile on the part the write-back moves. -/
theorem fill_out1 (c : Dev nD) (t : Fin cfg1.N) (d1 : Vec Ideal S3584x1024 .f32) (d2 : Vec Ideal S1x3584 .f32) :
    win1_3.fill (grid1.coords t)
        (out1_3 (iblk1 V c 0 t) (win1_1.fill (grid1.coords t) d1 (iblk1 V c 1 t)) (win1_2.fill (grid1.coords t) d2 (iblk1 V c 2 t)))
        (oblk1 V c t)
      = out1_3 (iblk1 V c 0 t) (win1_1.fill (grid1.coords t) d1 (iblk1 V c 1 t)) (win1_2.fill (grid1.coords t) d2 (iblk1 V c 2 t)) := by
  rw [out1_3_eq, ← cut_out1 V c t d1 d2]
  exact win1_3.fill_cut _ _

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns: the hidden row's buffer as named, each cut window's as named on the part its transfers move. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ (∃ d, owns (c : Thread nD τ) (st1_1 t) fullShare (win1_1.fill (grid1.coords t) d (win1_1.cut (grid1.coords t) ((dat1 V c).after 1 t))))
    ∗ (∃ d, owns (c : Thread nD τ) (st1_2 t) fullShare (win1_2.fill (grid1.coords t) d (win1_2.cut (grid1.coords t) ((dat1 V c).after 2 t))))
    ∗ (∃ d, owns (c : Thread nD τ) (st1_3 t) fullShare (win1_3.fill (grid1.coords t) d (win1_3.cut (grid1.coords t) ((dat1 V c).after 3 t)))))

/-- The body at any point: the three input buffers hold the hidden row and the two tiles filled out with whatever the
    fetch left past the cut; the body leaves them so and the logits' buffer at its result on them, which on the part
    the write-back moves is the named tile (`fill_out1`). -/
theorem sound_body1 (c : Dev nD) (t : Fin cfg1.N) :
    bodyPre1 V c t ⊢ wp frame (wpE (defs₀ (F := Ideal)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, kept1_1, kept1_2, kept1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (win1_1.fill (grid1.coords t) d1 (iblk1 V c 1 t))
    (win1_2.fill (grid1.coords t) d2 (iblk1 V c 2 t)) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexists d1; iexact H1
  isplitl [H2]; · iexists d2; iexact H2
  iexists out1_3 (iblk1 V c 0 t) (win1_1.fill (grid1.coords t) d1 (iblk1 V c 1 t)) (win1_2.fill (grid1.coords t) d2 (iblk1 V c 2 t))
  rw [fill_out1 V c t d1 d2]
  iexact H3

/-- The library's body obligation, at every point. -/
theorem body_obligation1 (c : Dev nD) :
    BodyObligationLoose (dat1 V c) (defs₀ (F := Ideal)) Variants.none () Set.univ := fun t => by
  rw [bigSep_W1, bigSep_W1]
  exact sound_body1 V c t

/-! ## The arrays after the region -/

/-- The three inputs' arrays are never written. -/
theorem region1_inputs (c : Dev nD) (w : Fin cfg1.W) (hw : w.val < 3) :
    (dat1 V c).arrAt w cfg1.N = V c (Pipeline.arrRef spec1 w) := by
  have hin : (cfg1.win w).isOut = false := by
    match w, hw with
    | ⟨0, _⟩, _ => rfl
    | ⟨1, _⟩, _ => rfl
    | ⟨2, _⟩, _ => rfl
  exact ((dat1 V c).arrAt_in w hin _).trans (A_eq1 V c w)

/-- What each write-back writes is its tile of the named logits row. -/
theorem flushed1_3 (c : Dev nD) (t : Fin cfg1.N) :
    (dat1 V c).flushed 3 t = ((cfg1.win 3).blk t).view.read (Elt Ideal) (logits1 V c) := by
  unfold Dat.flushed
  rw [after1_3]
  exact win1_3.cut_fill _ _ _

/-- An entry of the logits row is in point `t`'s tile iff, on each axis, it lies from the tile's start up to the cut. -/
theorem mem_blk1_3 (t : Fin cfg1.N) (i : S1x50257.Idx) :
    i ∈ ((cfg1.win 3).blk t).view.set ↔
      ∀ a, win1_3.index t a * win1_3.size a ≤ (i a : Nat) ∧ (i a : Nat) < win1_3.index t a * win1_3.size a + win1_3.xsize (grid1.coords t) a := by
  show i ∈ ((View.whole main_v17).slice (win1_3.rect t)).set ↔ _
  rw [View.set_slice_whole, Rect.mem_set_unit]

/-- Entry `n` lies in tile `n / 3584`: fourteen tiles of 3584 lanes and a fifteenth cut to 81 make up the 50257. -/
theorem cover1_3 (i : S1x50257.Idx) :
    ∃ t : Fin cfg1.N, (cfg1.win 3).flush t = true ∧ i ∈ ((cfg1.win 3).blk t).view.set := by
  have h0 : (i 0 : Nat) < 1 := (i 0).isLt
  have h1 : (i 1 : Nat) < 50257 := (i 1).isLt
  have hN : grid1.N = 15 := N_1
  refine ⟨⟨(i 1 : Nat) / 3584, by show (i 1 : Nat) / 3584 < grid1.N; omega⟩, flush1_3 _, ?_⟩
  rw [mem_blk1_3]
  obtain ⟨e0, e1, x0, x1⟩ := idx1_3 ⟨(i 1 : Nat) / 3584, by show (i 1 : Nat) / 3584 < grid1.N; omega⟩
  intro a
  match a with
  | ⟨0, _⟩ =>
    show win1_3.index _ (0 : Fin 2) * 1 ≤ (i 0 : Nat) ∧ (i 0 : Nat) < win1_3.index _ (0 : Fin 2) * 1 + win1_3.xsize _ (0 : Fin 2)
    rw [e0, x0]; omega
  | ⟨1, _⟩ =>
    show win1_3.index _ (1 : Fin 2) * 3584 ≤ (i 1 : Nat) ∧ (i 1 : Nat) < win1_3.index _ (1 : Fin 2) * 3584 + win1_3.xsize _ (1 : Fin 2)
    rw [e1]
    show (i 1 : Nat) / 3584 * 3584 ≤ (i 1 : Nat) ∧ (i 1 : Nat) < (i 1 : Nat) / 3584 * 3584 + win1_3.xsize _ (1 : Fin 2)
    rcases x1 with ⟨hlt, hx⟩ | ⟨heq, hx⟩
    · rw [hx]; have : ((⟨(i 1 : Nat) / 3584, by show (i 1 : Nat) / 3584 < grid1.N; omega⟩ : Fin cfg1.N).val) = (i 1 : Nat) / 3584 := rfl
      omega
    · rw [hx]; have : ((⟨(i 1 : Nat) / 3584, by show (i 1 : Nat) / 3584 < grid1.N; omega⟩ : Fin cfg1.N).val) = (i 1 : Nat) / 3584 := rfl
      omega

/-- The logits row after the fifteen write-backs is the named row. -/
theorem arr1_3 (c : Dev nD) : (dat1 V c).arrAt 3 cfg1.N = logits1 V c :=
  (dat1 V c).arrAt_eq_of_cover 3 (logits1 V c) (fun t _ => flushed1_3 V c t) cover1_3

/-- Entry `n` of the logits row after the region is `(∑ k, h[0,k] · W[n,k]) + b[0,n]`. -/
theorem region1_value (c : Dev nD) (n : Fin 50257) :
    (dat1 V c).arrAt 3 cfg1.N (ix2 (0 : Fin 1) n)
      = Cert.Spec.logitAt (V c main_v15_0) (V c main_arg12) (V c main_v16) n := by
  rw [arr1_3]; rfl

end Cert.KernelIdeal.Hand

end
-- ==== Proof.KiRun.lean ====
/- The idealized kernel's whole run: @main as six segments — the host operations that prepare the token's embedding row
   and the bias rows, the recurrent step's region, the reshape of the output bias, the output projection's region, the
   log-softmax of the logits row and the reshape of the new hidden state — from the launch to the return, with the
   buffer contents at every segment boundary named as a fold from the launch memory. Every weakly fair execution
   terminates and the final memory holds every unscoped buffer at the last boundary's contents. -/
import proofs.«103420_j15728170238452_2_alg».proof.Proof.KiRegion0
import proofs.«103420_j15728170238452_2_alg».proof.Proof.KiRegion1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-! ## The buffer contents at each segment boundary: a fold through @main -/

/-- Core `c`'s buffers at launch. -/
abbrev W0 : Dev nD → Valuation τ sig (Elt Ideal) := fun c b => (s₀ m ρ).mem ((c : Dev nD), b)
/-- After the first host stretch (region 0's entry). -/
abbrev W1 : Dev nD → Valuation τ sig (Elt Ideal) := fun c => StableHlo.after (hostOps0 (F := Ideal)) (W0 m ρ c)
/-- The same read at the TensorCore's references (what region 0's proof data take). -/
abbrev V1 : (c : Dev nD) → (b : Ref sig .tc) → Buf (Elt Ideal) ((c : Thread nD τ).loc b) := fun c b => W1 m ρ c b

/-- At region 0's exit: its arrays at what the pipeline leaves (the inputs as entered, each output's write-backs folded),
    every other buffer as entered. -/
def W2 (c : Dev nD) : Valuation τ sig (Elt Ideal) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (region 0's exit contents). -/
abbrev V2 : (c : Dev nD) → (b : Ref sig .tc) → Buf (Elt Ideal) ((c : Thread nD τ).loc b) := fun c b => W2 m ρ c b
/-- At region 0's exit each of its arrays holds what the pipeline leaves and every other buffer what it held at entry. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (region 1's entry). -/
abbrev W3 : Dev nD → Valuation τ sig (Elt Ideal) := fun c => StableHlo.after (hostOps1 (F := Ideal)) (W2 m ρ c)
/-- The same read at the TensorCore's references (what region 1's proof data take). -/
abbrev V3 : (c : Dev nD) → (b : Ref sig .tc) → Buf (Elt Ideal) ((c : Thread nD τ).loc b) := fun c b => W3 m ρ c b

/-- At region 1's exit: its arrays at what the pipeline leaves (the inputs as entered, each output's write-backs folded),
    every other buffer as entered. -/
def W4 (c : Dev nD) : Valuation τ sig (Elt Ideal) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the TensorCore's references (region 1's exit contents). -/
abbrev V4 : (c : Dev nD) → (b : Ref sig .tc) → Buf (Elt Ideal) ((c : Thread nD τ).loc b) := fun c b => W4 m ρ c b
/-- At region 1's exit each of its arrays holds what the pipeline leaves and every other buffer what it held at entry. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the log-softmax stretch. -/
abbrev W5 : Dev nD → Valuation τ sig (Elt Ideal) := fun c => StableHlo.after (hostOps2 (F := Ideal)) (W4 m ρ c)
/-- After the last host stretch: the contents @main returns from. -/
abbrev W6 : Dev nD → Valuation τ sig (Elt Ideal) := fun c => StableHlo.after (hostOps2_1 (F := Ideal)) (W5 m ρ c)

/-! ## The proof data family and the thread state -/

/-- The prefetched tables' admissible contents: no pipeline has a table. -/
abbrev adm : (p : Fin 2) → (pcfgs (F := Ideal) p).Adm := fun p => (cfgs p).toPCfg_adm
/-- Every pipeline's proof data, each at its region's entry contents — a literal `match`, so that the pinned
    configuration at a numeral reduces to the printed one. -/
def pdats : (p : Fin 2) → (c : Dev nD) → Dat τ (Elt Ideal) Unit ℕ (UR sig nD τ) ℕ (Pipeline.pin (pcfgs (F := Ideal)) adm p) c
  | ⟨0, _⟩ => fun c => dat0 (V1 m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues, at
    nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along: it is left with
    those references at the contents after the stretch's operations. -/
abbrev hseg (ops : List (HloOp τ sig (Elt Ideal))) (hsub : ops.Forall fun op => op.bufs ⊆ StableHlo.tcRefs τ sig)
    (hfresh : ops.Forall fun op => op.fresh = ∅) (W : Dev nD → Valuation τ sig (Elt Ideal)) :
    Pipeline.HostSeg (Name := ℕ) (U := UR sig nD τ) (pcfgs (F := Ideal)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No host operation allocates a buffer. -/
theorem hostOps0_fresh : (hostOps0 : List (HloOp τ sig (Elt Ideal))).Forall fun op => op.fresh = ∅ := by
  simp only [List.Forall]; repeat' constructor
theorem hostOps1_fresh : (hostOps1 : List (HloOp τ sig (Elt Ideal))).Forall fun op => op.fresh = ∅ := by
  simp only [List.Forall]; repeat' constructor
theorem hostOps2_fresh : (hostOps2 : List (HloOp τ sig (Elt Ideal))).Forall fun op => op.fresh = ∅ := by
  simp only [List.Forall]; repeat' constructor
theorem hostOps2_1_fresh : (hostOps2_1 : List (HloOp τ sig (Elt Ideal))).Forall fun op => op.fresh = ∅ := by
  simp only [List.Forall]; repeat' constructor
/-- The last thread state without the dues: every unscoped buffer at the last boundary's contents, the generator
    register at some state. -/
abbrev Tₙ (c : Dev nD) : sProp 𝕄 := iprop(StableHlo.held (c : Thread nD τ) (Pipeline.ucRefs τ sig) (W6 m ρ c) ∗ ∃ r, prngReg c r)

/-! ## The regions as segments -/

-- `iapply` of a library lemma stated over the pinned configuration unifies with it only when unification may unfold
-- plain definitions in a metavariable's type
set_option backward.isDefEq.respectTransparency.types false in
/-- REGION 0 over the thread state: entered from every unscoped buffer at `W1`, left at `W2`. Its arrays are
    split out of the unscoped buffers and put back at the exit contents; the generator register goes into the class
    invariant and comes out; nothing is owed; the kernel has no semaphore of its own. -/
def reg0 : Pipeline.RegionSeg (pcfgs (F := Ideal)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := Ideal)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := Ideal)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over the pinned configuration unifies with it only when unification may unfold
-- plain definitions in a metavariable's type
set_option backward.isDefEq.respectTransparency.types false in
/-- REGION 1 over the thread state: entered from every unscoped buffer at `W3`, left at `W4`. Its arrays are
    split out of the unscoped buffers and put back at the exit contents; the generator register goes into the class
    invariant and comes out; nothing is owed; the kernel has no semaphore of its own. -/
def reg1 : Pipeline.RegionSeg (pcfgs (F := Ideal)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := body_obligation1 (V3 m ρ) c
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := Ideal)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := Ideal)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's six segments in order: a host segment per stretch from its boundary's contents, a region per kernel call. -/
abbrev segs : List (Pipeline.Seg (pcfgs (F := Ideal)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .host (hseg hostOps2_1 hostOps2_1_sub hostOps2_1_fresh (W5 m ρ)) ]
/-- @main is the run of the segments: it is the chain of its items, and the segments' run is that chain. -/
theorem main_run (c : Dev nD) : main (F := Ideal) c = Pipeline.Seg.run (segs m ρ) := (main_chain c).trans (by chain_rfl)

-- the several-region launch theorem's implicit arguments are found by unifying its conclusion with this one, which takes unfolding plain
-- definitions in a metavariable's type
set_option backward.isDefEq.respectTransparency.types false in
/-- THE RUN: at the compiled mesh, from any memory with zero counters, every weakly fair execution of @main on the
    TensorCores terminates, nothing faulting, and every final state holds every unscoped buffer at the last boundary's
    contents `W6`: the several-region launch theorem over the six segments, the last thread state read against the final state. -/
theorem run_all : θ_run defs (onTc (τ := τ) (main (F := Ideal))) ⟨m, fun _ => 0, ρ⟩
    (fun r => ∀ c : Dev nD, ∀ b ∈ Pipeline.ucRefs τ sig, r.2.mem ((c : Thread nD τ).1, b) = W6 m ρ c b) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      show iprop(StableHlo.held (c : Thread nD τ) (Pipeline.ucRefs τ sig) (W6 m ρ c)
          ∗ (∃ r, prngReg c r) ∗ ∃ W, owes (c : Thread nD τ) (0 : CellTallies nD τ sig Unit) W)
        ⊢ (iprop((StableHlo.held (c : Thread nD τ) (Pipeline.ucRefs τ sig) (W6 m ρ c) ∗ ∃ r, prngReg c r)
          ∗ ∃ W, owes (c : Thread nD τ) (0 : CellTallies nD τ sig Unit) W) : sProp 𝕄)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c => h c)

end Cert.KernelIdeal.Hand

end
-- ==== Proof.KiRegion0Val.lean ====
/- The first region's two results as functions of the arrays the region finds: its grid has one point and every window's
   one block is its whole array, so what the one write-back of an output window leaves in its array is the body's stored
   value of the region-entry arrays. Stated at a parameter `V`, the buffer contents at the region's entry, and at any
   number format `F`. -/
import proofs.«103420_j15728170238452_2_alg».proof.Proof.KiRegion0
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat Cfg Window)

variable {F : FTy → Type} [FloatOps F]

variable (V : (c : Dev nD) → (b : Ref sig .tc) → Buf (Elt F) ((c : Thread nD τ).loc b))

/-- The zero offsets of a whole-buffer access, as the constant function. -/
theorem offsets_zero : (![0, 0] : Fin 2 → Nat) = fun _ => 0 :=
  funext fun a => by match a with | ⟨0, _⟩ => rfl | ⟨1, _⟩ => rfl

/-! ## A window's one block is its whole array -/

/-- Window 0's block, read off any contents of its array, is those contents: the block's index is zero on both axes,
    so an element of the block sits in the array at its own coordinates. -/
theorem read_blk0_0 (G : S1x1024.Idx → Elt F .f32) (t : Fin cfg0.N) : ((cfg0.win 0).blk t).view.read (Elt F) G = G := by
  funext j
  show G (((cfg0.win 0).blk t).view.emb j) = G j
  refine congrArg G (funext fun a => Fin.ext ?_)
  match a with
  | ⟨0, _⟩ => show win0_0.index t (0 : Fin 2) * 1 + 1 * (j 0).val = (j 0).val; rw [show win0_0.index t (0 : Fin 2) = 0 from rfl]; omega
  | ⟨1, _⟩ => show win0_0.index t (1 : Fin 2) * 1024 + 1 * (j 1).val = (j 1).val; rw [show win0_0.index t (1 : Fin 2) = 0 from rfl]; omega

/-- Window 1's block, read off any contents of its array, is those contents: the block's index is zero on both axes,
    so an element of the block sits in the array at its own coordinates. -/
theorem read_blk0_1 (G : S1x1024.Idx → Elt F .f32) (t : Fin cfg0.N) : ((cfg0.win 1).blk t).view.read (Elt F) G = G := by
  funext j
  show G (((cfg0.win 1).blk t).view.emb j) = G j
  refine congrArg G (funext fun a => Fin.ext ?_)
  match a with
  | ⟨0, _⟩ => show win0_1.index t (0 : Fin 2) * 1 + 1 * (j 0).val = (j 0).val; rw [show win0_1.index t (0 : Fin 2) = 0 from rfl]; omega
  | ⟨1, _⟩ => show win0_1.index t (1 : Fin 2) * 1024 + 1 * (j 1).val = (j 1).val; rw [show win0_1.index t (1 : Fin 2) = 0 from rfl]; omega

/-- Window 2's block, read off any contents of its array, is those contents: the block's index is zero on both axes,
    so an element of the block sits in the array at its own coordinates. -/
theorem read_blk0_2 (G : S12x1024.Idx → Elt F .f32) (t : Fin cfg0.N) : ((cfg0.win 2).blk t).view.read (Elt F) G = G := by
  funext j
  show G (((cfg0.win 2).blk t).view.emb j) = G j
  refine congrArg G (funext fun a => Fin.ext ?_)
  match a with
  | ⟨0, _⟩ => show win0_2.index t (0 : Fin 2) * 12 + 1 * (j 0).val = (j 0).val; rw [show win0_2.index t (0 : Fin 2) = 0 from rfl]; omega
  | ⟨1, _⟩ => show win0_2.index t (1 : Fin 2) * 1024 + 1 * (j 1).val = (j 1).val; rw [show win0_2.index t (1 : Fin 2) = 0 from rfl]; omega

/-- Window 3's block, read off any contents of its array, is those contents: the block's index is zero on both axes,
    so an element of the block sits in the array at its own coordinates. -/
theorem read_blk0_3 (G : S12x2048.Idx → Elt F .f32) (t : Fin cfg0.N) : ((cfg0.win 3).blk t).view.read (Elt F) G = G := by
  funext j
  show G (((cfg0.win 3).blk t).view.emb j) = G j
  refine congrArg G (funext fun a => Fin.ext ?_)
  match a with
  | ⟨0, _⟩ => show win0_3.index t (0 : Fin 2) * 12 + 1 * (j 0).val = (j 0).val; rw [show win0_3.index t (0 : Fin 2) = 0 from rfl]; omega
  | ⟨1, _⟩ => show win0_3.index t (1 : Fin 2) * 2048 + 1 * (j 1).val = (j 1).val; rw [show win0_3.index t (1 : Fin 2) = 0 from rfl]; omega

/-- Window 4's block, read off any contents of its array, is those contents: the block's index is zero on both axes,
    so an element of the block sits in the array at its own coordinates. -/
theorem read_blk0_4 (G : S1x12.Idx → Elt F .f32) (t : Fin cfg0.N) : ((cfg0.win 4).blk t).view.read (Elt F) G = G := by
  funext j
  show G (((cfg0.win 4).blk t).view.emb j) = G j
  refine congrArg G (funext fun a => Fin.ext ?_)
  match a with
  | ⟨0, _⟩ => show win0_4.index t (0 : Fin 2) * 1 + 1 * (j 0).val = (j 0).val; rw [show win0_4.index t (0 : Fin 2) = 0 from rfl]; omega
  | ⟨1, _⟩ => show win0_4.index t (1 : Fin 2) * 12 + 1 * (j 1).val = (j 1).val; rw [show win0_4.index t (1 : Fin 2) = 0 from rfl]; omega

/-- Window 5's block, read off any contents of its array, is those contents: the block's index is zero on both axes,
    so an element of the block sits in the array at its own coordinates. -/
theorem read_blk0_5 (G : S1024x2048.Idx → Elt F .f32) (t : Fin cfg0.N) : ((cfg0.win 5).blk t).view.read (Elt F) G = G := by
  funext j
  show G (((cfg0.win 5).blk t).view.emb j) = G j
  refine congrArg G (funext fun a => Fin.ext ?_)
  match a with
  | ⟨0, _⟩ => show win0_5.index t (0 : Fin 2) * 1024 + 1 * (j 0).val = (j 0).val; rw [show win0_5.index t (0 : Fin 2) = 0 from rfl]; omega
  | ⟨1, _⟩ => show win0_5.index t (1 : Fin 2) * 2048 + 1 * (j 1).val = (j 1).val; rw [show win0_5.index t (1 : Fin 2) = 0 from rfl]; omega

/-- Window 6's block, read off any contents of its array, is those contents: the block's index is zero on both axes,
    so an element of the block sits in the array at its own coordinates. -/
theorem read_blk0_6 (G : S1x1024.Idx → Elt F .f32) (t : Fin cfg0.N) : ((cfg0.win 6).blk t).view.read (Elt F) G = G := by
  funext j
  show G (((cfg0.win 6).blk t).view.emb j) = G j
  refine congrArg G (funext fun a => Fin.ext ?_)
  match a with
  | ⟨0, _⟩ => show win0_6.index t (0 : Fin 2) * 1 + 1 * (j 0).val = (j 0).val; rw [show win0_6.index t (0 : Fin 2) = 0 from rfl]; omega
  | ⟨1, _⟩ => show win0_6.index t (1 : Fin 2) * 1024 + 1 * (j 1).val = (j 1).val; rw [show win0_6.index t (1 : Fin 2) = 0 from rfl]; omega

/-- Window 7's block, read off any contents of its array, is those contents: the block's index is zero on both axes,
    so an element of the block sits in the array at its own coordinates. -/
theorem read_blk0_7 (G : S1024x1024.Idx → Elt F .f32) (t : Fin cfg0.N) : ((cfg0.win 7).blk t).view.read (Elt F) G = G := by
  funext j
  show G (((cfg0.win 7).blk t).view.emb j) = G j
  refine congrArg G (funext fun a => Fin.ext ?_)
  match a with
  | ⟨0, _⟩ => show win0_7.index t (0 : Fin 2) * 1024 + 1 * (j 0).val = (j 0).val; rw [show win0_7.index t (0 : Fin 2) = 0 from rfl]; omega
  | ⟨1, _⟩ => show win0_7.index t (1 : Fin 2) * 1024 + 1 * (j 1).val = (j 1).val; rw [show win0_7.index t (1 : Fin 2) = 0 from rfl]; omega

/-- Window 8's block, read off any contents of its array, is those contents: the block's index is zero on both axes,
    so an element of the block sits in the array at its own coordinates. -/
theorem read_blk0_8 (G : S1024x1024.Idx → Elt F .f32) (t : Fin cfg0.N) : ((cfg0.win 8).blk t).view.read (Elt F) G = G := by
  funext j
  show G (((cfg0.win 8).blk t).view.emb j) = G j
  refine congrArg G (funext fun a => Fin.ext ?_)
  match a with
  | ⟨0, _⟩ => show win0_8.index t (0 : Fin 2) * 1024 + 1 * (j 0).val = (j 0).val; rw [show win0_8.index t (0 : Fin 2) = 0 from rfl]; omega
  | ⟨1, _⟩ => show win0_8.index t (1 : Fin 2) * 1024 + 1 * (j 1).val = (j 1).val; rw [show win0_8.index t (1 : Fin 2) = 0 from rfl]; omega

/-- Window 9's block, read off any contents of its array, is those contents: the block's index is zero on both axes,
    so an element of the block sits in the array at its own coordinates. -/
theorem read_blk0_9 (G : S1x1024.Idx → Elt F .f32) (t : Fin cfg0.N) : ((cfg0.win 9).blk t).view.read (Elt F) G = G := by
  funext j
  show G (((cfg0.win 9).blk t).view.emb j) = G j
  refine congrArg G (funext fun a => Fin.ext ?_)
  match a with
  | ⟨0, _⟩ => show win0_9.index t (0 : Fin 2) * 1 + 1 * (j 0).val = (j 0).val; rw [show win0_9.index t (0 : Fin 2) = 0 from rfl]; omega
  | ⟨1, _⟩ => show win0_9.index t (1 : Fin 2) * 1024 + 1 * (j 1).val = (j 1).val; rw [show win0_9.index t (1 : Fin 2) = 0 from rfl]; omega

/-- Window 10's block, read off any contents of its array, is those contents: the block's index is zero on both axes,
    so an element of the block sits in the array at its own coordinates. -/
theorem read_blk0_10 (G : S1x1024.Idx → Elt F .f32) (t : Fin cfg0.N) : ((cfg0.win 10).blk t).view.read (Elt F) G = G := by
  funext j
  show G (((cfg0.win 10).blk t).view.emb j) = G j
  refine congrArg G (funext fun a => Fin.ext ?_)
  match a with
  | ⟨0, _⟩ => show win0_10.index t (0 : Fin 2) * 1 + 1 * (j 0).val = (j 0).val; rw [show win0_10.index t (0 : Fin 2) = 0 from rfl]; omega
  | ⟨1, _⟩ => show win0_10.index t (1 : Fin 2) * 1024 + 1 * (j 1).val = (j 1).val; rw [show win0_10.index t (1 : Fin 2) = 0 from rfl]; omega

/-- Window 11's block, read off any contents of its array, is those contents: the block's index is zero on both axes,
    so an element of the block sits in the array at its own coordinates. -/
theorem read_blk0_11 (G : S1x1024.Idx → Elt F .f32) (t : Fin cfg0.N) : ((cfg0.win 11).blk t).view.read (Elt F) G = G := by
  funext j
  show G (((cfg0.win 11).blk t).view.emb j) = G j
  refine congrArg G (funext fun a => Fin.ext ?_)
  match a with
  | ⟨0, _⟩ => show win0_11.index t (0 : Fin 2) * 1 + 1 * (j 0).val = (j 0).val; rw [show win0_11.index t (0 : Fin 2) = 0 from rfl]; omega
  | ⟨1, _⟩ => show win0_11.index t (1 : Fin 2) * 1024 + 1 * (j 1).val = (j 1).val; rw [show win0_11.index t (1 : Fin 2) = 0 from rfl]; omega

/-- Window 12's block, read off any contents of its array, is those contents: the block's index is zero on both axes,
    so an element of the block sits in the array at its own coordinates. -/
theorem read_blk0_12 (G : S1x12.Idx → Elt F .f32) (t : Fin cfg0.N) : ((cfg0.win 12).blk t).view.read (Elt F) G = G := by
  funext j
  show G (((cfg0.win 12).blk t).view.emb j) = G j
  refine congrArg G (funext fun a => Fin.ext ?_)
  match a with
  | ⟨0, _⟩ => show win0_12.index t (0 : Fin 2) * 1 + 1 * (j 0).val = (j 0).val; rw [show win0_12.index t (0 : Fin 2) = 0 from rfl]; omega
  | ⟨1, _⟩ => show win0_12.index t (1 : Fin 2) * 12 + 1 * (j 1).val = (j 1).val; rw [show win0_12.index t (1 : Fin 2) = 0 from rfl]; omega

theorem iblk0_0 (c : Dev nD) (t : Fin cfg0.N) : iblk0 V c 0 t = V c main_v9 := read_blk0_0 (V c main_v9) t
theorem iblk0_1 (c : Dev nD) (t : Fin cfg0.N) : iblk0 V c 1 t = V c main_v10 := read_blk0_1 (V c main_v10) t
theorem iblk0_2 (c : Dev nD) (t : Fin cfg0.N) : iblk0 V c 2 t = V c main_arg2 := read_blk0_2 (V c main_arg2) t
theorem iblk0_3 (c : Dev nD) (t : Fin cfg0.N) : iblk0 V c 3 t = V c main_arg4 := read_blk0_3 (V c main_arg4) t
theorem iblk0_4 (c : Dev nD) (t : Fin cfg0.N) : iblk0 V c 4 t = V c main_v11 := read_blk0_4 (V c main_v11) t
theorem iblk0_5 (c : Dev nD) (t : Fin cfg0.N) : iblk0 V c 5 t = V c main_arg6 := read_blk0_5 (V c main_arg6) t
theorem iblk0_6 (c : Dev nD) (t : Fin cfg0.N) : iblk0 V c 6 t = V c main_v12 := read_blk0_6 (V c main_v12) t
theorem iblk0_7 (c : Dev nD) (t : Fin cfg0.N) : iblk0 V c 7 t = V c main_arg8 := read_blk0_7 (V c main_arg8) t
theorem iblk0_8 (c : Dev nD) (t : Fin cfg0.N) : iblk0 V c 8 t = V c main_arg9 := read_blk0_8 (V c main_arg9) t
theorem iblk0_9 (c : Dev nD) (t : Fin cfg0.N) : iblk0 V c 9 t = V c main_v13 := read_blk0_9 (V c main_v13) t
theorem iblk0_10 (c : Dev nD) (t : Fin cfg0.N) : iblk0 V c 10 t = V c main_v14 := read_blk0_10 (V c main_v14) t

/-! ## What the body leaves in an output's buffer, of the buffers' whole contents -/

/-- The new hidden state: every load reads a whole buffer and the one store covers the buffer. -/
theorem out0_11_eq (x0 : Vec F S1x1024 .f32) (x1 : Vec F S1x1024 .f32) (x2 : Vec F S12x1024 .f32) (x3 : Vec F S12x2048 .f32) (x4 : Vec F S1x12 .f32) (x5 : Vec F S1024x2048 .f32) (x6 : Vec F S1x1024 .f32) (x7 : Vec F S1024x1024 .f32) (x8 : Vec F S1024x1024 .f32) (x9 : Vec F S1x1024 .f32) (x10 : Vec F S1x1024 .f32) :
    out0_11 x0 x1 x2 x3 x4 x5 x6 x7 x8 x9 x10 = k0_pay1 (k0_pay3 x1) (k0_pay5 x0 x1 x3 x4 x2 x5 x6) (k0_pay6 (F := F)) x7 x8 x9 x10 := by
  unfold out0_11
  rw [View.canon_unit_zero offsets_zero]
  simp only [View.ld_unit_zero (S := S1x1024) offsets_zero, View.ld_unit_zero (S := S12x1024) offsets_zero, View.ld_unit_zero (S := S12x2048) offsets_zero, View.ld_unit_zero (S := S1x12) offsets_zero, View.ld_unit_zero (S := S1024x2048) offsets_zero, View.ld_unit_zero (S := S1024x1024) offsets_zero]

/-- The attention weights: likewise. -/
theorem out0_12_eq (x0 : Vec F S1x1024 .f32) (x1 : Vec F S1x1024 .f32) (x2 : Vec F S12x1024 .f32) (x3 : Vec F S12x2048 .f32) (x4 : Vec F S1x12 .f32) (x5 : Vec F S1024x2048 .f32) (x6 : Vec F S1x1024 .f32) (x7 : Vec F S1024x1024 .f32) (x8 : Vec F S1024x1024 .f32) (x9 : Vec F S1x1024 .f32) (x10 : Vec F S1x1024 .f32) :
    out0_12 x0 x1 x2 x3 x4 x5 x6 x7 x8 x9 x10 = k0_pay4 x0 x1 x3 x4 := by
  unfold out0_12
  rw [View.canon_unit_zero offsets_zero]
  simp only [View.ld_unit_zero (S := S1x1024) offsets_zero, View.ld_unit_zero (S := S12x2048) offsets_zero, View.ld_unit_zero (S := S1x12) offsets_zero]

/-! ## The output arrays after the region -/

/-- Every index of the new hidden state's array is in the one point's block. -/
theorem mem_blk0_11 (i : S1x1024.Idx) : i ∈ ((cfg0.win 11).blk t0_0).view.set := by
  show i ∈ ((View.whole main_v15_0).slice (win0_11.rect t0_0)).set
  rw [View.set_slice_whole, Rect.mem_set_unit]
  intro a
  match a with
  | ⟨0, _⟩ => show win0_11.index t0_0 (0 : Fin 2) * 1 ≤ (i 0).val ∧ (i 0).val < win0_11.index t0_0 (0 : Fin 2) * 1 + 1; rw [show win0_11.index t0_0 (0 : Fin 2) = 0 from rfl]; have h : (i 0).val < 1 := (i 0).isLt; omega
  | ⟨1, _⟩ => show win0_11.index t0_0 (1 : Fin 2) * 1024 ≤ (i 1).val ∧ (i 1).val < win0_11.index t0_0 (1 : Fin 2) * 1024 + 1024; rw [show win0_11.index t0_0 (1 : Fin 2) = 0 from rfl]; have h : (i 1).val < 1024 := (i 1).isLt; omega

/-- Every index of the attention weights' array is in the one point's block. -/
theorem mem_blk0_12 (i : S1x12.Idx) : i ∈ ((cfg0.win 12).blk t0_0).view.set := by
  show i ∈ ((View.whole main_v15_1).slice (win0_12.rect t0_0)).set
  rw [View.set_slice_whole, Rect.mem_set_unit]
  intro a
  match a with
  | ⟨0, _⟩ => show win0_12.index t0_0 (0 : Fin 2) * 1 ≤ (i 0).val ∧ (i 0).val < win0_12.index t0_0 (0 : Fin 2) * 1 + 1; rw [show win0_12.index t0_0 (0 : Fin 2) = 0 from rfl]; have h : (i 0).val < 1 := (i 0).isLt; omega
  | ⟨1, _⟩ => show win0_12.index t0_0 (1 : Fin 2) * 12 ≤ (i 1).val ∧ (i 1).val < win0_12.index t0_0 (1 : Fin 2) * 12 + 12; rw [show win0_12.index t0_0 (1 : Fin 2) = 0 from rfl]; have h : (i 1).val < 12 := (i 1).isLt; omega

/-- THE NEW HIDDEN STATE after the region: the hyperbolic tangent of the summed gate pre-activations, of the arrays the
    region finds. -/
theorem region0_h (c : Dev nD) :
    (dat0 V c).arrAt 11 cfg0.N
      = k0_pay1 (k0_pay3 (V c main_v10)) (k0_pay5 (V c main_v9) (V c main_v10) (V c main_arg4) (V c main_v11) (V c main_arg2) (V c main_arg6) (V c main_v12))
          (k0_pay6 (F := F)) (V c main_arg8) (V c main_arg9) (V c main_v13) (V c main_v14) := by
  refine (dat0 V c).arrAt_eq_of_cover 11 _ (fun t _ => ?_) (fun i => ⟨t0_0, flush0_11 _, mem_blk0_11 i⟩)
  show (cfg0.win 11).cut (grid0.coords t) ((dat0 V c).after 11 t) = _
  rw [after0_11, out0_11_eq, iblk0_0, iblk0_1, iblk0_2, iblk0_3, iblk0_4, iblk0_5, iblk0_6, iblk0_7, iblk0_8, iblk0_9, iblk0_10]
  exact (read_blk0_11 _ t).symm

/-- THE ATTENTION WEIGHTS after the region: the softmax of the attention scores, of the arrays the region finds. -/
theorem region0_attn (c : Dev nD) :
    (dat0 V c).arrAt 12 cfg0.N = k0_pay4 (V c main_v9) (V c main_v10) (V c main_arg4) (V c main_v11) := by
  refine (dat0 V c).arrAt_eq_of_cover 12 _ (fun t _ => ?_) (fun i => ⟨t0_0, flush0_12 _, mem_blk0_12 i⟩)
  show (cfg0.win 12).cut (grid0.coords t) ((dat0 V c).after 12 t) = _
  rw [after0_12, out0_12_eq, iblk0_0, iblk0_1, iblk0_3, iblk0_4]
  exact (read_blk0_12 _ t).symm

end Cert.KernelIdeal.Hand

end
-- ==== Proof.KiFold.lean ====
/- The idealized kernel's buffer contents followed back from the return: which buffers each of @main's six segments leaves
   alone, the fourteen argument arrays still at their launch contents at every boundary, and the three result buffers
   at the last boundary walked back to what the two regions leave and to what the host stretches compute. -/
import proofs.«103420_j15728170238452_2_alg».proof.Proof.KiRun
import proofs.«103420_j15728170238452_2_alg».proof.Proof.KiRegion0Val
import proofs.«103420_j15728170238452_2_alg».proof.Proof.Gen.KernelIdeal.Regions
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.StableHlo
open Idealize.SL Idealize.SL.Sem
open Idealize.ShloMosaic.Pipeline (Dat Cfg Window)

variable (m : (ℓ : Loc nD τ sig) → Buf (Elt Ideal) ℓ) (ρ : Dev nD → PrngReg)

/-! ## What each segment leaves alone -/

/-- A window of the first region whose array is neither result array is an input window. -/
theorem in0_of_ne : ∀ w : Fin 13, Pipeline.arrRef spec0 w ≠ main_v15_0 → Pipeline.arrRef spec0 w ≠ main_v15_1 →
    (cfg0.win w).isOut = false := by decide
/-- A window of the second region whose array is not the logits array is an input window. -/
theorem in1_of_ne : ∀ w : Fin 4, Pipeline.arrRef spec1 w ≠ main_v17 → (cfg1.win w).isOut = false := by decide

/-- The first host stretch changes only the buffers its operations write. -/
theorem W1_of (c : Dev nD) (r : Ref sig .tc) (h : r ∉ (hostOps0_W : List (Ref sig .tc))) :
    W1 m ρ c (Proc.devRef .tc r) = W0 m ρ c (Proc.devRef .tc r) :=
  StableHlo.after_of_writes_sub hostOps0 _ hostOps0_writes h
/-- The first region changes only its two result arrays. -/
theorem W2_keep (c : Dev nD) (b : Ref sig .tc) (h0 : b ≠ main_v15_0) (h1 : b ≠ main_v15_1) :
    W2 m ρ c (Proc.devRef .tc b) = W1 m ρ c (Proc.devRef .tc b) := by
  by_cases h : ∃ w, Pipeline.arrRef spec0 w = b
  · obtain ⟨w, rfl⟩ := h
    rw [W2_arr]
    exact ((dat0 (V1 m ρ) c).arrAt_in w (in0_of_ne w h0 h1) _).trans (A_eq0 (V1 m ρ) c w)
  · exact W2_of_ne m ρ c b fun w e => h ⟨w, e⟩
/-- The reshape of the output bias changes only the buffer it writes. -/
theorem W3_of (c : Dev nD) (r : Ref sig .tc) (h : r ∉ (hostOps1_W : List (Ref sig .tc))) :
    W3 m ρ c (Proc.devRef .tc r) = W2 m ρ c (Proc.devRef .tc r) :=
  StableHlo.after_of_writes_sub hostOps1 _ hostOps1_writes h
/-- The second region changes only the logits array. -/
theorem W4_keep (c : Dev nD) (b : Ref sig .tc) (h : b ≠ main_v17) :
    W4 m ρ c (Proc.devRef .tc b) = W3 m ρ c (Proc.devRef .tc b) := by
  by_cases hw : ∃ w, Pipeline.arrRef spec1 w = b
  · obtain ⟨w, rfl⟩ := hw
    rw [W4_arr]
    exact ((dat1 (V3 m ρ) c).arrAt_in w (in1_of_ne w h) _).trans (A_eq1 (V3 m ρ) c w)
  · exact W4_of_ne m ρ c b fun w e => hw ⟨w, e⟩
/-- The log-softmax stretch changes only the buffers its operations write. -/
theorem W5_of (c : Dev nD) (r : Ref sig .tc) (h : r ∉ (hostOps2_W : List (Ref sig .tc))) :
    W5 m ρ c (Proc.devRef .tc r) = W4 m ρ c (Proc.devRef .tc r) :=
  StableHlo.after_of_writes_sub hostOps2 _ hostOps2_writes h
/-- The last reshape changes only the buffer it writes. -/
theorem W6_of (c : Dev nD) (r : Ref sig .tc) (h : r ∉ (hostOps2_1_W : List (Ref sig .tc))) :
    W6 m ρ c (Proc.devRef .tc r) = W5 m ρ c (Proc.devRef .tc r) :=
  StableHlo.after_of_writes_sub hostOps2_1 _ hostOps2_1_writes h

/-! ## The argument arrays keep their launch contents -/

/-- @main's fourteen argument arrays. -/
abbrev argRefs : List (Ref sig .tc) := [main_arg0, main_arg1, main_arg2, main_arg3, main_arg4, main_arg5, main_arg6, main_arg7, main_arg8, main_arg9, main_arg10, main_arg11, main_arg12, main_arg13]

theorem args_unscoped : ∀ b ∈ argRefs, ¬ (Proc.devRef .tc b : DevRef τ sig).isScoped := by decide
theorem args_not_w0 : ∀ b ∈ argRefs, b ∉ (hostOps0_W : List (Ref sig .tc)) := by decide
theorem args_not_w1 : ∀ b ∈ argRefs, b ∉ (hostOps1_W : List (Ref sig .tc)) := by decide
theorem args_not_w2 : ∀ b ∈ argRefs, b ∉ (hostOps2_W : List (Ref sig .tc)) := by decide
theorem args_not_w2_1 : ∀ b ∈ argRefs, b ∉ (hostOps2_1_W : List (Ref sig .tc)) := by decide
theorem args_not_out0 : ∀ b ∈ argRefs, b ≠ main_v15_0 ∧ b ≠ main_v15_1 := by decide
theorem args_not_out1 : ∀ b ∈ argRefs, b ≠ main_v17 := by decide

/-- No host operation and no region writes an argument array: at the first region's entry, -/
theorem args_W1 (c : Dev nD) : ∀ b ∈ argRefs, W1 m ρ c (Proc.devRef .tc b) = m ((c : Thread nD τ).loc b) :=
  fun b hb => (W1_of m ρ c b (args_not_w0 b hb)).trans rfl
/-- at its exit, -/
theorem args_W2 (c : Dev nD) : ∀ b ∈ argRefs, W2 m ρ c (Proc.devRef .tc b) = m ((c : Thread nD τ).loc b) :=
  fun b hb => (W2_keep m ρ c b (args_not_out0 b hb).1 (args_not_out0 b hb).2).trans (args_W1 m ρ c b hb)
/-- at the second region's entry, -/
theorem args_W3 (c : Dev nD) : ∀ b ∈ argRefs, W3 m ρ c (Proc.devRef .tc b) = m ((c : Thread nD τ).loc b) :=
  fun b hb => (W3_of m ρ c b (args_not_w1 b hb)).trans (args_W2 m ρ c b hb)
/-- at its exit, -/
theorem args_W4 (c : Dev nD) : ∀ b ∈ argRefs, W4 m ρ c (Proc.devRef .tc b) = m ((c : Thread nD τ).loc b) :=
  fun b hb => (W4_keep m ρ c b (args_not_out1 b hb)).trans (args_W3 m ρ c b hb)
/-- after the log-softmax stretch, -/
theorem args_W5 (c : Dev nD) : ∀ b ∈ argRefs, W5 m ρ c (Proc.devRef .tc b) = m ((c : Thread nD τ).loc b) :=
  fun b hb => (W5_of m ρ c b (args_not_w2 b hb)).trans (args_W4 m ρ c b hb)
/-- and at the return: the fourteen argument arrays end as launched. -/
theorem args_kept (c : Dev nD) : ∀ b ∈ argRefs, W6 m ρ c (Proc.devRef .tc b) = m ((c : Thread nD τ).loc b) :=
  fun b hb => (W6_of m ρ c b (args_not_w2_1 b hb)).trans (args_W5 m ρ c b hb)

/-! ## The host stretches' reshapes, over any contents they start from -/

/-- The previous hidden state as a row. -/
theorem ops0_v10 (Wv : Valuation τ sig (Elt Ideal)) :
    StableHlo.after (hostOps0 (F := Ideal)) Wv (Proc.devRef .tc main_v10)
      = shapeCast S1x1024 (Wv (Proc.devRef .tc main_arg1)) shapeCasts_S1x1x1024_S1x1024 := by
  after_results; rfl
/-- The attention bias as a row. -/
theorem ops0_v11 (Wv : Valuation τ sig (Elt Ideal)) :
    StableHlo.after (hostOps0 (F := Ideal)) Wv (Proc.devRef .tc main_v11)
      = shapeCast S1x12 (Wv (Proc.devRef .tc main_arg5)) shapeCasts_S12_S1x12 := by
  after_results; rfl
/-- The combining bias as a row. -/
theorem ops0_v12 (Wv : Valuation τ sig (Elt Ideal)) :
    StableHlo.after (hostOps0 (F := Ideal)) Wv (Proc.devRef .tc main_v12)
      = shapeCast S1x1024 (Wv (Proc.devRef .tc main_arg7)) shapeCasts_S1024_S1x1024 := by
  after_results; rfl
/-- The input-to-hidden bias as a row. -/
theorem ops0_v13 (Wv : Valuation τ sig (Elt Ideal)) :
    StableHlo.after (hostOps0 (F := Ideal)) Wv (Proc.devRef .tc main_v13)
      = shapeCast S1x1024 (Wv (Proc.devRef .tc main_arg10)) shapeCasts_S1024_S1x1024 := by
  after_results; rfl
/-- The hidden-to-hidden bias as a row. -/
theorem ops0_v14 (Wv : Valuation τ sig (Elt Ideal)) :
    StableHlo.after (hostOps0 (F := Ideal)) Wv (Proc.devRef .tc main_v14)
      = shapeCast S1x1024 (Wv (Proc.devRef .tc main_arg11)) shapeCasts_S1024_S1x1024 := by
  after_results; rfl
/-- The output bias as a row. -/
theorem ops1_v16 (Wv : Valuation τ sig (Elt Ideal)) :
    StableHlo.after (hostOps1 (F := Ideal)) Wv (Proc.devRef .tc main_v16)
      = shapeCast S1x50257 (Wv (Proc.devRef .tc main_arg13)) shapeCasts_S50257_S1x50257 := by
  after_results; rfl
/-- The new hidden state with a unit axis in front. -/
theorem ops2_1_v19 (Wv : Valuation τ sig (Elt Ideal)) :
    StableHlo.after (hostOps2_1 (F := Ideal)) Wv (Proc.devRef .tc main_v19)
      = broadcastInDim S1x1x1024 ![1, 2] bcast_S1x1024_S1x1x1024_1_2 (Wv (Proc.devRef .tc main_v15_0)) := by
  after_results

/-! ## The first region's entry contents -/

theorem V1_v10 (c : Dev nD) : V1 m ρ c main_v10 = shapeCast S1x1024 (m ((c : Thread nD τ).loc main_arg1)) shapeCasts_S1x1x1024_S1x1024 :=
  ops0_v10 (W0 m ρ c)
theorem V1_v11 (c : Dev nD) : V1 m ρ c main_v11 = shapeCast S1x12 (m ((c : Thread nD τ).loc main_arg5)) shapeCasts_S12_S1x12 :=
  ops0_v11 (W0 m ρ c)
theorem V1_v12 (c : Dev nD) : V1 m ρ c main_v12 = shapeCast S1x1024 (m ((c : Thread nD τ).loc main_arg7)) shapeCasts_S1024_S1x1024 :=
  ops0_v12 (W0 m ρ c)
theorem V1_v13 (c : Dev nD) : V1 m ρ c main_v13 = shapeCast S1x1024 (m ((c : Thread nD τ).loc main_arg10)) shapeCasts_S1024_S1x1024 :=
  ops0_v13 (W0 m ρ c)
theorem V1_v14 (c : Dev nD) : V1 m ρ c main_v14 = shapeCast S1x1024 (m ((c : Thread nD τ).loc main_arg11)) shapeCasts_S1024_S1x1024 :=
  ops0_v14 (W0 m ρ c)
/-- An argument array at the first region's entry. -/
theorem V1_arg (c : Dev nD) (b : Ref sig .tc) (hb : b ∈ argRefs) : V1 m ρ c b = m ((c : Thread nD τ).loc b) := args_W1 m ρ c b hb

/-! ## The three result buffers at the return -/

/-- The attention weights: untouched since the first region, which leaves them at the softmax of the scores. -/
theorem W6_attn (c : Dev nD) :
    W6 m ρ c (Proc.devRef .tc main_v15_1)
      = k0_pay4 (V1 m ρ c main_v9) (V1 m ρ c main_v10) (V1 m ρ c main_arg4) (V1 m ρ c main_v11) :=
  calc W6 m ρ c (Proc.devRef .tc main_v15_1)
    _ = W5 m ρ c (Proc.devRef .tc main_v15_1) := W6_of m ρ c main_v15_1 (by decide)
    _ = W4 m ρ c (Proc.devRef .tc main_v15_1) := W5_of m ρ c main_v15_1 (by decide)
    _ = W3 m ρ c (Proc.devRef .tc main_v15_1) := W4_keep m ρ c main_v15_1 (by decide)
    _ = W2 m ρ c (Proc.devRef .tc main_v15_1) := W3_of m ρ c main_v15_1 (by decide)
    _ = (dat0 (V1 m ρ) c).arrAt 12 cfg0.N := W2_arr m ρ c 12
    _ = _ := region0_attn (V1 m ρ) c

/-- The new hidden row where the first region leaves it, as the second region and the host read it afterwards. -/
theorem W2_h (c : Dev nD) :
    W2 m ρ c (Proc.devRef .tc main_v15_0)
      = k0_pay1 (k0_pay3 (V1 m ρ c main_v10)) (k0_pay5 (V1 m ρ c main_v9) (V1 m ρ c main_v10) (V1 m ρ c main_arg4) (V1 m ρ c main_v11) (V1 m ρ c main_arg2) (V1 m ρ c main_arg6) (V1 m ρ c main_v12))
          (k0_pay6 (F := Ideal)) (V1 m ρ c main_arg8) (V1 m ρ c main_arg9) (V1 m ρ c main_v13) (V1 m ρ c main_v14) :=
  (W2_arr m ρ c 11).trans (region0_h (V1 m ρ) c)
/-- It is not written again before the return. -/
theorem W5_h (c : Dev nD) : W5 m ρ c (Proc.devRef .tc main_v15_0) = W2 m ρ c (Proc.devRef .tc main_v15_0) :=
  calc W5 m ρ c (Proc.devRef .tc main_v15_0)
    _ = W4 m ρ c (Proc.devRef .tc main_v15_0) := W5_of m ρ c main_v15_0 (by decide)
    _ = W3 m ρ c (Proc.devRef .tc main_v15_0) := W4_keep m ρ c main_v15_0 (by decide)
    _ = W2 m ρ c (Proc.devRef .tc main_v15_0) := W3_of m ρ c main_v15_0 (by decide)
/-- The returned hidden state: the new hidden row with a unit axis in front. -/
theorem W6_h (c : Dev nD) :
    W6 m ρ c (Proc.devRef .tc main_v19)
      = broadcastInDim S1x1x1024 ![1, 2] bcast_S1x1024_S1x1x1024_1_2 (W2 m ρ c (Proc.devRef .tc main_v15_0)) :=
  (ops2_1_v19 (W5 m ρ c)).trans (congrArg _ (W5_h m ρ c))

/-- The second region's entry contents: the new hidden row, the vocabulary matrix and the output bias row. -/
theorem V3_h (c : Dev nD) : V3 m ρ c main_v15_0 = W2 m ρ c (Proc.devRef .tc main_v15_0) := W3_of m ρ c main_v15_0 (by decide)
theorem V3_arg12 (c : Dev nD) : V3 m ρ c main_arg12 = m ((c : Thread nD τ).loc main_arg12) := args_W3 m ρ c main_arg12 (by decide)
theorem V3_v16 (c : Dev nD) : V3 m ρ c main_v16 = shapeCast S1x50257 (m ((c : Thread nD τ).loc main_arg13)) shapeCasts_S50257_S1x50257 :=
  (ops1_v16 (W2 m ρ c)).trans (congrArg (fun x => shapeCast S1x50257 x shapeCasts_S50257_S1x50257) (args_W2 m ρ c main_arg13 (by decide)))

/-- The logits row where the second region leaves it: entry `n` is the new hidden row against row `n` of the vocabulary
    matrix, plus the bias. -/
theorem W4_logits (c : Dev nD) : W4 m ρ c (Proc.devRef .tc main_v17) = logits1 (V3 m ρ) c :=
  (W4_arr m ρ c 3).trans (arr1_3 (V3 m ρ) c)
/-- The log-probabilities are not written after the log-softmax stretch. -/
theorem W6_logp (c : Dev nD) : W6 m ρ c (Proc.devRef .tc main_v18) = W5 m ρ c (Proc.devRef .tc main_v18) :=
  W6_of m ρ c main_v18 (by decide)

end Cert.KernelIdeal.Hand

end
-- ==== Proof.LibKeepDims.lean ====
/-
  Column forms of a kept reduced axis, read at an index given by coordinates.

  A row statistic of an `[a, b]` block (a mean, a variance) is computed as a lane sum `[a, b] → [a]`, viewed as a
  column `[a] → [a, 1]`, and spread back over the lanes `[a, 1] → [a, b]`. Here each of the three steps is read at an
  index written by its coordinates: the column view at `(i, u)` is the vector at `i`; the spread column at `(p, c)` is
  the column at `(p, 0)`; and, at the ideal values, the lane sum at `p` is `∑ k : Fin b` of row `p`. Also one column
  of a matrix (a unit-width slice along axis 1) read at `(p, u)`.
-/
import Idealize.ShloMosaic.PureOps.Ideal
import Idealize.ShloMosaic.PureOps.Ideal.Laws
import Idealize.ShloMosaic.Lib.ValueIdx
import Idealize.ShloMosaic.Lib.ValueLayout

noncomputable section

open scoped BigOperators

namespace Idealize.ShloMosaic.KeepDims

open Idealize.ShloMosaic Idealize.ShloMosaic.ValueIdx

variable {α : Type}

/-! ## The column view of a vector, and a column spread over the lanes -/

/-- An `[a]` vector viewed as a column `[a, 1]` reads, at `(i, u)`, the vector at `i`, whatever the unit coordinate
    `u`: both positions are `i` in row-major order. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- Column `o` of an `[a, n]` matrix, cut out as an `[a, 1]` slice, reads at `(p, u)` the matrix at `(p, o)`. -/
theorem column_apply {a n : ℕ} (o : ℕ) (X : (⟨2, ![a, n]⟩ : Shape).Idx → α)
    (h : (⟨2, ![a, n]⟩ : Shape).Slices ![0, o] ⟨2, ![a, 1]⟩) (p : Fin a) (u : Fin 1) (k : Fin n) (hk : k.val = o) :
    extractStridedSlice ⟨2, ![a, 1]⟩ ![0, o] X h (ix2 p u) = X (ix2 p k) :=
  slice2_axis1_apply o X h p u k (by have : u.val = 0 := by omega
                                     omega)

/-! ## The lane sum of a block, at the ideal values -/

/-- The sum over the lanes (axis 1) of an `[a, b]` block, read at row `p`, is `∑ k : Fin b` of the block's row `p`. -/
theorem laneSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ k : Fin b, src (ix2 p k) := by
  refine (Ideal.multiReduction_add_single src acc h hφ hacc (ix1 p)).trans ?_
  show ∑ k : Fin b, src (h.lift (ix1 p) k) = ∑ k : Fin b, src (ix2 p k)
  refine Finset.sum_congr rfl fun k _ => congrArg src ?_
  funext ax
  match ax with
  | ⟨0, _⟩ => exact Fin.ext rfl
  | ⟨1, _⟩ => exact Fin.ext rfl

end Idealize.ShloMosaic.KeepDims

end
-- ==== Proof.BridgeSoftmaxRow.lean ====
/-
  The softmax of a one-row block, in a kernel's spelling and in a host program's.

  Both compute, for a row `z` of `b` entries, `exp (z - m) / ∑ exp (z - m)` with `m = max (-∞) (max z)`.
  They differ only in how the kept axis is written. The kernel takes the lane maximum and the lane sum as
  `[1, b] → [1]` reductions that carry an accumulator, views the result as a `[1, 1]` column and spreads it over
  the lanes; the host reduces from an initial value held in a rank-zero constant and places the result by two
  `broadcast_in_dim`s. On the extended reals each pair of steps is the same function:
  a maximum is the fold of `max` over the lanes from `-∞`, a sum is `0 +` the sum over the lanes, and the
  column view followed by the spread reads the one entry of the vector at every lane, as the two placements do.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import Idealize.ShloMosaic.Lib.KernelVsHost
import proofs.«103420_j15728170238452_2_alg».proof.Proof.LibKeepDims

noncomputable section

open scoped BigOperators

namespace Cert.Bridge

open Idealize.ShloMosaic Idealize.ShloMosaic.ValueIdx

/-! ## The kept axis: `[1] → [1, 1] → [1, b]` -/

/-- A one-entry vector viewed as a `[1, 1]` column and spread over `b` lanes is the vector placed on axis 0 of
    `[1, 1]` and that placed on axes 0 and 1 of `[1, b]`: every lane reads the one entry. -/
theorem keptAxis_eq {α : Type} {b : ℕ} (w : (⟨1, ![1]⟩ : Shape).Idx → α)
    (hc : (⟨1, ![1]⟩ : Shape).ShapeCasts ⟨2, ![1, 1]⟩) (hbt : (⟨2, ![1, 1]⟩ : Shape).Broadcasts ⟨2, ![1, b]⟩)
    (hb1 : (⟨1, ![1]⟩ : Shape).BroadcastsInDim ⟨2, ![1, 1]⟩ ![0])
    (hb2 : (⟨2, ![1, 1]⟩ : Shape).BroadcastsInDim ⟨2, ![1, b]⟩ ![0, 1]) :
    broadcastTo ⟨2, ![1, b]⟩ (shapeCast ⟨2, ![1, 1]⟩ w hc) hbt
      = broadcastInDim ⟨2, ![1, b]⟩ ![0, 1] hb2 (broadcastInDim ⟨2, ![1, 1]⟩ ![0] hb1 w) := by
  funext j
  obtain ⟨u, c, rfl⟩ : ∃ (u : Fin 1) (c : Fin b), j = ix2 u c := ⟨j 0, j 1, eq_ix2 j⟩
  have hu0 : u.val = 0 := by omega
  refine (KeepDims.broadcastTo_a1_ab_apply _ hbt u c).trans ?_
  refine (KeepDims.shapeCast_a_a1_apply w hc u (0 : Fin 1)).trans (Eq.symm ?_)
  refine (broadcastInDim_apply ![0, 1] hb2 _ (ix2 u c) (ix2 u (0 : Fin 1)) ?_).trans
    (broadcastInDim_apply ![0] hb1 w (ix2 u (0 : Fin 1)) (ix1 u) ?_)
  · intro a
    match a with
    | ⟨0, _⟩ => show u.val = if (1 : ℕ) = 1 then 0 else u.val; rw [if_pos rfl, hu0]
    | ⟨1, _⟩ => show (0 : ℕ) = if (1 : ℕ) = 1 then 0 else c.val; rw [if_pos rfl]
  · intro a
    match a with
    | ⟨0, _⟩ => show u.val = if (1 : ℕ) = 1 then 0 else u.val; rw [if_pos rfl, hu0]

/-! ## The lane maximum and the lane sum -/

/-- The kernel's lane maximum, accumulated from the pattern of `-∞`, is the host's reduction by `maximum` from a
    rank-zero constant of the same pattern: both are the fold of `max` over the lanes from that value. -/
theorem laneMax_eq {b : ℕ} (z : FVec Ideal ⟨2, ![1, b]⟩ .f32)
    (hr : (⟨2, ![1, b]⟩ : Shape).Reduces [1] ⟨1, ![1]⟩) (hφ : FKind.Formats .f32)
    (hacc : (0xFF800000#32 : BitVec 32) = FKind.maximumf.neutral .f32 hφ)
    (hr' : (⟨2, ![1, b]⟩ : Shape).ReducesTo [1] ⟨1, ![1]⟩) (hu : 0 < (⟨0, ![]⟩ : Shape).numel) :
    multiReduction .maximumf [1] ⟨1, ![1]⟩ z 0xFF800000#32 hr hφ hacc
      = Host.reduce FloatOps.maximumf z (constant (F := Ideal) ⟨0, ![]⟩ .f32 0xFF800000#32) hr' hu := by
  funext j
  refine (Ideal.multiReduction_maximumf_single z _ hr hφ hacc j).trans ?_
  refine Eq.symm ((Host.reduce_eq_fold_single FloatOps.maximumf z _ hr' hr hu j).trans ?_)
  rfl

/-- The kernel's lane sum, accumulated from the zero pattern, is the host's sum from a rank-zero zero constant. -/
theorem laneSum_eq {b : ℕ} (e : FVec Ideal ⟨2, ![1, b]⟩ .f32)
    (hr : (⟨2, ![1, b]⟩ : Shape).Reduces [1] ⟨1, ![1]⟩) (hφ : FKind.Formats .f32)
    (hacc : (0x00000000#32 : BitVec 32) = FKind.add.neutral .f32 hφ)
    (hr' : (⟨2, ![1, b]⟩ : Shape).ReducesTo [1] ⟨1, ![1]⟩) (hu : 0 < (⟨0, ![]⟩ : Shape).numel) :
    multiReduction .add [1] ⟨1, ![1]⟩ e 0x00000000#32 hr hφ hacc
      = Host.reduceAdd e (constant (F := Ideal) ⟨0, ![]⟩ .f32 0x00000000#32) hr' hu :=
  multiReduction_add_eq_hostReduceAdd e _ hr hφ hacc _ hr' hu Ideal.ofBits_zero_f32

/-! ## The two spellings of the row softmax -/

/-- The kernel's spelling: reductions with an accumulator, the kept axis as a column view spread over the lanes. -/
def kernelSoftmaxRow {b : ℕ} (z : FVec Ideal ⟨2, ![1, b]⟩ .f32)
    (hr : (⟨2, ![1, b]⟩ : Shape).Reduces [1] ⟨1, ![1]⟩) (hφ : FKind.Formats .f32)
    (hmax : (0xFF800000#32 : BitVec 32) = FKind.maximumf.neutral .f32 hφ)
    (hadd : (0x00000000#32 : BitVec 32) = FKind.add.neutral .f32 hφ)
    (hc : (⟨1, ![1]⟩ : Shape).ShapeCasts ⟨2, ![1, 1]⟩) (hbt : (⟨2, ![1, 1]⟩ : Shape).Broadcasts ⟨2, ![1, b]⟩) :
    FVec Ideal ⟨2, ![1, b]⟩ .f32 :=
  have m : FVec Ideal ⟨1, ![1]⟩ .f32 :=
    maximumf (broadcast ⟨1, ![1]⟩ (Scalar.ofBits (F := Ideal) .f32 0xFF800000#32))
      (multiReduction .maximumf [1] ⟨1, ![1]⟩ z 0xFF800000#32 hr hφ hmax)
  have e : FVec Ideal ⟨2, ![1, b]⟩ .f32 := exp (subf z (broadcastTo ⟨2, ![1, b]⟩ (shapeCast ⟨2, ![1, 1]⟩ m hc) hbt))
  divf e (broadcastTo ⟨2, ![1, b]⟩ (shapeCast ⟨2, ![1, 1]⟩ (multiReduction .add [1] ⟨1, ![1]⟩ e 0x00000000#32 hr hφ hadd) hc) hbt)

/-- The host's spelling: reductions from rank-zero constants, the kept axis by two placements. -/
def hostSoftmaxRow {b : ℕ} (z : FVec Ideal ⟨2, ![1, b]⟩ .f32)
    (hr' : (⟨2, ![1, b]⟩ : Shape).ReducesTo [1] ⟨1, ![1]⟩) (hu : 0 < (⟨0, ![]⟩ : Shape).numel)
    (hb0 : (⟨0, ![]⟩ : Shape).BroadcastsInDim ⟨1, ![1]⟩ ![])
    (hb1 : (⟨1, ![1]⟩ : Shape).BroadcastsInDim ⟨2, ![1, 1]⟩ ![0])
    (hb2 : (⟨2, ![1, 1]⟩ : Shape).BroadcastsInDim ⟨2, ![1, b]⟩ ![0, 1]) :
    FVec Ideal ⟨2, ![1, b]⟩ .f32 :=
  have m : FVec Ideal ⟨1, ![1]⟩ .f32 :=
    maximumf (broadcastInDim ⟨1, ![1]⟩ ![] hb0 (constant (F := Ideal) ⟨0, ![]⟩ .f32 0xFF800000#32))
      (Host.reduce FloatOps.maximumf z (constant (F := Ideal) ⟨0, ![]⟩ .f32 0xFF800000#32) hr' hu)
  have e : FVec Ideal ⟨2, ![1, b]⟩ .f32 :=
    Host.exp (subf z (broadcastInDim ⟨2, ![1, b]⟩ ![0, 1] hb2 (broadcastInDim ⟨2, ![1, 1]⟩ ![0] hb1 m)))
  Host.divf e (broadcastInDim ⟨2, ![1, b]⟩ ![0, 1] hb2 (broadcastInDim ⟨2, ![1, 1]⟩ ![0] hb1
    (Host.reduceAdd e (constant (F := Ideal) ⟨0, ![]⟩ .f32 0x00000000#32) hr' hu)))

/-- On the extended reals the two spellings are one function of the row. -/
theorem kernelSoftmaxRow_eq_host {b : ℕ} (z : FVec Ideal ⟨2, ![1, b]⟩ .f32)
    (hr : (⟨2, ![1, b]⟩ : Shape).Reduces [1] ⟨1, ![1]⟩) (hφ : FKind.Formats .f32)
    (hmax : (0xFF800000#32 : BitVec 32) = FKind.maximumf.neutral .f32 hφ)
    (hadd : (0x00000000#32 : BitVec 32) = FKind.add.neutral .f32 hφ)
    (hc : (⟨1, ![1]⟩ : Shape).ShapeCasts ⟨2, ![1, 1]⟩) (hbt : (⟨2, ![1, 1]⟩ : Shape).Broadcasts ⟨2, ![1, b]⟩)
    (hr' : (⟨2, ![1, b]⟩ : Shape).ReducesTo [1] ⟨1, ![1]⟩) (hu : 0 < (⟨0, ![]⟩ : Shape).numel)
    (hb0 : (⟨0, ![]⟩ : Shape).BroadcastsInDim ⟨1, ![1]⟩ ![])
    (hb1 : (⟨1, ![1]⟩ : Shape).BroadcastsInDim ⟨2, ![1, 1]⟩ ![0])
    (hb2 : (⟨2, ![1, 1]⟩ : Shape).BroadcastsInDim ⟨2, ![1, b]⟩ ![0, 1]) :
    kernelSoftmaxRow z hr hφ hmax hadd hc hbt = hostSoftmaxRow z hr' hu hb0 hb1 hb2 := by
  unfold kernelSoftmaxRow hostSoftmaxRow
  dsimp only
  rw [laneMax_eq z hr hφ hmax hr' hu, keptAxis_eq _ hc hbt hb1 hb2,
    ← broadcastInDim_constant (F := Ideal) (s := ⟨0, ![]⟩) (t := ⟨1, ![1]⟩) (φ := .f32) ![] hb0 0xFF800000#32]
  rw [laneSum_eq _ hr hφ hadd hr' hu, keptAxis_eq _ hc hbt hb1 hb2]
  rfl

end Cert.Bridge

end
-- ==== Proof.BridgePayload.lean ====
/-
  The kernel's stored values, written with the host's operations.

  At the extended reals a change of float format is the identity, a reshape of a block to its own shape is the
  identity, and a matrix product accumulated into a zero block is the plain product. Dropping those three from the
  recurrent step's stored values leaves, for each, a short composition of a concatenation, transposes, products,
  additions of bias rows and one pointwise function:

  * the attention weights: the row softmax of `[e, h] · Waᵀ + ba`;
  * the combined input: `[e, w · E] · Wcᵀ + bc`, with `w` the attention weights;
  * the new hidden row: `tanh ((max c 0 · Wihᵀ + bih) + (h · Whhᵀ + bhh))`, with `c` the combined input.
-/
import proofs.«103420_j15728170238452_2_alg».proof.Proof.Gen.KernelIdeal.Skeleton
import proofs.«103420_j15728170238452_2_alg».proof.Proof.BridgeSoftmaxRow
import Idealize.ShloMosaic.Lib.KernelVsHost
import Idealize.ShloMosaic.Lib.Pipeline.Value

noncomputable section

namespace Cert.Bridge

open Idealize.ShloMosaic Idealize.ShloMosaic.ValueIdx Cert.KernelIdeal Cert.KernelIdeal.Gen

/-! ## The attention weights -/

/-- The attention scores `[e, h] · Waᵀ + ba`: `e` the embedded token, `h` the previous hidden row. -/
def kernelScores (e h : FVec Ideal S1x1024 .f32) (Wa : FVec Ideal S12x2048 .f32) (ba : FVec Ideal S1x12 .f32) :
    FVec Ideal S1x12 .f32 :=
  addf (Host.dotGeneral dot_S1x2048_S2048x12_S1x12_1_0_0_1_n_n none
      (concatenate S1x2048 1 [⟨S1x1024, e⟩, ⟨S1x1024, h⟩] concatenates_S1x1024_S1x1024_S1x2048_d1)
      (transpose S2048x12 [1, 0] Wa transposes_S12x2048_p1_0_S2048x12)) ba

/-- The stored attention weights are the row softmax, in the kernel's spelling, of the attention scores. -/
theorem k0_pay4_eq (e h : FVec Ideal S1x1024 .f32) (Wa : FVec Ideal S12x2048 .f32) (ba : FVec Ideal S1x12 .f32) :
    k0_pay4 (F := Ideal) e h Wa ba
      = kernelSoftmaxRow (kernelScores e h Wa ba) reduces_S1x12_S1 (.inl rfl) rfl rfl shapeCasts_S1_S1x1
          broadcasts_S1x1_S1x12 := by
  unfold k0_pay4 k0_pay2 k0_pay3 kernelSoftmaxRow kernelScores
  dsimp only
  rw [shapeCast_self e, shapeCast_self h, shapeCast_self ba, matmul_zero_eq_dotGeneral]
  rfl

/-! ## The combined input -/

/-- `[e, w · E] · Wcᵀ + bc`: the embedded token joined with the attention-weighted rows of `E`, projected. -/
def kernelCombined (w : FVec Ideal S1x12 .f32) (e : FVec Ideal S1x1024 .f32) (E : FVec Ideal S12x1024 .f32)
    (Wc : FVec Ideal S1024x2048 .f32) (bc : FVec Ideal S1x1024 .f32) : FVec Ideal S1x1024 .f32 :=
  addf (Host.dotGeneral dot_S1x2048_S2048x1024_S1x1024_1_0_0_1_n_n none
      (concatenate S1x2048 1
        [⟨S1x1024, e⟩, ⟨S1x1024, Host.dotGeneral dot_S1x12_S12x1024_S1x1024_1_0_0_1_n_n none w E⟩]
        concatenates_S1x1024_S1x1024_S1x2048_d1)
      (transpose S2048x1024 [1, 0] Wc transposes_S1024x2048_p1_0_S2048x1024)) bc

/-- The combined input the kernel carries is `kernelCombined` of the stored attention weights. -/
theorem k0_pay5_eq (e h : FVec Ideal S1x1024 .f32) (Wa : FVec Ideal S12x2048 .f32) (ba : FVec Ideal S1x12 .f32)
    (E : FVec Ideal S12x1024 .f32) (Wc : FVec Ideal S1024x2048 .f32) (bc : FVec Ideal S1x1024 .f32) :
    k0_pay5 (F := Ideal) e h Wa ba E Wc bc = kernelCombined (k0_pay4 (F := Ideal) e h Wa ba) e E Wc bc := by
  unfold k0_pay5 k0_pay2 kernelCombined
  generalize k0_pay4 (F := Ideal) e h Wa ba = w
  dsimp only
  rw [shapeCast_self e, shapeCast_self bc, matmul_zero_eq_dotGeneral, matmul_zero_eq_dotGeneral]
  rfl

/-! ## The new hidden row -/

/-- `tanh ((max c 0 · Wihᵀ + bih) + (h · Whhᵀ + bhh))`. -/
def kernelHidden (h c : FVec Ideal S1x1024 .f32) (Wih Whh : FVec Ideal S1024x1024 .f32)
    (bih bhh : FVec Ideal S1x1024 .f32) : FVec Ideal S1x1024 .f32 :=
  tanh (addf
    (addf (Host.dotGeneral dot_S1x1024_S1024x1024_S1x1024_1_0_0_1_n_n none
        (maximumf c (broadcast S1x1024 (Scalar.ofBits (F := Ideal) .f32 0x00000000#32)))
        (transpose S1024x1024 [1, 0] Wih transposes_S1024x1024_p1_0_S1024x1024)) bih)
    (addf (Host.dotGeneral dot_S1x1024_S1024x1024_S1x1024_1_0_0_1_n_n none h
        (transpose S1024x1024 [1, 0] Whh transposes_S1024x1024_p1_0_S1024x1024)) bhh))

/-- The stored hidden row is `kernelHidden` of the previous hidden row and the combined input. -/
theorem k0_pay1_eq (h c : FVec Ideal S1x1024 .f32) (Wih Whh : FVec Ideal S1024x1024 .f32)
    (bih bhh : FVec Ideal S1x1024 .f32) :
    k0_pay1 (F := Ideal) h c k0_pay6 Wih Whh bih bhh = kernelHidden h c Wih Whh bih bhh := by
  unfold k0_pay1 k0_pay6 kernelHidden
  simp only [shapeCast_self]
  rw [matmul_zero_eq_dotGeneral, matmul_zero_eq_dotGeneral]
  rfl

end Cert.Bridge

end
-- ==== Proof.LibRowCol.lean ====
/-
  Vectors as one-row and one-column matrices.

  A vector of length `a` becomes a `1 × a` row or an `a × 1` column either by a reshape (the row-major order is
  unchanged) or by a `broadcast_in_dim` that maps the vector's axis to the matrix's long axis; the two arrays are
  equal, entry by entry. Also: a pointwise function commutes with such a placement.
-/
import Idealize.ShloMosaic.Lib.ValueIdx
import Idealize.ShloMosaic.Lib.ValueLayout
import Idealize.ShloMosaic.Lib.Pipeline.Value

namespace Idealize.ShloMosaic.RowCol

open Idealize.ShloMosaic ValueIdx

variable {α : Type}

/-- An `[a]` array cast to `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The vector's axis sent to axis 0 of `[a, 1]`: the entry at `(i, u)` is the operand's at `i`. -/
theorem broadcastInDim_a_a1_apply {a : ℕ} (x : (⟨1, ![a]⟩ : Shape).Idx → α)
    (h : (⟨1, ![a]⟩ : Shape).BroadcastsInDim ⟨2, ![a, 1]⟩ ![0]) (i : Fin a) (u : Fin 1) :
    broadcastInDim ⟨2, ![a, 1]⟩ ![0] h x (ix2 i u) = x (ix1 i) :=
  broadcastInDim_apply _ h x _ _ (fun d => by
    match d with
    | ⟨0, _⟩ =>
      show i.val = if a = 1 then 0 else i.val
      split
      · omega
      · rfl)

/-- The vector's axis sent to axis 1 of `[1, a]`: the entry at `(u, i)` is the operand's at `i`. -/
theorem broadcastInDim_a_1a_apply {a : ℕ} (x : (⟨1, ![a]⟩ : Shape).Idx → α)
    (h : (⟨1, ![a]⟩ : Shape).BroadcastsInDim ⟨2, ![1, a]⟩ ![1]) (u : Fin 1) (i : Fin a) :
    broadcastInDim ⟨2, ![1, a]⟩ ![1] h x (ix2 u i) = x (ix1 i) :=
  broadcastInDim_apply _ h x _ _ (fun d => by
    match d with
    | ⟨0, _⟩ =>
      show i.val = if a = 1 then 0 else i.val
      split
      · omega
      · rfl)

/-- A reshape of a vector to a column is the placement of its axis on axis 0. -/
theorem reshape_col {a : ℕ} (x : (⟨1, ![a]⟩ : Shape).Idx → α) (h : (⟨1, ![a]⟩ : Shape).ShapeCasts ⟨2, ![a, 1]⟩)
    (hb : (⟨1, ![a]⟩ : Shape).BroadcastsInDim ⟨2, ![a, 1]⟩ ![0]) :
    shapeCast ⟨2, ![a, 1]⟩ x h = broadcastInDim ⟨2, ![a, 1]⟩ ![0] hb x := by
  funext j
  obtain ⟨i, u, rfl⟩ : ∃ (i : Fin a) (u : Fin 1), j = ix2 i u := ⟨j 0, j 1, eq_ix2 j⟩
  rw [shapeCast_a_a1_apply, broadcastInDim_a_a1_apply]

/-- A reshape of a vector to a row is the placement of its axis on axis 1. -/
theorem reshape_row {a : ℕ} (x : (⟨1, ![a]⟩ : Shape).Idx → α) (h : (⟨1, ![a]⟩ : Shape).ShapeCasts ⟨2, ![1, a]⟩)
    (hb : (⟨1, ![a]⟩ : Shape).BroadcastsInDim ⟨2, ![1, a]⟩ ![1]) :
    shapeCast ⟨2, ![1, a]⟩ x h = broadcastInDim ⟨2, ![1, a]⟩ ![1] hb x := by
  funext j
  obtain ⟨u, i, rfl⟩ : ∃ (u : Fin 1) (i : Fin a), j = ix2 u i := ⟨j 0, j 1, eq_ix2 j⟩
  rw [shapeCast_a_1a_apply, broadcastInDim_a_1a_apply]

end Idealize.ShloMosaic.RowCol
-- ==== Proof.BridgeAttn.lean ====
/-
  The attention weights: the kernel's stored value is the reference's softmax stage.

  Both programs form the scores `[e, h] · Waᵀ + ba` from the embedded token `e` and the previous hidden row `h`:
  the kernel joins the two rows and multiplies by the transposed weight block into a zero accumulator, the
  reference joins the same two rows and takes the host product with the same transpose; the bias reaches the kernel
  as a `[12] → [1, 12]` reshape and the reference as a broadcast along axis 1, which are one array. The softmax of
  the scores row is then one function in the two spellings (the row-softmax module).
-/
import proofs.«103420_j15728170238452_2_alg».proof.Proof.BridgePayload
import proofs.«103420_j15728170238452_2_alg».proof.Proof.RefRead
import proofs.«103420_j15728170238452_2_alg».proof.Proof.LibRowCol

noncomputable section
namespace Cert.Bridge

open Idealize.ShloMosaic Idealize.ShloMosaic.ValueIdx Cert.ReferenceIdeal.ReadP

/-- The reference's attention scores are the kernel's: the same concatenation, transpose and product, and the bias
    row placed by a reshape on one side and by a broadcast along axis 1 on the other. -/
theorem scores_eq (x0 : (⟨Cert.ReferenceIdeal.S1, .i32⟩ : BufTy).Contents (Elt Ideal)) (x1 : (⟨Cert.ReferenceIdeal.S1x1x1024, .f32⟩ : BufTy).Contents (Elt Ideal)) (x3 : (⟨Cert.ReferenceIdeal.S50257x1024, .f32⟩ : BufTy).Contents (Elt Ideal)) (x4 : (⟨Cert.ReferenceIdeal.S12x2048, .f32⟩ : BufTy).Contents (Elt Ideal)) (x5 : (⟨Cert.ReferenceIdeal.S12, .f32⟩ : BufTy).Contents (Elt Ideal)) :
    kernelScores (val_main_v9 (F := Ideal) x0 x3) (val_main_v10 (F := Ideal) x1) x4
        (shapeCast Cert.KernelIdeal.S1x12 x5 Cert.KernelIdeal.Gen.shapeCasts_S12_S1x12)
      = val_main_v15 (F := Ideal) x0 x1 x3 x4 x5 := by
  unfold kernelScores val_main_v15 val_main_v13 val_main_v11 val_main_v12 val_main_v14
  rw [RowCol.reshape_row x5 _ Cert.ReferenceIdeal.Gen.bcast_S12_S1x12_1]
  rfl

/-- B1. The attention weights the kernel stores are the reference's softmax stage. -/
theorem attn (x0 : (⟨Cert.ReferenceIdeal.S1, .i32⟩ : BufTy).Contents (Elt Ideal)) (x1 : (⟨Cert.ReferenceIdeal.S1x1x1024, .f32⟩ : BufTy).Contents (Elt Ideal)) (x3 : (⟨Cert.ReferenceIdeal.S50257x1024, .f32⟩ : BufTy).Contents (Elt Ideal)) (x4 : (⟨Cert.ReferenceIdeal.S12x2048, .f32⟩ : BufTy).Contents (Elt Ideal)) (x5 : (⟨Cert.ReferenceIdeal.S12, .f32⟩ : BufTy).Contents (Elt Ideal)) :
    Cert.KernelIdeal.Gen.k0_pay4 (F := Ideal) (val_main_v9 (F := Ideal) x0 x3) (val_main_v10 (F := Ideal) x1) x4
        (shapeCast Cert.KernelIdeal.S1x12 x5 Cert.KernelIdeal.Gen.shapeCasts_S12_S1x12)
      = val_main_v26 (F := Ideal) x0 x1 x3 x4 x5 := by
  rw [k0_pay4_eq, scores_eq]
  refine (kernelSoftmaxRow_eq_host _ _ _ _ _ _ _ Cert.ReferenceIdeal.Gen.reducesTo_S1x12_S1_d1
    Cert.ReferenceIdeal.Gen.h_S_ Cert.ReferenceIdeal.Gen.bcast_S_S1 Cert.ReferenceIdeal.Gen.bcast_S1_S1x1_0
    Cert.ReferenceIdeal.Gen.bcast_S1x1_S1x12_0_1).trans ?_
  unfold hostSoftmaxRow val_main_v26 val_main_v25 val_main_v24 val_main_v23 val_main_v22 val_main_v21 val_main_v20
    val_main_v19 val_main_v18 val_main_v17 val_main_v16 val_main_cst val_main_cst_6 val_main_cst_7
  generalize val_main_v15 (F := Ideal) x0 x1 x3 x4 x5 = z
  rfl

end Cert.Bridge

end
-- ==== Proof.BridgeHidden.lean ====
/-
  The new hidden row: the kernel's stored value is the reference's `tanh` stage.

  With the attention weights equal, the combined input `[e, w · E] · Wcᵀ + bc` is the same composition on both
  sides. The recurrent update then adds four rows under `tanh`: the kernel groups them `(A + b₁) + (B + b₂)`, the
  reference `((A + b₁) + B) + b₂`, where `A = max c 0 · Wihᵀ`, `B = h · Whhᵀ`; on the extended reals addition is
  associative, with no finiteness needed. The rectifier's zero is the same word on both sides, a splat in the
  kernel and a broadcast rank-zero constant in the reference.
-/
import proofs.«103420_j15728170238452_2_alg».proof.Proof.BridgeAttn

noncomputable section
namespace Cert.Bridge

open Idealize.ShloMosaic Idealize.ShloMosaic.ValueIdx Cert.ReferenceIdeal.ReadP

/-- The combined input the kernel carries is the reference's stage before the rectifier: the attention weights are
    equal (`attn`), and the rest is the same product of the same concatenation, with the bias row placed by a reshape
    on one side and by a broadcast along axis 1 on the other. -/
theorem combined_eq (x0 : (⟨Cert.ReferenceIdeal.S1, .i32⟩ : BufTy).Contents (Elt Ideal)) (x1 : (⟨Cert.ReferenceIdeal.S1x1x1024, .f32⟩ : BufTy).Contents (Elt Ideal)) (x2 : (⟨Cert.ReferenceIdeal.S12x1024, .f32⟩ : BufTy).Contents (Elt Ideal)) (x3 : (⟨Cert.ReferenceIdeal.S50257x1024, .f32⟩ : BufTy).Contents (Elt Ideal)) (x4 : (⟨Cert.ReferenceIdeal.S12x2048, .f32⟩ : BufTy).Contents (Elt Ideal)) (x5 : (⟨Cert.ReferenceIdeal.S12, .f32⟩ : BufTy).Contents (Elt Ideal)) (x6 : (⟨Cert.ReferenceIdeal.S1024x2048, .f32⟩ : BufTy).Contents (Elt Ideal)) (x7 : (⟨Cert.ReferenceIdeal.S1024, .f32⟩ : BufTy).Contents (Elt Ideal)) :
    Cert.KernelIdeal.Gen.k0_pay5 (F := Ideal) (val_main_v9 (F := Ideal) x0 x3) (val_main_v10 (F := Ideal) x1) x4
        (shapeCast Cert.KernelIdeal.S1x12 x5 Cert.KernelIdeal.Gen.shapeCasts_S12_S1x12) x2 x6 (shapeCast Cert.KernelIdeal.S1x1024 x7 Cert.KernelIdeal.Gen.shapeCasts_S1024_S1x1024)
      = val_main_v32 (F := Ideal) x0 x1 x2 x3 x4 x5 x6 x7 := by
  rw [k0_pay5_eq, attn]
  unfold kernelCombined val_main_v32 val_main_v30 val_main_v28 val_main_v29 val_main_v27 val_main_v31
  rw [RowCol.reshape_row x7 _ Cert.ReferenceIdeal.Gen.bcast_S1024_S1x1024_1]
  generalize val_main_v26 (F := Ideal) x0 x1 x3 x4 x5 = w
  rfl

/-- The sum of two projected rows and two bias rows under `tanh`: grouped `(A + b₁) + (B + b₂)` it is the value
    grouped `((A + b₁) + B) + b₂`, addition on the extended reals being associative. -/
theorem tanh_regroup {s : Shape} (A b₁ B b₂ : FVec Ideal s .f32) :
    tanh (addf (addf A b₁) (addf B b₂)) = Host.tanh (addf (addf (addf A b₁) B) b₂) := by
  funext i
  show Ideal.tanh ((A i + b₁ i) + (B i + b₂ i)) = Ideal.tanh (((A i + b₁ i) + B i) + b₂ i)
  rw [add_assoc (A i + b₁ i)]

/-- B2. The hidden row the kernel stores is the reference's `tanh` stage. -/
theorem hidden (x0 : (⟨Cert.ReferenceIdeal.S1, .i32⟩ : BufTy).Contents (Elt Ideal)) (x1 : (⟨Cert.ReferenceIdeal.S1x1x1024, .f32⟩ : BufTy).Contents (Elt Ideal)) (x2 : (⟨Cert.ReferenceIdeal.S12x1024, .f32⟩ : BufTy).Contents (Elt Ideal)) (x3 : (⟨Cert.ReferenceIdeal.S50257x1024, .f32⟩ : BufTy).Contents (Elt Ideal)) (x4 : (⟨Cert.ReferenceIdeal.S12x2048, .f32⟩ : BufTy).Contents (Elt Ideal)) (x5 : (⟨Cert.ReferenceIdeal.S12, .f32⟩ : BufTy).Contents (Elt Ideal)) (x6 : (⟨Cert.ReferenceIdeal.S1024x2048, .f32⟩ : BufTy).Contents (Elt Ideal)) (x7 : (⟨Cert.ReferenceIdeal.S1024, .f32⟩ : BufTy).Contents (Elt Ideal)) (x8 : (⟨Cert.ReferenceIdeal.S1024x1024, .f32⟩ : BufTy).Contents (Elt Ideal)) (x9 : (⟨Cert.ReferenceIdeal.S1024x1024, .f32⟩ : BufTy).Contents (Elt Ideal)) (x10 : (⟨Cert.ReferenceIdeal.S1024, .f32⟩ : BufTy).Contents (Elt Ideal)) (x11 : (⟨Cert.ReferenceIdeal.S1024, .f32⟩ : BufTy).Contents (Elt Ideal)) :
    Cert.KernelIdeal.Gen.k0_pay1 (F := Ideal) (Cert.KernelIdeal.Gen.k0_pay3 (val_main_v10 (F := Ideal) x1))
        (Cert.KernelIdeal.Gen.k0_pay5 (val_main_v9 (F := Ideal) x0 x3) (val_main_v10 (F := Ideal) x1) x4
          (shapeCast Cert.KernelIdeal.S1x12 x5 Cert.KernelIdeal.Gen.shapeCasts_S12_S1x12) x2 x6 (shapeCast Cert.KernelIdeal.S1x1024 x7 Cert.KernelIdeal.Gen.shapeCasts_S1024_S1x1024))
        Cert.KernelIdeal.Gen.k0_pay6 x8 x9 (shapeCast Cert.KernelIdeal.S1x1024 x10 Cert.KernelIdeal.Gen.shapeCasts_S1024_S1x1024)
        (shapeCast Cert.KernelIdeal.S1x1024 x11 Cert.KernelIdeal.Gen.shapeCasts_S1024_S1x1024)
      = val_main_v43 (F := Ideal) x0 x1 x2 x3 x4 x5 x6 x7 x8 x9 x10 x11 := by
  have h3 : Cert.KernelIdeal.Gen.k0_pay3 (F := Ideal) (val_main_v10 (F := Ideal) x1) = val_main_v10 (F := Ideal) x1 := by
    unfold Cert.KernelIdeal.Gen.k0_pay3
    exact shapeCast_self _ _
  rw [k0_pay1_eq, combined_eq, h3]
  unfold kernelHidden
  refine (tanh_regroup _ _ _ _).trans ?_
  unfold val_main_v43 val_main_v42 val_main_v40 val_main_v37 val_main_v35 val_main_v33 val_main_v34 val_main_v36
    val_main_v39 val_main_v38 val_main_v41 val_main_call0_v0 val_main_call0_cst
  rw [RowCol.reshape_row x10 _ Cert.ReferenceIdeal.Gen.bcast_S1024_S1x1024_1,
    RowCol.reshape_row x11 _ Cert.ReferenceIdeal.Gen.bcast_S1024_S1x1024_1]
  generalize val_main_v32 (F := Ideal) x0 x1 x2 x3 x4 x5 x6 x7 = c
  generalize val_main_v10 (F := Ideal) x1 = h
  rfl

end Cert.Bridge

end
-- ==== Proof.BridgeLogits.lean ====
/-
  The output projection and what follows it, on the reference's side.

  * Entry `n` of the reference's logits row is `∑ k, h[0,k] · W[n,k] + b[0,n]`, `h` the new hidden row.
  * The reference's last stage is the log-softmax of that row, written here as one function of the row with the
    kernel program's own shape records, so that the two programs' tails are the same function of equal rows.
  * The reference's returned hidden state is the new hidden row with a unit axis in front.
-/
import proofs.«103420_j15728170238452_2_alg».proof.Proof.Gen.KernelIdeal.Skeleton
import proofs.«103420_j15728170238452_2_alg».proof.Proof.RefRead
import proofs.«103420_j15728170238452_2_alg».proof.Proof.SpecLogit
import Idealize.ShloMosaic.Lib.ValueIdx
import Idealize.ShloMosaic.Lib.ValueLayout
import Idealize.ShloMosaic.Lib.Pipeline.Value

noncomputable section
namespace Cert.Bridge

open Idealize.ShloMosaic Idealize.ShloMosaic.ValueIdx Cert.ReferenceIdeal.ReadP

/-- B3. Entry `n` of the reference's logits row is `∑ k, h[0,k] · W[n,k] + b[0,n]` with `h` the new hidden row: the
    product reads the transposed vocabulary matrix at `(k, n)`, that is the matrix at `(n, k)`, and the bias, placed
    along axis 1, is read at `n` as the reshaped bias row is. -/
theorem logits (x0 : (⟨Cert.ReferenceIdeal.S1, .i32⟩ : BufTy).Contents (Elt Ideal)) (x1 : (⟨Cert.ReferenceIdeal.S1x1x1024, .f32⟩ : BufTy).Contents (Elt Ideal)) (x2 : (⟨Cert.ReferenceIdeal.S12x1024, .f32⟩ : BufTy).Contents (Elt Ideal)) (x3 : (⟨Cert.ReferenceIdeal.S50257x1024, .f32⟩ : BufTy).Contents (Elt Ideal)) (x4 : (⟨Cert.ReferenceIdeal.S12x2048, .f32⟩ : BufTy).Contents (Elt Ideal)) (x5 : (⟨Cert.ReferenceIdeal.S12, .f32⟩ : BufTy).Contents (Elt Ideal)) (x6 : (⟨Cert.ReferenceIdeal.S1024x2048, .f32⟩ : BufTy).Contents (Elt Ideal)) (x7 : (⟨Cert.ReferenceIdeal.S1024, .f32⟩ : BufTy).Contents (Elt Ideal)) (x8 : (⟨Cert.ReferenceIdeal.S1024x1024, .f32⟩ : BufTy).Contents (Elt Ideal)) (x9 : (⟨Cert.ReferenceIdeal.S1024x1024, .f32⟩ : BufTy).Contents (Elt Ideal)) (x10 : (⟨Cert.ReferenceIdeal.S1024, .f32⟩ : BufTy).Contents (Elt Ideal)) (x11 : (⟨Cert.ReferenceIdeal.S1024, .f32⟩ : BufTy).Contents (Elt Ideal)) (x12 : (⟨Cert.ReferenceIdeal.S50257x1024, .f32⟩ : BufTy).Contents (Elt Ideal)) (x13 : (⟨Cert.ReferenceIdeal.S50257, .f32⟩ : BufTy).Contents (Elt Ideal)) (n : Fin 50257) :
    val_main_v47 (F := Ideal) x0 x1 x2 x3 x4 x5 x6 x7 x8 x9 x10 x11 x12 x13 (ix2 (0 : Fin 1) n)
      = Cert.Spec.logitAt (val_main_v43 (F := Ideal) x0 x1 x2 x3 x4 x5 x6 x7 x8 x9 x10 x11) x12
          (shapeCast Cert.KernelIdeal.S1x50257 x13 Cert.KernelIdeal.Gen.shapeCasts_S50257_S1x50257) n := by
  rw [val_main_v47_apply, val_main_v45_apply, val_main_v46_apply]
  unfold Cert.Spec.logitAt
  generalize val_main_v43 (F := Ideal) x0 x1 x2 x3 x4 x5 x6 x7 x8 x9 x10 x11 = h
  have e1 : ∀ k : Fin 1024, lidx_main_v45 (ix2 (0 : Fin 1) n) k = ix2 (0 : Fin 1) k := fun k =>
    funext fun a => Fin.ext (by match a with | ⟨0, _⟩ => rfl | ⟨1, _⟩ => rfl)
  have e2 : ∀ k : Fin 1024, val_main_v44 (F := Ideal) x12 (ridx_main_v45 (ix2 (0 : Fin 1) n) k) = x12 (ix2 n k) :=
    fun k => (val_main_v44_apply x12 _).trans (congrArg x12 (funext fun a => Fin.ext (by
      match a with | ⟨0, _⟩ => rfl | ⟨1, _⟩ => rfl)))
  have e3 : (shapeCast Cert.KernelIdeal.S1x50257 x13 Cert.KernelIdeal.Gen.shapeCasts_S50257_S1x50257) (ix2 (0 : Fin 1) n)
      = x13 (idx_main_v46 (ix2 (0 : Fin 1) n)) :=
    (shapeCast_a_1a_apply x13 _ (0 : Fin 1) n).trans (congrArg x13 (funext fun a => Fin.ext (by
      match a with | ⟨0, _⟩ => rfl)))
  rw [e3]
  refine congrArg (· + x13 (idx_main_v46 (ix2 (0 : Fin 1) n))) (Finset.sum_congr rfl fun k _ => ?_)
  rw [e1 k, e2 k]

/-- The log-softmax of a logits row, as the kernel's program computes it on the host after the projection:
    `d - log (∑ exp d)` with `d = z - max (-∞) (max z)`, the kept axis placed by two broadcasts. -/
def logSoftmaxRow (z : FVec Ideal Cert.KernelIdeal.S1x50257 .f32) : FVec Ideal Cert.KernelIdeal.S1x50257 .f32 :=
  have m : FVec Ideal Cert.KernelIdeal.S1 .f32 :=
    maximumf
      (broadcastInDim Cert.KernelIdeal.S1 ![] Cert.KernelIdeal.Gen.bcast_S_S1
        (constant (F := Ideal) Cert.KernelIdeal.S_ .f32 0xFF800000#32))
      (Host.reduce FloatOps.maximumf z (constant (F := Ideal) Cert.KernelIdeal.S_ .f32 0xFF800000#32)
        Cert.KernelIdeal.Gen.reducesTo_S1x50257_S1_d1 Cert.KernelIdeal.Gen.h_S_)
  have d : FVec Ideal Cert.KernelIdeal.S1x50257 .f32 :=
    subf z (broadcastInDim Cert.KernelIdeal.S1x50257 ![0, 1] Cert.KernelIdeal.Gen.bcast_S1x1_S1x50257_0_1
      (broadcastInDim Cert.KernelIdeal.S1x1 ![0] Cert.KernelIdeal.Gen.bcast_S1_S1x1_0 m))
  have s : FVec Ideal Cert.KernelIdeal.S1 .f32 :=
    Host.reduceAdd (F := Ideal) (Host.exp (F := Ideal) d) (constant (F := Ideal) Cert.KernelIdeal.S_ .f32 0x00000000#32)
      Cert.KernelIdeal.Gen.reducesTo_S1x50257_S1_d1 Cert.KernelIdeal.Gen.h_S_
  subf d (broadcastInDim Cert.KernelIdeal.S1x50257 ![0, 1] Cert.KernelIdeal.Gen.bcast_S1x1_S1x50257_0_1
    (Host.log (F := Ideal) (broadcastInDim Cert.KernelIdeal.S1x1 ![0] Cert.KernelIdeal.Gen.bcast_S1_S1x1_0 s)))

/-- B4. The reference's last stage is the log-softmax of its logits row: its outlined `log_softmax` applies, one by
    one, the operations `logSoftmaxRow` composes. -/
theorem tail (x0 : (⟨Cert.ReferenceIdeal.S1, .i32⟩ : BufTy).Contents (Elt Ideal)) (x1 : (⟨Cert.ReferenceIdeal.S1x1x1024, .f32⟩ : BufTy).Contents (Elt Ideal)) (x2 : (⟨Cert.ReferenceIdeal.S12x1024, .f32⟩ : BufTy).Contents (Elt Ideal)) (x3 : (⟨Cert.ReferenceIdeal.S50257x1024, .f32⟩ : BufTy).Contents (Elt Ideal)) (x4 : (⟨Cert.ReferenceIdeal.S12x2048, .f32⟩ : BufTy).Contents (Elt Ideal)) (x5 : (⟨Cert.ReferenceIdeal.S12, .f32⟩ : BufTy).Contents (Elt Ideal)) (x6 : (⟨Cert.ReferenceIdeal.S1024x2048, .f32⟩ : BufTy).Contents (Elt Ideal)) (x7 : (⟨Cert.ReferenceIdeal.S1024, .f32⟩ : BufTy).Contents (Elt Ideal)) (x8 : (⟨Cert.ReferenceIdeal.S1024x1024, .f32⟩ : BufTy).Contents (Elt Ideal)) (x9 : (⟨Cert.ReferenceIdeal.S1024x1024, .f32⟩ : BufTy).Contents (Elt Ideal)) (x10 : (⟨Cert.ReferenceIdeal.S1024, .f32⟩ : BufTy).Contents (Elt Ideal)) (x11 : (⟨Cert.ReferenceIdeal.S1024, .f32⟩ : BufTy).Contents (Elt Ideal)) (x12 : (⟨Cert.ReferenceIdeal.S50257x1024, .f32⟩ : BufTy).Contents (Elt Ideal)) (x13 : (⟨Cert.ReferenceIdeal.S50257, .f32⟩ : BufTy).Contents (Elt Ideal)) :
    val_main_v48 (F := Ideal) x0 x1 x2 x3 x4 x5 x6 x7 x8 x9 x10 x11 x12 x13 = logSoftmaxRow (val_main_v47 (F := Ideal) x0 x1 x2 x3 x4 x5 x6 x7 x8 x9 x10 x11 x12 x13) := by
  unfold val_main_v48 val_main_call1_v10 val_main_call1_v9 val_main_call1_v8 val_main_call1_v7 val_main_call1_cst_1
    val_main_call1_v6 val_main_call1_v5 val_main_call1_v4 val_main_call1_v3 val_main_call1_v2 val_main_call1_v1
    val_main_call1_cst_0 val_main_call1_v0 val_main_call1_cst logSoftmaxRow
  generalize val_main_v47 (F := Ideal) x0 x1 x2 x3 x4 x5 x6 x7 x8 x9 x10 x11 x12 x13 = z
  rfl

/-- B5. The reference's returned hidden state is its new hidden row with a unit axis placed in front. -/
theorem hiddenOut (x0 : (⟨Cert.ReferenceIdeal.S1, .i32⟩ : BufTy).Contents (Elt Ideal)) (x1 : (⟨Cert.ReferenceIdeal.S1x1x1024, .f32⟩ : BufTy).Contents (Elt Ideal)) (x2 : (⟨Cert.ReferenceIdeal.S12x1024, .f32⟩ : BufTy).Contents (Elt Ideal)) (x3 : (⟨Cert.ReferenceIdeal.S50257x1024, .f32⟩ : BufTy).Contents (Elt Ideal)) (x4 : (⟨Cert.ReferenceIdeal.S12x2048, .f32⟩ : BufTy).Contents (Elt Ideal)) (x5 : (⟨Cert.ReferenceIdeal.S12, .f32⟩ : BufTy).Contents (Elt Ideal)) (x6 : (⟨Cert.ReferenceIdeal.S1024x2048, .f32⟩ : BufTy).Contents (Elt Ideal)) (x7 : (⟨Cert.ReferenceIdeal.S1024, .f32⟩ : BufTy).Contents (Elt Ideal)) (x8 : (⟨Cert.ReferenceIdeal.S1024x1024, .f32⟩ : BufTy).Contents (Elt Ideal)) (x9 : (⟨Cert.ReferenceIdeal.S1024x1024, .f32⟩ : BufTy).Contents (Elt Ideal)) (x10 : (⟨Cert.ReferenceIdeal.S1024, .f32⟩ : BufTy).Contents (Elt Ideal)) (x11 : (⟨Cert.ReferenceIdeal.S1024, .f32⟩ : BufTy).Contents (Elt Ideal)) :
    val_main_v49 (F := Ideal) x0 x1 x2 x3 x4 x5 x6 x7 x8 x9 x10 x11
      = broadcastInDim Cert.KernelIdeal.S1x1x1024 ![1, 2] Cert.KernelIdeal.Gen.bcast_S1x1024_S1x1x1024_1_2
          (val_main_v43 (F := Ideal) x0 x1 x2 x3 x4 x5 x6 x7 x8 x9 x10 x11) := by
  unfold val_main_v49
  rfl

end Cert.Bridge

end
-- ==== Proof.KiHost.lean ====
/-
  The kernel program's host stretches, read at an arbitrary valuation of the buffers.

  Each host operation writes one buffer; reading a buffer back through the operations that produced its operands
  composes their functions, whatever the buffers held when the stretch started.

  * Before the recurrent step the program normalises the token (a negative token counts from the end of the
    vocabulary), cuts the token's row out of the embedding table, and lays it out as a `1 × 1024` row: the same
    operations, on the same two arguments, as the reference's embedding stage. The cut takes its two start indices
    from two rank-zero buffers; reading goes on into the operations that wrote those two.
  * After the output projection the program normalises the logits row: it subtracts the row maximum and then the
    logarithm of the sum of the exponentials of the differences. The result buffer then holds that function,
    `logSoftmaxRow`, of the logits buffer's contents. These operations are stated over references that carry their
    buffer types, so a value passes into a buffer's own type and out again between two operations; the two moves
    cancel.
-/
import proofs.«103420_j15728170238452_2_alg».proof.Proof.Gen.KernelIdeal.Regions
import proofs.«103420_j15728170238452_2_alg».proof.Proof.RefRead
import proofs.«103420_j15728170238452_2_alg».proof.Proof.BridgeLogits
import Idealize.ShloMosaic.Lib.StableHlo.Run

noncomputable section

namespace Cert.KernelIdeal.Hand

open Idealize.ShloMosaic Idealize.ShloMosaic.TcCoe Idealize.ShloMosaic.StableHlo Cert.KernelIdeal Cert.KernelIdeal.Gen

variable (Wv : Valuation τ sig (Elt Ideal))

/-- Contents moved to a typed reference's own buffer type and back are the contents. -/
theorem ofBuf_toBuf {T : BufTy} (x : TRef sig T) (v : T.Contents (Elt Ideal)) : x.ofBuf (x.toBuf v) = v := by
  obtain ⟨r, rfl, _, _⟩ := x
  rfl

/-! ## The log-softmax stretch -/

set_option maxRecDepth 65536 in
/-- After the last host stretch the result buffer holds the log-softmax of the logits buffer's contents. -/
theorem host2_v18 :
    after (hostOps2 (F := Ideal)) Wv (Proc.devRef .tc main_v18)
      = Cert.Bridge.logSoftmaxRow (Wv (Proc.devRef .tc main_v17)) := by
  after_results
  simp only [ofBuf_toBuf]
  rfl

/-! ## The embedding row -/

/-- An operation with two index operands at literal references: its result over the contents of each of them, so
    that reading goes on into the operations that wrote the two index buffers. -/
theorem unaryIndexed2_result (a i0 i1 : Ref sig .tc) (T : BufTy) (y : Ref sig .tc)
    (f : a.ty.Contents (Elt Ideal) → (Fin 2 → T.Contents (Elt Ideal)) → y.ty.Contents (Elt Ideal))
    (hT : ∀ k, ((![i0, i1] : Fin 2 → Ref sig .tc) k).ty = T) (ha) (hix) (hy) (V : Valuation τ sig (Elt Ideal)) :
    (unaryIndexed (τ := τ) a ![i0, i1] T y f hT ha hix hy).result V (Proc.devRef .tc y)
      = f (V (Proc.devRef .tc a))
          (Fin.cons (α := fun _ => T.Contents (Elt Ideal))
            (cast (congrArg (fun U : BufTy => U.Contents (Elt Ideal)) (hT 0)) (V (Proc.devRef .tc i0)))
            (Fin.cons (α := fun _ => T.Contents (Elt Ideal))
              (cast (congrArg (fun U : BufTy => U.Contents (Elt Ideal)) (hT 1)) (V (Proc.devRef .tc i1)))
              (fun i => i.elim0))) := by
  rw [unaryIndexed_result]
  refine congrArg (f (V (Proc.devRef .tc a))) (funext fun k => ?_)
  fin_cases k <;> rfl

set_option maxRecDepth 65536 in
/-- After the first host stretch the embedding buffer holds the row of the embedding table the token selects, as
    the reference's stage computes it from the token and the table. -/
theorem host0_v9 :
    after (hostOps0 (F := Ideal)) Wv (Proc.devRef .tc main_v9)
      = Cert.ReferenceIdeal.ReadP.val_main_v9 (F := Ideal) (Wv (Proc.devRef .tc main_arg0))
          (Wv (Proc.devRef .tc main_arg3)) := by
  simp only [after_cons, after_nil]
  repeat (first
    | rw [unaryIndexed2_result]
    | rw [nullary_result] | rw [unary_result] | rw [binary_result] | rw [ternary_result] | rw [reshape_result]
    | (rw [nullary_result_ne]; rotate_left; decide)
    | (rw [unary_result_ne]; rotate_left; decide)
    | (rw [binary_result_ne]; rotate_left; decide)
    | (rw [ternary_result_ne]; rotate_left; decide)
    | (rw [reshape_result_ne]; rotate_left; decide)
    | (rw [unaryIndexed_result_ne]; rotate_left; decide))
  rfl

end Cert.KernelIdeal.Hand

end
-- ==== Proof.KiValues.lean ====
/- The idealized kernel's three results as the reference's stages: at the return the attention weights' buffer, the
   returned hidden state's and the log-probabilities' hold what the reference program computes from the same fourteen
   argument arrays. The contents at the return are walked back through @main's segments to what the two regions
   leave (the first: the softmax of the attention scores and the hyperbolic tangent of the summed gate pre-activations; the
   second: the new hidden row against every row of the vocabulary matrix, plus the bias), the host stretches are read
   operation by operation (the embedding row and the log-softmax in the host module), and each kernel-side value meets its reference stage by the bridge lemmas. -/
import proofs.«103420_j15728170238452_2_alg».proof.Proof.KiFold
import proofs.«103420_j15728170238452_2_alg».proof.Proof.BridgeAttn
import proofs.«103420_j15728170238452_2_alg».proof.Proof.BridgeHidden
import proofs.«103420_j15728170238452_2_alg».proof.Proof.BridgeLogits
import proofs.«103420_j15728170238452_2_alg».proof.Proof.RefRead
import proofs.«103420_j15728170238452_2_alg».proof.Proof.KiHost
import Idealize.ShloMosaic.Lib.StableHlo.Run
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.StableHlo Idealize.ShloMosaic.ValueIdx
open Idealize.SL Idealize.SL.Sem
open Cert.ReferenceIdeal.ReadP

variable (m : (ℓ : Loc nD τ sig) → Buf (Elt Ideal) ℓ) (ρ : Dev nD → PrngReg)

/-! ## The first region's entry contents as the reference's stages -/

theorem V1_v9R (c : Dev nD) : V1 m ρ c main_v9 = val_main_v9 (F := Ideal) (m ((c : Thread nD τ).loc main_arg0)) (m ((c : Thread nD τ).loc main_arg3)) :=
  host0_v9 (W0 m ρ c)
theorem V1_v10R (c : Dev nD) : V1 m ρ c main_v10 = val_main_v10 (F := Ideal) (m ((c : Thread nD τ).loc main_arg1)) :=
  (V1_v10 m ρ c).trans rfl

/-! ## The three results -/

/-- THE ATTENTION WEIGHTS at the return are the reference's softmax stage. -/
theorem out_attn (c : Dev nD) :
    W6 m ρ c (Proc.devRef .tc main_v15_1) = val_main_v26 (F := Ideal) (m ((c : Thread nD τ).loc main_arg0)) (m ((c : Thread nD τ).loc main_arg1)) (m ((c : Thread nD τ).loc main_arg3)) (m ((c : Thread nD τ).loc main_arg4)) (m ((c : Thread nD τ).loc main_arg5)) := by
  rw [W6_attn, V1_v9R, V1_v10R, V1_arg m ρ c main_arg4 (by decide), V1_v11]
  exact Cert.Bridge.attn _ _ _ _ _

/-- The new hidden row the first region leaves is the reference's `tanh` stage. -/
theorem hidden_eq (c : Dev nD) :
    W2 m ρ c (Proc.devRef .tc main_v15_0) = val_main_v43 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  rw [W2_h, V1_v9R, V1_v10R, V1_arg m ρ c main_arg4 (by decide), V1_v11, V1_arg m ρ c main_arg2 (by decide),
    V1_arg m ρ c main_arg6 (by decide), V1_v12, V1_arg m ρ c main_arg8 (by decide), V1_arg m ρ c main_arg9 (by decide),
    V1_v13, V1_v14]
  exact Cert.Bridge.hidden _ _ _ _ _ _ _ _ _ _ _ _

/-- THE RETURNED HIDDEN STATE is the reference's: the new hidden row with a unit axis in front. -/
theorem out_h (c : Dev nD) :
    W6 m ρ c (Proc.devRef .tc main_v19) = val_main_v49 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  rw [W6_h, hidden_eq]
  exact (Cert.Bridge.hiddenOut _ _ _ _ _ _ _ _ _ _ _ _).symm

/-- The logits row the second region leaves is the reference's logits stage: entry by entry the new hidden row against a
    row of the vocabulary matrix, plus the bias. -/
theorem logits_eq (c : Dev nD) :
    W4 m ρ c (Proc.devRef .tc main_v17) = val_main_v47 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  rw [W4_logits]
  funext i
  obtain ⟨u, n, rfl⟩ : ∃ (u : Fin 1) (n : Fin 50257), i = ix2 u n := ⟨i 0, i 1, eq_ix2 i⟩
  obtain rfl : u = 0 := Subsingleton.elim _ _
  rw [Cert.Bridge.logits]
  show Cert.Spec.logitAt (V3 m ρ c main_v15_0) (V3 m ρ c main_arg12) (V3 m ρ c main_v16) n = _
  rw [V3_h, hidden_eq, V3_arg12, V3_v16]

/-- THE LOG-PROBABILITIES at the return are the reference's last stage: the log-softmax of equal logits rows. -/
theorem out_logp (c : Dev nD) :
    W6 m ρ c (Proc.devRef .tc main_v18) = val_main_v48 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  rw [W6_logp]
  refine (host2_v18 (W4 m ρ c)).trans ?_
  rw [logits_eq]
  exact (Cert.Bridge.tail _ _ _ _ _ _ _ _ _ _ _ _ _ _).symm

end Cert.KernelIdeal.Hand

end
-- ==== Proof.LibSsa.lean ====
import Idealize.ShloMosaic.Lib.StableHlo.Run

/-!
# Reading a straight line of host operations one operation at a time

A line of host operations in which every operation writes one buffer, no buffer is written twice and no
operation reads a buffer written at or after its own place, leaves contents that satisfy every operation's own
equation: the result buffer of operation `k` holds the operation's function of what the line leaves in its
operand buffers. `Writes ops W` records which buffer each operation writes (operation `k` at most the `k`-th
reference of `W`); the lemmas `read_nullary` … `read_reshape` read one operation, given its place `k`, that its
result is not written later (`∉ W.drop (k + 1)`) and that its operands are not written at or after `k`
(`∉ W.drop k`) — both decided on the list of references.
-/

namespace Cert.Ssa

open Idealize.ShloMosaic Idealize.ShloMosaic.TcCoe Idealize.ShloMosaic.StableHlo

variable {τ : Topo} {sig : RefSig} {Val : EltTy → Type}

/-- The fold over two lines one after the other is the second's fold over the first's. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- Operation `k` of the line writes at most the `k`-th reference of the list, and the two have one length. -/
def Writes : List (HloOp τ sig Val) → List (Ref sig .tc) → Prop
  | [], [] => True
  | op :: ops, w :: W => op.writes ⊆ {Proc.devRef .tc w} ∧ Writes ops W
  | [], _ :: _ => False
  | _ :: _, [] => False

theorem Writes.append {l₁ l₂ : List (HloOp τ sig Val)} {W₁ W₂ : List (Ref sig .tc)}
    (h₁ : Writes l₁ W₁) (h₂ : Writes l₂ W₂) : Writes (l₁ ++ l₂) (W₁ ++ W₂) := by
  induction l₁ generalizing W₁ with
  | nil =>
    cases W₁ with
    | nil => exact h₂
    | cons w W => exact False.elim h₁
  | cons op l ih =>
    cases W₁ with
    | nil => exact False.elim h₁
    | cons w W => exact ⟨h₁.1, ih h₁.2⟩

theorem Writes.drop {ops : List (HloOp τ sig Val)} {W : List (Ref sig .tc)} (h : Writes ops W) (n : Nat) :
    Writes (ops.drop n) (W.drop n) := by
  induction n generalizing ops W with
  | zero => exact h
  | succ n ih =>
    cases ops with
    | nil =>
      cases W with
      | nil => exact h
      | cons w W => exact False.elim h
    | cons op l =>
      cases W with
      | nil => exact False.elim h
      | cons w W => exact ih h.2

/-- A buffer outside the list keeps its contents through the line. -/
theorem Writes.keep {ops : List (HloOp τ sig Val)} {W : List (Ref sig .tc)} (h : Writes ops W)
    {r : Ref sig .tc} (hr : r ∉ W) (V : Valuation τ sig Val) :
    after ops V (Proc.devRef .tc r) = V (Proc.devRef .tc r) := by
  induction ops generalizing W V with
  | nil => rfl
  | cons op l ih =>
    cases W with
    | nil => exact False.elim h
    | cons w W =>
      have hw : Proc.devRef (τ := τ) .tc r ∉ op.writes := fun hm =>
        hr (List.mem_cons.mpr (Or.inl (Proc.devRef_injective _ (Finset.mem_singleton.mp (h.1 hm)))))
      rw [after_cons, ih h.2 (fun hm => hr (List.mem_cons_of_mem _ hm)), op.result_of_not_mem V hw]

/-- The line's contents at a buffer not written after place `k`: operation `k`'s result over the contents
    the operations before it leave. -/
theorem read_at {ops : List (HloOp τ sig Val)} {W : List (Ref sig .tc)} (h : Writes ops W) (k : Nat)
    {op : HloOp τ sig Val} (hop : ops[k]? = some op) (V : Valuation τ sig Val) {r : Ref sig .tc}
    (hr : r ∉ W.drop (k + 1)) :
    after ops V (Proc.devRef .tc r) = op.result (after (ops.take k) V) (Proc.devRef .tc r) := by
  obtain ⟨hk, rfl⟩ := List.getElem?_eq_some_iff.mp hop
  have hsplit : ops.take k ++ ops[k] :: ops.drop (k + 1) = ops := by
    rw [List.getElem_cons_drop]; exact List.take_append_drop k ops
  refine (congrArg (fun l => after l V (Proc.devRef .tc r)) hsplit.symm).trans ?_
  show after (ops.take k ++ ops[k] :: ops.drop (k + 1)) V (Proc.devRef .tc r) = _
  rw [after_append, after_cons, (h.drop (k + 1)).keep hr]

/-- The line's contents at a buffer not written at or after place `k`: what the operations before `k` leave. -/
theorem read_before {ops : List (HloOp τ sig Val)} {W : List (Ref sig .tc)} (h : Writes ops W) (k : Nat)
    (V : Valuation τ sig Val) {r : Ref sig .tc} (hr : r ∉ W.drop k) :
    after ops V (Proc.devRef .tc r) = after (ops.take k) V (Proc.devRef .tc r) := by
  refine (congrArg (fun l => after l V (Proc.devRef .tc r)) (List.take_append_drop k ops).symm).trans ?_
  show after (ops.take k ++ ops.drop k) V (Proc.devRef .tc r) = _
  rw [after_append, (h.drop k).keep hr]

section Builders

variable {ops : List (HloOp τ sig Val)} {W : List (Ref sig .tc)} (h : Writes ops W) (k : Nat)
include h

theorem read_nullary (y : Ref sig .tc) (v : y.ty.Contents Val) (hy)
    (hop : ops[k]? = some (nullary (τ := τ) y v hy)) (V : Valuation τ sig Val) (hy' : y ∉ W.drop (k + 1)) :
    after ops V (Proc.devRef .tc y) = v := by
  rw [read_at h k hop V hy', nullary_result]

theorem read_unary (x y : Ref sig .tc) (f : x.ty.Contents Val → y.ty.Contents Val) (hx hy)
    (hop : ops[k]? = some (unary (τ := τ) x y f hx hy)) (V : Valuation τ sig Val)
    (hy' : y ∉ W.drop (k + 1)) (hx' : x ∉ W.drop k) :
    after ops V (Proc.devRef .tc y) = f (after ops V (Proc.devRef .tc x)) := by
  rw [read_at h k hop V hy', unary_result, read_before h k V hx']

theorem read_binary (a b y : Ref sig .tc) (f : a.ty.Contents Val → b.ty.Contents Val → y.ty.Contents Val) (ha hb hy)
    (hop : ops[k]? = some (binary (τ := τ) a b y f ha hb hy)) (V : Valuation τ sig Val)
    (hy' : y ∉ W.drop (k + 1)) (ha' : a ∉ W.drop k) (hb' : b ∉ W.drop k) :
    after ops V (Proc.devRef .tc y) = f (after ops V (Proc.devRef .tc a)) (after ops V (Proc.devRef .tc b)) := by
  rw [read_at h k hop V hy', binary_result, read_before h k V ha', read_before h k V hb']

theorem read_ternary (c a b y : Ref sig .tc)
    (f : c.ty.Contents Val → a.ty.Contents Val → b.ty.Contents Val → y.ty.Contents Val) (hc ha hb hy)
    (hop : ops[k]? = some (ternary (τ := τ) c a b y f hc ha hb hy)) (V : Valuation τ sig Val)
    (hy' : y ∉ W.drop (k + 1)) (hc' : c ∉ W.drop k) (ha' : a ∉ W.drop k) (hb' : b ∉ W.drop k) :
    after ops V (Proc.devRef .tc y)
      = f (after ops V (Proc.devRef .tc c)) (after ops V (Proc.devRef .tc a)) (after ops V (Proc.devRef .tc b)) := by
  rw [read_at h k hop V hy', ternary_result, read_before h k V hc', read_before h k V ha', read_before h k V hb']

theorem read_reshape (x y : Ref sig .tc) (he : x.ty.elt = y.ty.elt) (hn : x.ty.shape.ShapeCasts y.ty.shape) (hx hy)
    (hop : ops[k]? = some (reshape (τ := τ) (Val := Val) x y he hn hx hy)) (V : Valuation τ sig Val)
    (hy' : y ∉ W.drop (k + 1)) (hx' : x ∉ W.drop k) :
    after ops V (Proc.devRef .tc y) = fun i => he ▸ shapeCast y.ty.shape (after ops V (Proc.devRef .tc x)) hn i := by
  rw [read_at h k hop V hy', reshape_result, read_before h k V hx']

end Builders

end Cert.Ssa
-- ==== Proof.RefRun.lean ====
/-
  The reference program read one operation at a time.

  @main of the reference is a straight line of 76 host operations, each writing one buffer that no later operation
  writes again and reading only arguments and buffers written before it. So after the line every written buffer
  holds its own operation's function of what the line leaves in the operand buffers (`rd_<buffer>`: by induction along
  the line, that is the stage `val_<buffer>` of the arguments' launch contents), and the fourteen arguments hold what
  they held (`kp_main_arg<i>`). The run's post is read off at the three results and the arguments (`run`).
-/
import proofs.«103420_j15728170238452_2_alg».proof.Proof.RefOps
import proofs.«103420_j15728170238452_2_alg».proof.Proof.RefRead
import proofs.«103420_j15728170238452_2_alg».proof.Proof.LibSsa

noncomputable section

namespace Cert.ReferenceIdeal.RunP

open Cert.ReferenceIdeal Cert.ReferenceIdeal.Gen Idealize.ShloMosaic Idealize.ShloMosaic.TcCoe Idealize.SL.Sem Idealize.ShloMosaic.StableHlo

variable {F : FTy → Type} [FloatOps F]

/-! ## Which buffer each operation writes -/

/-- The buffers the 76 operations write, in the operations' order. -/
abbrev opsW : List (Ref sig .tc) :=
  [main_v0, main_c, main_v1, main_c_0, main_v2, main_v3, main_c_1, main_c_2, main_v4, main_c_3, main_c_4, main_v5, main_c_5, main_v6, main_v7, main_v8, main_v9, main_v10, main_v11, main_v12, main_v13, main_v14, main_v15, main_cst, main_v16, main_cst_6, main_v17, main_v18, main_v19, main_v20, main_v21, main_v22, main_cst_7, main_v23, main_v24, main_v25, main_v26, main_v27, main_v28, main_v29, main_v30, main_v31, main_v32, main_call0_cst, main_call0_v0, main_v33, main_v34, main_v35, main_v36, main_v37, main_v38, main_v39, main_v40, main_v41, main_v42, main_v43, main_v44, main_v45, main_v46, main_v47, main_call1_cst, main_call1_v0, main_call1_cst_0, main_call1_v1, main_call1_v2, main_call1_v3, main_call1_v4, main_call1_v5, main_call1_v6, main_call1_cst_1, main_call1_v7, main_call1_v8, main_call1_v9, main_call1_v10, main_v48, main_v49]

/-- An operation that writes one buffer, before a line that writes the rest. -/
theorem writes_cons {τ : Topo} {sig : RefSig} {Val : EltTy → Type} {op : HloOp τ sig Val} {l : List (HloOp τ sig Val)}
    {w : Ref sig .tc} {W : List (Ref sig .tc)} (h1 : op.writes ⊆ {Proc.devRef .tc w}) (h2 : Cert.Ssa.Writes l W) :
    Cert.Ssa.Writes (op :: l) (w :: W) := ⟨h1, h2⟩

/-- Operation `k` writes the `k`-th buffer of the list. -/
theorem hW : Cert.Ssa.Writes (ValueP.ops (F := F)) opsW := by
  repeat (refine writes_cons (Finset.Subset.refl _) ?_)
  exact trivial

/-- An operation with index operands, read in the line: its function of what the line leaves in the operand and in
    each index operand. -/
theorem read_unaryIndexed {τ : Topo} {sig : RefSig} {Val : EltTy → Type} {ops : List (HloOp τ sig Val)} {W : List (Ref sig .tc)}
    (h : Cert.Ssa.Writes ops W) (k : Nat) (a : Ref sig .tc) {n : Nat} (ix : Fin n → Ref sig .tc) (T : BufTy) (y : Ref sig .tc)
    (f : a.ty.Contents Val → (Fin n → T.Contents Val) → y.ty.Contents Val) (hT ha hix hy)
    (hop : ops[k]? = some (unaryIndexed (τ := τ) a ix T y f hT ha hix hy)) (V : Valuation τ sig Val)
    (hy' : y ∉ W.drop (k + 1)) (ha' : a ∉ W.drop k) (hix' : ∀ j, ix j ∉ W.drop k) :
    after ops V (Proc.devRef .tc y)
      = f (after ops V (Proc.devRef .tc a))
          (fun j => cast (congrArg (fun U : BufTy => U.Contents Val) (hT j)) (after ops V (Proc.devRef .tc (ix j)))) := by
  rw [Cert.Ssa.read_at h k hop V hy', unaryIndexed_result, Cert.Ssa.read_before h k V ha']
  refine congrArg (f _) (funext fun j => ?_)
  rw [Cert.Ssa.read_before h k V (hix' j)]

/-! ## The arguments are never written -/

theorem kp_main_arg0 (V : Valuation τ sig (Elt F)) :
    after (ValueP.ops (F := F)) V (Proc.devRef .tc main_arg0) = V (Proc.devRef .tc main_arg0) :=
  (hW (F := F)).keep (by decide) V
theorem kp_main_arg1 (V : Valuation τ sig (Elt F)) :
    after (ValueP.ops (F := F)) V (Proc.devRef .tc main_arg1) = V (Proc.devRef .tc main_arg1) :=
  (hW (F := F)).keep (by decide) V
theorem kp_main_arg2 (V : Valuation τ sig (Elt F)) :
    after (ValueP.ops (F := F)) V (Proc.devRef .tc main_arg2) = V (Proc.devRef .tc main_arg2) :=
  (hW (F := F)).keep (by decide) V
theorem kp_main_arg3 (V : Valuation τ sig (Elt F)) :
    after (ValueP.ops (F := F)) V (Proc.devRef .tc main_arg3) = V (Proc.devRef .tc main_arg3) :=
  (hW (F := F)).keep (by decide) V
theorem kp_main_arg4 (V : Valuation τ sig (Elt F)) :
    after (ValueP.ops (F := F)) V (Proc.devRef .tc main_arg4) = V (Proc.devRef .tc main_arg4) :=
  (hW (F := F)).keep (by decide) V
theorem kp_main_arg5 (V : Valuation τ sig (Elt F)) :
    after (ValueP.ops (F := F)) V (Proc.devRef .tc main_arg5) = V (Proc.devRef .tc main_arg5) :=
  (hW (F := F)).keep (by decide) V
theorem kp_main_arg6 (V : Valuation τ sig (Elt F)) :
    after (ValueP.ops (F := F)) V (Proc.devRef .tc main_arg6) = V (Proc.devRef .tc main_arg6) :=
  (hW (F := F)).keep (by decide) V
theorem kp_main_arg7 (V : Valuation τ sig (Elt F)) :
    after (ValueP.ops (F := F)) V (Proc.devRef .tc main_arg7) = V (Proc.devRef .tc main_arg7) :=
  (hW (F := F)).keep (by decide) V
theorem kp_main_arg8 (V : Valuation τ sig (Elt F)) :
    after (ValueP.ops (F := F)) V (Proc.devRef .tc main_arg8) = V (Proc.devRef .tc main_arg8) :=
  (hW (F := F)).keep (by decide) V
theorem kp_main_arg9 (V : Valuation τ sig (Elt F)) :
    after (ValueP.ops (F := F)) V (Proc.devRef .tc main_arg9) = V (Proc.devRef .tc main_arg9) :=
  (hW (F := F)).keep (by decide) V
theorem kp_main_arg10 (V : Valuation τ sig (Elt F)) :
    after (ValueP.ops (F := F)) V (Proc.devRef .tc main_arg10) = V (Proc.devRef .tc main_arg10) :=
  (hW (F := F)).keep (by decide) V
theorem kp_main_arg11 (V : Valuation τ sig (Elt F)) :
    after (ValueP.ops (F := F)) V (Proc.devRef .tc main_arg11) = V (Proc.devRef .tc main_arg11) :=
  (hW (F := F)).keep (by decide) V
theorem kp_main_arg12 (V : Valuation τ sig (Elt F)) :
    after (ValueP.ops (F := F)) V (Proc.devRef .tc main_arg12) = V (Proc.devRef .tc main_arg12) :=
  (hW (F := F)).keep (by decide) V
theorem kp_main_arg13 (V : Valuation τ sig (Elt F)) :
    after (ValueP.ops (F := F)) V (Proc.devRef .tc main_arg13) = V (Proc.devRef .tc main_arg13) :=
  (hW (F := F)).keep (by decide) V

/-- The fourteen arguments keep their contents through the line. -/
abbrev argRefs : List (Ref sig .tc) := [main_arg0, main_arg1, main_arg2, main_arg3, main_arg4, main_arg5, main_arg6, main_arg7, main_arg8, main_arg9, main_arg10, main_arg11, main_arg12, main_arg13]
theorem args_not_written : ∀ b ∈ argRefs, b ∉ opsW := by decide
theorem args_kept (V : Valuation τ sig (Elt F)) :
    ∀ b ∈ argRefs, after (ValueP.ops (F := F)) V (Proc.devRef .tc b) = V (Proc.devRef .tc b) := fun b hb =>
  (hW (F := F)).keep (args_not_written b hb) V

/-! ## Every written buffer holds its stage -/

theorem rd_main_v0 (V : Valuation τ sig (Elt F)) :
    after (ValueP.ops (F := F)) V (Proc.devRef .tc main_v0) = ReadP.val_main_v0 (F := F) (V (Proc.devRef .tc main_arg0)) := by
  rw [Cert.Ssa.read_reshape hW 0 main_arg0 main_v0 rfl shapeCasts_S1_S_ _ _ rfl V (by decide) (by decide), kp_main_arg0]
  rfl
theorem rd_main_c (V : Valuation τ sig (Elt F)) :
    after (ValueP.ops (F := F)) V (Proc.devRef .tc main_c) = ReadP.val_main_c (F := F) := by
  rw [Cert.Ssa.read_nullary hW 1 main_c _ _ rfl V (by decide)]
  rfl
theorem rd_main_v1 (V : Valuation τ sig (Elt F)) :
    after (ValueP.ops (F := F)) V (Proc.devRef .tc main_v1) = ReadP.val_main_v1 (F := F) (V (Proc.devRef .tc main_arg0)) := by
  rw [Cert.Ssa.read_binary hW 2 main_v0 main_c main_v1 _ _ _ _ rfl V (by decide) (by decide) (by decide), rd_main_v0, rd_main_c]
  rfl
theorem rd_main_c_0 (V : Valuation τ sig (Elt F)) :
    after (ValueP.ops (F := F)) V (Proc.devRef .tc main_c_0) = ReadP.val_main_c_0 (F := F) := by
  rw [Cert.Ssa.read_nullary hW 3 main_c_0 _ _ rfl V (by decide)]
  rfl
theorem rd_main_v2 (V : Valuation τ sig (Elt F)) :
    after (ValueP.ops (F := F)) V (Proc.devRef .tc main_v2) = ReadP.val_main_v2 (F := F) (V (Proc.devRef .tc main_arg0)) := by
  rw [Cert.Ssa.read_binary hW 4 main_v0 main_c_0 main_v2 _ _ _ _ rfl V (by decide) (by decide) (by decide), rd_main_v0, rd_main_c_0]
  rfl
theorem rd_main_v3 (V : Valuation τ sig (Elt F)) :
    after (ValueP.ops (F := F)) V (Proc.devRef .tc main_v3) = ReadP.val_main_v3 (F := F) (V (Proc.devRef .tc main_arg0)) := by
  rw [Cert.Ssa.read_ternary hW 5 main_v1 main_v2 main_v0 main_v3 _ _ _ _ _ rfl V (by decide) (by decide) (by decide) (by decide), rd_main_v1, rd_main_v2, rd_main_v0]
  rfl
theorem rd_main_c_1 (V : Valuation τ sig (Elt F)) :
    after (ValueP.ops (F := F)) V (Proc.devRef .tc main_c_1) = ReadP.val_main_c_1 (F := F) := by
  rw [Cert.Ssa.read_nullary hW 6 main_c_1 _ _ rfl V (by decide)]
  rfl
theorem rd_main_c_2 (V : Valuation τ sig (Elt F)) :
    after (ValueP.ops (F := F)) V (Proc.devRef .tc main_c_2) = ReadP.val_main_c_2 (F := F) := by
  rw [Cert.Ssa.read_nullary hW 7 main_c_2 _ _ rfl V (by decide)]
  rfl
theorem rd_main_v4 (V : Valuation τ sig (Elt F)) :
    after (ValueP.ops (F := F)) V (Proc.devRef .tc main_v4) = ReadP.val_main_v4 (F := F) := by
  rw [Cert.Ssa.read_binary hW 8 main_c_1 main_c_2 main_v4 _ _ _ _ rfl V (by decide) (by decide) (by decide), rd_main_c_1, rd_main_c_2]
  rfl
theorem rd_main_c_3 (V : Valuation τ sig (Elt F)) :
    after (ValueP.ops (F := F)) V (Proc.devRef .tc main_c_3) = ReadP.val_main_c_3 (F := F) := by
  rw [Cert.Ssa.read_nullary hW 9 main_c_3 _ _ rfl V (by decide)]
  rfl
theorem rd_main_c_4 (V : Valuation τ sig (Elt F)) :
    after (ValueP.ops (F := F)) V (Proc.devRef .tc main_c_4) = ReadP.val_main_c_4 (F := F) := by
  rw [Cert.Ssa.read_nullary hW 10 main_c_4 _ _ rfl V (by decide)]
  rfl
theorem rd_main_v5 (V : Valuation τ sig (Elt F)) :
    after (ValueP.ops (F := F)) V (Proc.devRef .tc main_v5) = ReadP.val_main_v5 (F := F) := by
  rw [Cert.Ssa.read_binary hW 11 main_c_3 main_c_4 main_v5 _ _ _ _ rfl V (by decide) (by decide) (by decide), rd_main_c_3, rd_main_c_4]
  rfl
theorem rd_main_c_5 (V : Valuation τ sig (Elt F)) :
    after (ValueP.ops (F := F)) V (Proc.devRef .tc main_c_5) = ReadP.val_main_c_5 (F := F) := by
  rw [Cert.Ssa.read_nullary hW 12 main_c_5 _ _ rfl V (by decide)]
  rfl
theorem rd_main_v6 (V : Valuation τ sig (Elt F)) :
    after (ValueP.ops (F := F)) V (Proc.devRef .tc main_v6) = ReadP.val_main_v6 (F := F) := by
  rw [Cert.Ssa.read_ternary hW 13 main_v4 main_v5 main_c_5 main_v6 _ _ _ _ _ rfl V (by decide) (by decide) (by decide) (by decide), rd_main_v4, rd_main_v5, rd_main_c_5]
  rfl
theorem rd_main_v7 (V : Valuation τ sig (Elt F)) :
    after (ValueP.ops (F := F)) V (Proc.devRef .tc main_v7) = ReadP.val_main_v7 (F := F) (V (Proc.devRef .tc main_arg0)) (V (Proc.devRef .tc main_arg3)) := by
  rw [read_unaryIndexed hW 14 main_arg3 ![main_v3, main_v6] ⟨S_, .i32⟩ main_v7 _ _ _ _ _ rfl V (by decide) (by decide) (by decide), kp_main_arg3]
  unfold ReadP.val_main_v7
  refine congrArg (fun g => Host.dynamicSlice S1x1024 (V (Proc.devRef .tc main_arg3)) g sliceFits_S50257x1024_S1x1024) (funext fun k => ?_)
  match k with
  | ⟨0, _⟩ => exact congrArg (fun v => (v (Shape.Idx.first h_S_)).toInt) (rd_main_v3 V)
  | ⟨1, _⟩ => exact congrArg (fun v => (v (Shape.Idx.first h_S_)).toInt) (rd_main_v6 V)
theorem rd_main_v8 (V : Valuation τ sig (Elt F)) :
    after (ValueP.ops (F := F)) V (Proc.devRef .tc main_v8) = ReadP.val_main_v8 (F := F) (V (Proc.devRef .tc main_arg0)) (V (Proc.devRef .tc main_arg3)) := by
  rw [Cert.Ssa.read_reshape hW 15 main_v7 main_v8 rfl shapeCasts_S1x1024_S1024 _ _ rfl V (by decide) (by decide), rd_main_v7]
  rfl
theorem rd_main_v9 (V : Valuation τ sig (Elt F)) :
    after (ValueP.ops (F := F)) V (Proc.devRef .tc main_v9) = ReadP.val_main_v9 (F := F) (V (Proc.devRef .tc main_arg0)) (V (Proc.devRef .tc main_arg3)) := by
  rw [Cert.Ssa.read_unary hW 16 main_v8 main_v9 _ _ _ rfl V (by decide) (by decide), rd_main_v8]
  rfl
theorem rd_main_v10 (V : Valuation τ sig (Elt F)) :
    after (ValueP.ops (F := F)) V (Proc.devRef .tc main_v10) = ReadP.val_main_v10 (F := F) (V (Proc.devRef .tc main_arg1)) := by
  rw [Cert.Ssa.read_reshape hW 17 main_arg1 main_v10 rfl shapeCasts_S1x1x1024_S1x1024 _ _ rfl V (by decide) (by decide), kp_main_arg1]
  rfl
theorem rd_main_v11 (V : Valuation τ sig (Elt F)) :
    after (ValueP.ops (F := F)) V (Proc.devRef .tc main_v11) = ReadP.val_main_v11 (F := F) (V (Proc.devRef .tc main_arg0)) (V (Proc.devRef .tc main_arg1)) (V (Proc.devRef .tc main_arg3)) := by
  rw [Cert.Ssa.read_binary hW 18 main_v9 main_v10 main_v11 _ _ _ _ rfl V (by decide) (by decide) (by decide), rd_main_v9, rd_main_v10]
  rfl
theorem rd_main_v12 (V : Valuation τ sig (Elt F)) :
    after (ValueP.ops (F := F)) V (Proc.devRef .tc main_v12) = ReadP.val_main_v12 (F := F) (V (Proc.devRef .tc main_arg4)) := by
  rw [Cert.Ssa.read_unary hW 19 main_arg4 main_v12 _ _ _ rfl V (by decide) (by decide), kp_main_arg4]
  rfl
theorem rd_main_v13 (V : Valuation τ sig (Elt F)) :
    after (ValueP.ops (F := F)) V (Proc.devRef .tc main_v13) = ReadP.val_main_v13 (F := F) (V (Proc.devRef .tc main_arg0)) (V (Proc.devRef .tc main_arg1)) (V (Proc.devRef .tc main_arg3)) (V (Proc.devRef .tc main_arg4)) := by
  rw [Cert.Ssa.read_binary hW 20 main_v11 main_v12 main_v13 _ _ _ _ rfl V (by decide) (by decide) (by decide), rd_main_v11, rd_main_v12]
  rfl
theorem rd_main_v14 (V : Valuation τ sig (Elt F)) :
    after (ValueP.ops (F := F)) V (Proc.devRef .tc main_v14) = ReadP.val_main_v14 (F := F) (V (Proc.devRef .tc main_arg5)) := by
  rw [Cert.Ssa.read_unary hW 21 main_arg5 main_v14 _ _ _ rfl V (by decide) (by decide), kp_main_arg5]
  rfl
theorem rd_main_v15 (V : Valuation τ sig (Elt F)) :
    after (ValueP.ops (F := F)) V (Proc.devRef .tc main_v15) = ReadP.val_main_v15 (F := F) (V (Proc.devRef .tc main_arg0)) (V (Proc.devRef .tc main_arg1)) (V (Proc.devRef .tc main_arg3)) (V (Proc.devRef .tc main_arg4)) (V (Proc.devRef .tc main_arg5)) := by
  rw [Cert.Ssa.read_binary hW 22 main_v13 main_v14 main_v15 _ _ _ _ rfl V (by decide) (by decide) (by decide), rd_main_v13, rd_main_v14]
  rfl
theorem rd_main_cst (V : Valuation τ sig (Elt F)) :
    after (ValueP.ops (F := F)) V (Proc.devRef .tc main_cst) = ReadP.val_main_cst (F := F) := by
  rw [Cert.Ssa.read_nullary hW 23 main_cst _ _ rfl V (by decide)]
  rfl
theorem rd_main_v16 (V : Valuation τ sig (Elt F)) :
    after (ValueP.ops (F := F)) V (Proc.devRef .tc main_v16) = ReadP.val_main_v16 (F := F) (V (Proc.devRef .tc main_arg0)) (V (Proc.devRef .tc main_arg1)) (V (Proc.devRef .tc main_arg3)) (V (Proc.devRef .tc main_arg4)) (V (Proc.devRef .tc main_arg5)) := by
  rw [Cert.Ssa.read_binary hW 24 main_v15 main_cst main_v16 _ _ _ _ rfl V (by decide) (by decide) (by decide), rd_main_v15, rd_main_cst]
  rfl
theorem rd_main_cst_6 (V : Valuation τ sig (Elt F)) :
    after (ValueP.ops (F := F)) V (Proc.devRef .tc main_cst_6) = ReadP.val_main_cst_6 (F := F) := by
  rw [Cert.Ssa.read_nullary hW 25 main_cst_6 _ _ rfl V (by decide)]
  rfl
theorem rd_main_v17 (V : Valuation τ sig (Elt F)) :
    after (ValueP.ops (F := F)) V (Proc.devRef .tc main_v17) = ReadP.val_main_v17 (F := F) := by
  rw [Cert.Ssa.read_unary hW 26 main_cst_6 main_v17 _ _ _ rfl V (by decide) (by decide), rd_main_cst_6]
  rfl
theorem rd_main_v18 (V : Valuation τ sig (Elt F)) :
    after (ValueP.ops (F := F)) V (Proc.devRef .tc main_v18) = ReadP.val_main_v18 (F := F) (V (Proc.devRef .tc main_arg0)) (V (Proc.devRef .tc main_arg1)) (V (Proc.devRef .tc main_arg3)) (V (Proc.devRef .tc main_arg4)) (V (Proc.devRef .tc main_arg5)) := by
  rw [Cert.Ssa.read_binary hW 27 main_v17 main_v16 main_v18 _ _ _ _ rfl V (by decide) (by decide) (by decide), rd_main_v17, rd_main_v16]
  rfl
theorem rd_main_v19 (V : Valuation τ sig (Elt F)) :
    after (ValueP.ops (F := F)) V (Proc.devRef .tc main_v19) = ReadP.val_main_v19 (F := F) (V (Proc.devRef .tc main_arg0)) (V (Proc.devRef .tc main_arg1)) (V (Proc.devRef .tc main_arg3)) (V (Proc.devRef .tc main_arg4)) (V (Proc.devRef .tc main_arg5)) := by
  rw [Cert.Ssa.read_unary hW 28 main_v18 main_v19 _ _ _ rfl V (by decide) (by decide), rd_main_v18]
  rfl
theorem rd_main_v20 (V : Valuation τ sig (Elt F)) :
    after (ValueP.ops (F := F)) V (Proc.devRef .tc main_v20) = ReadP.val_main_v20 (F := F) (V (Proc.devRef .tc main_arg0)) (V (Proc.devRef .tc main_arg1)) (V (Proc.devRef .tc main_arg3)) (V (Proc.devRef .tc main_arg4)) (V (Proc.devRef .tc main_arg5)) := by
  rw [Cert.Ssa.read_unary hW 29 main_v19 main_v20 _ _ _ rfl V (by decide) (by decide), rd_main_v19]
  rfl
theorem rd_main_v21 (V : Valuation τ sig (Elt F)) :
    after (ValueP.ops (F := F)) V (Proc.devRef .tc main_v21) = ReadP.val_main_v21 (F := F) (V (Proc.devRef .tc main_arg0)) (V (Proc.devRef .tc main_arg1)) (V (Proc.devRef .tc main_arg3)) (V (Proc.devRef .tc main_arg4)) (V (Proc.devRef .tc main_arg5)) := by
  rw [Cert.Ssa.read_binary hW 30 main_v15 main_v20 main_v21 _ _ _ _ rfl V (by decide) (by decide) (by decide), rd_main_v15, rd_main_v20]
  rfl
theorem rd_main_v22 (V : Valuation τ sig (Elt F)) :
    after (ValueP.ops (F := F)) V (Proc.devRef .tc main_v22) = ReadP.val_main_v22 (F := F) (V (Proc.devRef .tc main_arg0)) (V (Proc.devRef .tc main_arg1)) (V (Proc.devRef .tc main_arg3)) (V (Proc.devRef .tc main_arg4)) (V (Proc.devRef .tc main_arg5)) := by
  rw [Cert.Ssa.read_unary hW 31 main_v21 main_v22 _ _ _ rfl V (by decide) (by decide), rd_main_v21]
  rfl
theorem rd_main_cst_7 (V : Valuation τ sig (Elt F)) :
    after (ValueP.ops (F := F)) V (Proc.devRef .tc main_cst_7) = ReadP.val_main_cst_7 (F := F) := by
  rw [Cert.Ssa.read_nullary hW 32 main_cst_7 _ _ rfl V (by decide)]
  rfl
theorem rd_main_v23 (V : Valuation τ sig (Elt F)) :
    after (ValueP.ops (F := F)) V (Proc.devRef .tc main_v23) = ReadP.val_main_v23 (F := F) (V (Proc.devRef .tc main_arg0)) (V (Proc.devRef .tc main_arg1)) (V (Proc.devRef .tc main_arg3)) (V (Proc.devRef .tc main_arg4)) (V (Proc.devRef .tc main_arg5)) := by
  rw [Cert.Ssa.read_binary hW 33 main_v22 main_cst_7 main_v23 _ _ _ _ rfl V (by decide) (by decide) (by decide), rd_main_v22, rd_main_cst_7]
  rfl
theorem rd_main_v24 (V : Valuation τ sig (Elt F)) :
    after (ValueP.ops (F := F)) V (Proc.devRef .tc main_v24) = ReadP.val_main_v24 (F := F) (V (Proc.devRef .tc main_arg0)) (V (Proc.devRef .tc main_arg1)) (V (Proc.devRef .tc main_arg3)) (V (Proc.devRef .tc main_arg4)) (V (Proc.devRef .tc main_arg5)) := by
  rw [Cert.Ssa.read_unary hW 34 main_v23 main_v24 _ _ _ rfl V (by decide) (by decide), rd_main_v23]
  rfl
theorem rd_main_v25 (V : Valuation τ sig (Elt F)) :
    after (ValueP.ops (F := F)) V (Proc.devRef .tc main_v25) = ReadP.val_main_v25 (F := F) (V (Proc.devRef .tc main_arg0)) (V (Proc.devRef .tc main_arg1)) (V (Proc.devRef .tc main_arg3)) (V (Proc.devRef .tc main_arg4)) (V (Proc.devRef .tc main_arg5)) := by
  rw [Cert.Ssa.read_unary hW 35 main_v24 main_v25 _ _ _ rfl V (by decide) (by decide), rd_main_v24]
  rfl
theorem rd_main_v26 (V : Valuation τ sig (Elt F)) :
    after (ValueP.ops (F := F)) V (Proc.devRef .tc main_v26) = ReadP.val_main_v26 (F := F) (V (Proc.devRef .tc main_arg0)) (V (Proc.devRef .tc main_arg1)) (V (Proc.devRef .tc main_arg3)) (V (Proc.devRef .tc main_arg4)) (V (Proc.devRef .tc main_arg5)) := by
  rw [Cert.Ssa.read_binary hW 36 main_v22 main_v25 main_v26 _ _ _ _ rfl V (by decide) (by decide) (by decide), rd_main_v22, rd_main_v25]
  rfl
theorem rd_main_v27 (V : Valuation τ sig (Elt F)) :
    after (ValueP.ops (F := F)) V (Proc.devRef .tc main_v27) = ReadP.val_main_v27 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) := by
  rw [Cert.Ssa.read_binary hW 37 main_v26 main_arg2 main_v27 _ _ _ _ rfl V (by decide) (by decide) (by decide), rd_main_v26, kp_main_arg2]
  rfl
theorem rd_main_v28 (V : Valuation τ sig (Elt F)) :
    after (ValueP.ops (F := F)) V (Proc.devRef .tc main_v28) = ReadP.val_main_v28 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) := by
  rw [Cert.Ssa.read_binary hW 38 main_v9 main_v27 main_v28 _ _ _ _ rfl V (by decide) (by decide) (by decide), rd_main_v9, rd_main_v27]
  rfl
theorem rd_main_v29 (V : Valuation τ sig (Elt F)) :
    after (ValueP.ops (F := F)) V (Proc.devRef .tc main_v29) = ReadP.val_main_v29 (F := F) (V (Proc.devRef .tc main_arg6)) := by
  rw [Cert.Ssa.read_unary hW 39 main_arg6 main_v29 _ _ _ rfl V (by decide) (by decide), kp_main_arg6]
  rfl
theorem rd_main_v30 (V : Valuation τ sig (Elt F)) :
    after (ValueP.ops (F := F)) V (Proc.devRef .tc main_v30) = ReadP.val_main_v30 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [Cert.Ssa.read_binary hW 40 main_v28 main_v29 main_v30 _ _ _ _ rfl V (by decide) (by decide) (by decide), rd_main_v28, rd_main_v29]
  rfl
theorem rd_main_v31 (V : Valuation τ sig (Elt F)) :
    after (ValueP.ops (F := F)) V (Proc.devRef .tc main_v31) = ReadP.val_main_v31 (F := F) (V (Proc.devRef .tc main_arg7)) := by
  rw [Cert.Ssa.read_unary hW 41 main_arg7 main_v31 _ _ _ rfl V (by decide) (by decide), kp_main_arg7]
  rfl
theorem rd_main_v32 (V : Valuation τ sig (Elt F)) :
    after (ValueP.ops (F := F)) V (Proc.devRef .tc main_v32) = ReadP.val_main_v32 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := by
  rw [Cert.Ssa.read_binary hW 42 main_v30 main_v31 main_v32 _ _ _ _ rfl V (by decide) (by decide) (by decide), rd_main_v30, rd_main_v31]
  rfl
theorem rd_main_call0_cst (V : Valuation τ sig (Elt F)) :
    after (ValueP.ops (F := F)) V (Proc.devRef .tc main_call0_cst) = ReadP.val_main_call0_cst (F := F) := by
  rw [Cert.Ssa.read_nullary hW 43 main_call0_cst _ _ rfl V (by decide)]
  exact cast_eq _ _
theorem rd_main_call0_v0 (V : Valuation τ sig (Elt F)) :
    after (ValueP.ops (F := F)) V (Proc.devRef .tc main_call0_v0) = ReadP.val_main_call0_v0 (F := F) := by
  rw [Cert.Ssa.read_unary hW 44 main_call0_cst main_call0_v0 _ _ _ rfl V (by decide) (by decide), rd_main_call0_cst]
  refine (cast_eq _ _).trans ?_
  exact congrArg ((broadcastInDim S1x1024 ![] bcast_S_S1x1024) : (⟨S_, .f32⟩ : BufTy).Contents (Elt F) → (⟨S1x1024, .f32⟩ : BufTy).Contents (Elt F)) (cast_eq _ _)
theorem rd_main_v33 (V : Valuation τ sig (Elt F)) :
    after (ValueP.ops (F := F)) V (Proc.devRef .tc main_v33) = ReadP.val_main_v33 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := by
  rw [Cert.Ssa.read_binary hW 45 main_v32 main_call0_v0 main_v33 _ _ _ _ rfl V (by decide) (by decide) (by decide), rd_main_v32, rd_main_call0_v0]
  refine (cast_eq _ _).trans ?_
  exact congrArg₂ (maximumf : (⟨S1x1024, .f32⟩ : BufTy).Contents (Elt F) → (⟨S1x1024, .f32⟩ : BufTy).Contents (Elt F) → (⟨S1x1024, .f32⟩ : BufTy).Contents (Elt F)) (cast_eq _ _) (cast_eq _ _)
theorem rd_main_v34 (V : Valuation τ sig (Elt F)) :
    after (ValueP.ops (F := F)) V (Proc.devRef .tc main_v34) = ReadP.val_main_v34 (F := F) (V (Proc.devRef .tc main_arg8)) := by
  rw [Cert.Ssa.read_unary hW 46 main_arg8 main_v34 _ _ _ rfl V (by decide) (by decide), kp_main_arg8]
  rfl
theorem rd_main_v35 (V : Valuation τ sig (Elt F)) :
    after (ValueP.ops (F := F)) V (Proc.devRef .tc main_v35) = ReadP.val_main_v35 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) := by
  rw [Cert.Ssa.read_binary hW 47 main_v33 main_v34 main_v35 _ _ _ _ rfl V (by decide) (by decide) (by decide), rd_main_v33, rd_main_v34]
  rfl
theorem rd_main_v36 (V : Valuation τ sig (Elt F)) :
    after (ValueP.ops (F := F)) V (Proc.devRef .tc main_v36) = ReadP.val_main_v36 (F := F) (V (Proc.devRef .tc main_arg10)) := by
  rw [Cert.Ssa.read_unary hW 48 main_arg10 main_v36 _ _ _ rfl V (by decide) (by decide), kp_main_arg10]
  rfl
theorem rd_main_v37 (V : Valuation τ sig (Elt F)) :
    after (ValueP.ops (F := F)) V (Proc.devRef .tc main_v37) = ReadP.val_main_v37 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg10)) := by
  rw [Cert.Ssa.read_binary hW 49 main_v35 main_v36 main_v37 _ _ _ _ rfl V (by decide) (by decide) (by decide), rd_main_v35, rd_main_v36]
  rfl
theorem rd_main_v38 (V : Valuation τ sig (Elt F)) :
    after (ValueP.ops (F := F)) V (Proc.devRef .tc main_v38) = ReadP.val_main_v38 (F := F) (V (Proc.devRef .tc main_arg9)) := by
  rw [Cert.Ssa.read_unary hW 50 main_arg9 main_v38 _ _ _ rfl V (by decide) (by decide), kp_main_arg9]
  rfl
theorem rd_main_v39 (V : Valuation τ sig (Elt F)) :
    after (ValueP.ops (F := F)) V (Proc.devRef .tc main_v39) = ReadP.val_main_v39 (F := F) (V (Proc.devRef .tc main_arg1)) (V (Proc.devRef .tc main_arg9)) := by
  rw [Cert.Ssa.read_binary hW 51 main_v10 main_v38 main_v39 _ _ _ _ rfl V (by decide) (by decide) (by decide), rd_main_v10, rd_main_v38]
  rfl
theorem rd_main_v40 (V : Valuation τ sig (Elt F)) :
    after (ValueP.ops (F := F)) V (Proc.devRef .tc main_v40) = ReadP.val_main_v40 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) := by
  rw [Cert.Ssa.read_binary hW 52 main_v37 main_v39 main_v40 _ _ _ _ rfl V (by decide) (by decide) (by decide), rd_main_v37, rd_main_v39]
  rfl
theorem rd_main_v41 (V : Valuation τ sig (Elt F)) :
    after (ValueP.ops (F := F)) V (Proc.devRef .tc main_v41) = ReadP.val_main_v41 (F := F) (V (Proc.devRef .tc main_arg11)) := by
  rw [Cert.Ssa.read_unary hW 53 main_arg11 main_v41 _ _ _ rfl V (by decide) (by decide), kp_main_arg11]
  rfl
theorem rd_main_v42 (V : Valuation τ sig (Elt F)) :
    after (ValueP.ops (F := F)) V (Proc.devRef .tc main_v42) = ReadP.val_main_v42 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) := by
  rw [Cert.Ssa.read_binary hW 54 main_v40 main_v41 main_v42 _ _ _ _ rfl V (by decide) (by decide) (by decide), rd_main_v40, rd_main_v41]
  rfl
theorem rd_main_v43 (V : Valuation τ sig (Elt F)) :
    after (ValueP.ops (F := F)) V (Proc.devRef .tc main_v43) = ReadP.val_main_v43 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) := by
  rw [Cert.Ssa.read_unary hW 55 main_v42 main_v43 _ _ _ rfl V (by decide) (by decide), rd_main_v42]
  rfl
theorem rd_main_v44 (V : Valuation τ sig (Elt F)) :
    after (ValueP.ops (F := F)) V (Proc.devRef .tc main_v44) = ReadP.val_main_v44 (F := F) (V (Proc.devRef .tc main_arg12)) := by
  rw [Cert.Ssa.read_unary hW 56 main_arg12 main_v44 _ _ _ rfl V (by decide) (by decide), kp_main_arg12]
  rfl
theorem rd_main_v45 (V : Valuation τ sig (Elt F)) :
    after (ValueP.ops (F := F)) V (Proc.devRef .tc main_v45) = ReadP.val_main_v45 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) := by
  rw [Cert.Ssa.read_binary hW 57 main_v43 main_v44 main_v45 _ _ _ _ rfl V (by decide) (by decide) (by decide), rd_main_v43, rd_main_v44]
  rfl
theorem rd_main_v46 (V : Valuation τ sig (Elt F)) :
    after (ValueP.ops (F := F)) V (Proc.devRef .tc main_v46) = ReadP.val_main_v46 (F := F) (V (Proc.devRef .tc main_arg13)) := by
  rw [Cert.Ssa.read_unary hW 58 main_arg13 main_v46 _ _ _ rfl V (by decide) (by decide), kp_main_arg13]
  rfl
theorem rd_main_v47 (V : Valuation τ sig (Elt F)) :
    after (ValueP.ops (F := F)) V (Proc.devRef .tc main_v47) = ReadP.val_main_v47 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) := by
  rw [Cert.Ssa.read_binary hW 59 main_v45 main_v46 main_v47 _ _ _ _ rfl V (by decide) (by decide) (by decide), rd_main_v45, rd_main_v46]
  rfl
theorem rd_main_call1_cst (V : Valuation τ sig (Elt F)) :
    after (ValueP.ops (F := F)) V (Proc.devRef .tc main_call1_cst) = ReadP.val_main_call1_cst (F := F) := by
  rw [Cert.Ssa.read_nullary hW 60 main_call1_cst _ _ rfl V (by decide)]
  exact cast_eq _ _
theorem rd_main_call1_v0 (V : Valuation τ sig (Elt F)) :
    after (ValueP.ops (F := F)) V (Proc.devRef .tc main_call1_v0) = ReadP.val_main_call1_v0 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) := by
  rw [Cert.Ssa.read_binary hW 61 main_v47 main_call1_cst main_call1_v0 _ _ _ _ rfl V (by decide) (by decide) (by decide), rd_main_v47, rd_main_call1_cst]
  refine (cast_eq _ _).trans ?_
  exact congrArg₂ ((fun x v => Host.reduce FloatOps.maximumf x v reducesTo_S1x50257_S1_d1 h_S_) : (⟨S1x50257, .f32⟩ : BufTy).Contents (Elt F) → (⟨S_, .f32⟩ : BufTy).Contents (Elt F) → (⟨S1, .f32⟩ : BufTy).Contents (Elt F)) (cast_eq _ _) (cast_eq _ _)
theorem rd_main_call1_cst_0 (V : Valuation τ sig (Elt F)) :
    after (ValueP.ops (F := F)) V (Proc.devRef .tc main_call1_cst_0) = ReadP.val_main_call1_cst_0 (F := F) := by
  rw [Cert.Ssa.read_nullary hW 62 main_call1_cst_0 _ _ rfl V (by decide)]
  exact cast_eq _ _
theorem rd_main_call1_v1 (V : Valuation τ sig (Elt F)) :
    after (ValueP.ops (F := F)) V (Proc.devRef .tc main_call1_v1) = ReadP.val_main_call1_v1 (F := F) := by
  rw [Cert.Ssa.read_unary hW 63 main_call1_cst_0 main_call1_v1 _ _ _ rfl V (by decide) (by decide), rd_main_call1_cst_0]
  refine (cast_eq _ _).trans ?_
  exact congrArg ((broadcastInDim S1 ![] bcast_S_S1) : (⟨S_, .f32⟩ : BufTy).Contents (Elt F) → (⟨S1, .f32⟩ : BufTy).Contents (Elt F)) (cast_eq _ _)
theorem rd_main_call1_v2 (V : Valuation τ sig (Elt F)) :
    after (ValueP.ops (F := F)) V (Proc.devRef .tc main_call1_v2) = ReadP.val_main_call1_v2 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) := by
  rw [Cert.Ssa.read_binary hW 64 main_call1_v1 main_call1_v0 main_call1_v2 _ _ _ _ rfl V (by decide) (by decide) (by decide), rd_main_call1_v1, rd_main_call1_v0]
  refine (cast_eq _ _).trans ?_
  exact congrArg₂ (maximumf : (⟨S1, .f32⟩ : BufTy).Contents (Elt F) → (⟨S1, .f32⟩ : BufTy).Contents (Elt F) → (⟨S1, .f32⟩ : BufTy).Contents (Elt F)) (cast_eq _ _) (cast_eq _ _)
theorem rd_main_call1_v3 (V : Valuation τ sig (Elt F)) :
    after (ValueP.ops (F := F)) V (Proc.devRef .tc main_call1_v3) = ReadP.val_main_call1_v3 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) := by
  rw [Cert.Ssa.read_unary hW 65 main_call1_v2 main_call1_v3 _ _ _ rfl V (by decide) (by decide), rd_main_call1_v2]
  refine (cast_eq _ _).trans ?_
  exact congrArg ((broadcastInDim S1x1 ![0] bcast_S1_S1x1_0) : (⟨S1, .f32⟩ : BufTy).Contents (Elt F) → (⟨S1x1, .f32⟩ : BufTy).Contents (Elt F)) (cast_eq _ _)
theorem rd_main_call1_v4 (V : Valuation τ sig (Elt F)) :
    after (ValueP.ops (F := F)) V (Proc.devRef .tc main_call1_v4) = ReadP.val_main_call1_v4 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) := by
  rw [Cert.Ssa.read_unary hW 66 main_call1_v3 main_call1_v4 _ _ _ rfl V (by decide) (by decide), rd_main_call1_v3]
  refine (cast_eq _ _).trans ?_
  exact congrArg ((broadcastInDim S1x50257 ![0, 1] bcast_S1x1_S1x50257_0_1) : (⟨S1x1, .f32⟩ : BufTy).Contents (Elt F) → (⟨S1x50257, .f32⟩ : BufTy).Contents (Elt F)) (cast_eq _ _)
theorem rd_main_call1_v5 (V : Valuation τ sig (Elt F)) :
    after (ValueP.ops (F := F)) V (Proc.devRef .tc main_call1_v5) = ReadP.val_main_call1_v5 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) := by
  rw [Cert.Ssa.read_binary hW 67 main_v47 main_call1_v4 main_call1_v5 _ _ _ _ rfl V (by decide) (by decide) (by decide), rd_main_v47, rd_main_call1_v4]
  refine (cast_eq _ _).trans ?_
  exact congrArg₂ (subf : (⟨S1x50257, .f32⟩ : BufTy).Contents (Elt F) → (⟨S1x50257, .f32⟩ : BufTy).Contents (Elt F) → (⟨S1x50257, .f32⟩ : BufTy).Contents (Elt F)) (cast_eq _ _) (cast_eq _ _)
theorem rd_main_call1_v6 (V : Valuation τ sig (Elt F)) :
    after (ValueP.ops (F := F)) V (Proc.devRef .tc main_call1_v6) = ReadP.val_main_call1_v6 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) := by
  rw [Cert.Ssa.read_unary hW 68 main_call1_v5 main_call1_v6 _ _ _ rfl V (by decide) (by decide), rd_main_call1_v5]
  refine (cast_eq _ _).trans ?_
  exact congrArg (Host.exp : (⟨S1x50257, .f32⟩ : BufTy).Contents (Elt F) → (⟨S1x50257, .f32⟩ : BufTy).Contents (Elt F)) (cast_eq _ _)
theorem rd_main_call1_cst_1 (V : Valuation τ sig (Elt F)) :
    after (ValueP.ops (F := F)) V (Proc.devRef .tc main_call1_cst_1) = ReadP.val_main_call1_cst_1 (F := F) := by
  rw [Cert.Ssa.read_nullary hW 69 main_call1_cst_1 _ _ rfl V (by decide)]
  exact cast_eq _ _
theorem rd_main_call1_v7 (V : Valuation τ sig (Elt F)) :
    after (ValueP.ops (F := F)) V (Proc.devRef .tc main_call1_v7) = ReadP.val_main_call1_v7 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) := by
  rw [Cert.Ssa.read_binary hW 70 main_call1_v6 main_call1_cst_1 main_call1_v7 _ _ _ _ rfl V (by decide) (by decide) (by decide), rd_main_call1_v6, rd_main_call1_cst_1]
  refine (cast_eq _ _).trans ?_
  exact congrArg₂ ((fun x v => Host.reduceAdd x v reducesTo_S1x50257_S1_d1 h_S_) : (⟨S1x50257, .f32⟩ : BufTy).Contents (Elt F) → (⟨S_, .f32⟩ : BufTy).Contents (Elt F) → (⟨S1, .f32⟩ : BufTy).Contents (Elt F)) (cast_eq _ _) (cast_eq _ _)
theorem rd_main_call1_v8 (V : Valuation τ sig (Elt F)) :
    after (ValueP.ops (F := F)) V (Proc.devRef .tc main_call1_v8) = ReadP.val_main_call1_v8 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) := by
  rw [Cert.Ssa.read_unary hW 71 main_call1_v7 main_call1_v8 _ _ _ rfl V (by decide) (by decide), rd_main_call1_v7]
  refine (cast_eq _ _).trans ?_
  exact congrArg ((broadcastInDim S1x1 ![0] bcast_S1_S1x1_0) : (⟨S1, .f32⟩ : BufTy).Contents (Elt F) → (⟨S1x1, .f32⟩ : BufTy).Contents (Elt F)) (cast_eq _ _)
theorem rd_main_call1_v9 (V : Valuation τ sig (Elt F)) :
    after (ValueP.ops (F := F)) V (Proc.devRef .tc main_call1_v9) = ReadP.val_main_call1_v9 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) := by
  rw [Cert.Ssa.read_unary hW 72 main_call1_v8 main_call1_v9 _ _ _ rfl V (by decide) (by decide), rd_main_call1_v8]
  refine (cast_eq _ _).trans ?_
  exact congrArg (Host.log : (⟨S1x1, .f32⟩ : BufTy).Contents (Elt F) → (⟨S1x1, .f32⟩ : BufTy).Contents (Elt F)) (cast_eq _ _)
theorem rd_main_call1_v10 (V : Valuation τ sig (Elt F)) :
    after (ValueP.ops (F := F)) V (Proc.devRef .tc main_call1_v10) = ReadP.val_main_call1_v10 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) := by
  rw [Cert.Ssa.read_unary hW 73 main_call1_v9 main_call1_v10 _ _ _ rfl V (by decide) (by decide), rd_main_call1_v9]
  refine (cast_eq _ _).trans ?_
  exact congrArg ((broadcastInDim S1x50257 ![0, 1] bcast_S1x1_S1x50257_0_1) : (⟨S1x1, .f32⟩ : BufTy).Contents (Elt F) → (⟨S1x50257, .f32⟩ : BufTy).Contents (Elt F)) (cast_eq _ _)
theorem rd_main_v48 (V : Valuation τ sig (Elt F)) :
    after (ValueP.ops (F := F)) V (Proc.devRef .tc main_v48) = ReadP.val_main_v48 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) := by
  rw [Cert.Ssa.read_binary hW 74 main_call1_v5 main_call1_v10 main_v48 _ _ _ _ rfl V (by decide) (by decide) (by decide), rd_main_call1_v5, rd_main_call1_v10]
  refine (cast_eq _ _).trans ?_
  exact congrArg₂ (subf : (⟨S1x50257, .f32⟩ : BufTy).Contents (Elt F) → (⟨S1x50257, .f32⟩ : BufTy).Contents (Elt F) → (⟨S1x50257, .f32⟩ : BufTy).Contents (Elt F)) (cast_eq _ _) (cast_eq _ _)
theorem rd_main_v49 (V : Valuation τ sig (Elt F)) :
    after (ValueP.ops (F := F)) V (Proc.devRef .tc main_v49) = ReadP.val_main_v49 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) := by
  rw [Cert.Ssa.read_unary hW 75 main_v43 main_v49 _ _ _ rfl V (by decide) (by decide), rd_main_v43]
  rfl

/-! ## The run -/

/-- Every weakly fair execution of the reference's @main terminates with the three results at their stages of the
    arguments' launch contents and the fourteen arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v48) = ReadP.val_main_v48 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
      ∧ r.2.mem ((c.tc : Thread nD τ).loc main_v49) = ReadP.val_main_v49 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_v26) = ReadP.val_main_v26 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun _ h c => ⟨(h c main_v48).trans (rd_main_v48 _), (h c main_v49).trans (rd_main_v49 _), (h c main_v26).trans (rd_main_v26 _),
      (h c main_arg0).trans (kp_main_arg0 _), (h c main_arg1).trans (kp_main_arg1 _), (h c main_arg2).trans (kp_main_arg2 _), (h c main_arg3).trans (kp_main_arg3 _), (h c main_arg4).trans (kp_main_arg4 _), (h c main_arg5).trans (kp_main_arg5 _), (h c main_arg6).trans (kp_main_arg6 _), (h c main_arg7).trans (kp_main_arg7 _), (h c main_arg8).trans (kp_main_arg8 _), (h c main_arg9).trans (kp_main_arg9 _), (h c main_arg10).trans (kp_main_arg10 _), (h c main_arg11).trans (kp_main_arg11 _), (h c main_arg12).trans (kp_main_arg12 _), (h c main_arg13).trans (kp_main_arg13 _)⟩)
    (run_seq ValueP.scopedRefs_eq ValueP.scopedSems_eq defs main (fun _ => ValueP.ops) ValueP.main_eq (fun _ => ValueP.ops_sub) m ρ
      (fun _ op hop => List.forall_iff_forall_mem.mp ValueP.ops_fresh op hop))

end Cert.ReferenceIdeal.RunP

end
-- ==== Proof.lean ====
/-
  The certificate of a one-step attention decoder: an embedding row and the previous hidden state attend over twelve
  encoder states (a softmax over twelve scores), the attended state is combined with the embedding through a rectified
  linear layer, one tanh recurrent step gives the new hidden state, and the new state is projected onto a vocabulary
  of 50257 entries and normalised by a log-softmax. The kernel computes the attention, the combination and the
  recurrent step in one region whose every operand is a single whole block, and the projection in a second region
  swept over fifteen vocabulary tiles of 3584, the last overhanging the vocabulary; the reference is the same
  arithmetic as one line of host operations.

  What is proved. Each program runs to the end on every weakly fair schedule, faults nowhere and leaves its fourteen
  argument arrays as launched: the word-level kernel with nothing said of its logits (at the word level an entry of a
  matrix product may depend on buffer words the clipped fetches never wrote); the idealized kernel with every buffer
  after the run named; the reference by the library's rule for a line of host operations, read one operation at a
  time. At the ideal values the two idealized programs return the same three arrays: a change of number format is
  the identity, a product into a zero accumulator is the host's contraction, a row reshaped to one row is its
  broadcast, the kernel's kept-axis reductions are the host's, the four-term sum before the tanh is regrouped by
  associativity of addition on the extended reals, an entry of a vocabulary tile reads only its own row of the
  matrix tile, and both programs end with the same host log-softmax of equal logits. No finiteness of the inputs is
  used. The idealization rewrote no operation, so the word-level kernel is its own text read at the ideal values.
-/
import proofs.«103420_j15728170238452_2_alg».proof.Defs
import proofs.«103420_j15728170238452_2_alg».proof.Proof.Gen.Kernel
import proofs.«103420_j15728170238452_2_alg».proof.Proof.Gen.KernelIdeal
import proofs.«103420_j15728170238452_2_alg».proof.Proof.Gen.ReferenceIdeal
import proofs.«103420_j15728170238452_2_alg».proof.Proof.Gen.Pre_finite_inputs
import proofs.«103420_j15728170238452_2_alg».proof.Proof.KbRun
import proofs.«103420_j15728170238452_2_alg».proof.Proof.KiValues
import proofs.«103420_j15728170238452_2_alg».proof.Proof.RefRun
import Idealize.ShloMosaic.Adequacy
import Idealize.ShloMosaic.Init

noncomputable section

namespace Cert.Proof

open Idealize.ShloMosaic Idealize.ShloMosaic.TcCoe Idealize.SL.Sem

/-- The word-level kernel's frame. -/
theorem frame_kernel : @Cert.frame_Kernel Cert.Kernel.Gen.facts Cert.Pre_finite_inputs.Gen.facts :=
  fun m ρ _ => Cert.Kernel.Hand.frame m ρ

/-- An unscoped TensorCore reference of the idealized kernel is among the buffers its run names at the end. -/
theorem uc_ki (b : Ref Cert.KernelIdeal.sig .tc) (h : ¬ (Proc.devRef .tc b : DevRef Cert.KernelIdeal.τ Cert.KernelIdeal.sig).isScoped) :
    Proc.devRef .tc b ∈ Pipeline.ucRefs Cert.KernelIdeal.τ Cert.KernelIdeal.sig :=
  Finset.mem_filter.mpr ⟨StableHlo.devRef_mem_tcRefs b, h⟩

/-- The idealized kernel's frame: its run names every buffer at the end, and the argument arrays there are the
    launch contents. -/
theorem frame_kernelIdeal : @Cert.frame_KernelIdeal Cert.KernelIdeal.Gen.facts Cert.Pre_finite_inputs.Gen.facts := fun m ρ _ =>
  (θ_run Cert.KernelIdeal.defs _ _).mono (fun r h c =>
    have hk := Cert.KernelIdeal.Hand.args_kept m ρ c
    ⟨(h c _ (uc_ki Cert.KernelIdeal.main_arg0 (by decide))).trans (hk Cert.KernelIdeal.main_arg0 (by decide)),
      (h c _ (uc_ki Cert.KernelIdeal.main_arg1 (by decide))).trans (hk Cert.KernelIdeal.main_arg1 (by decide)),
      (h c _ (uc_ki Cert.KernelIdeal.main_arg2 (by decide))).trans (hk Cert.KernelIdeal.main_arg2 (by decide)),
      (h c _ (uc_ki Cert.KernelIdeal.main_arg3 (by decide))).trans (hk Cert.KernelIdeal.main_arg3 (by decide)),
      (h c _ (uc_ki Cert.KernelIdeal.main_arg4 (by decide))).trans (hk Cert.KernelIdeal.main_arg4 (by decide)),
      (h c _ (uc_ki Cert.KernelIdeal.main_arg5 (by decide))).trans (hk Cert.KernelIdeal.main_arg5 (by decide)),
      (h c _ (uc_ki Cert.KernelIdeal.main_arg6 (by decide))).trans (hk Cert.KernelIdeal.main_arg6 (by decide)),
      (h c _ (uc_ki Cert.KernelIdeal.main_arg7 (by decide))).trans (hk Cert.KernelIdeal.main_arg7 (by decide)),
      (h c _ (uc_ki Cert.KernelIdeal.main_arg8 (by decide))).trans (hk Cert.KernelIdeal.main_arg8 (by decide)),
      (h c _ (uc_ki Cert.KernelIdeal.main_arg9 (by decide))).trans (hk Cert.KernelIdeal.main_arg9 (by decide)),
      (h c _ (uc_ki Cert.KernelIdeal.main_arg10 (by decide))).trans (hk Cert.KernelIdeal.main_arg10 (by decide)),
      (h c _ (uc_ki Cert.KernelIdeal.main_arg11 (by decide))).trans (hk Cert.KernelIdeal.main_arg11 (by decide)),
      (h c _ (uc_ki Cert.KernelIdeal.main_arg12 (by decide))).trans (hk Cert.KernelIdeal.main_arg12 (by decide)),
      (h c _ (uc_ki Cert.KernelIdeal.main_arg13 (by decide))).trans (hk Cert.KernelIdeal.main_arg13 (by decide))⟩)
    (Cert.KernelIdeal.Hand.run_all m ρ)

/-- The reference's frame: its run with the three results dropped. -/
theorem frame_reference : @Cert.frame_ReferenceIdeal Cert.ReferenceIdeal.Gen.facts Cert.Pre_finite_inputs.Gen.facts := fun m ρ _ =>
  (θ_run Cert.ReferenceIdeal.defs _ _).mono (fun _ h c => (h c).2.2.2) (Cert.ReferenceIdeal.RunP.run m ρ)

-- three chains of up to fourteen rewrites, each of which looks for its left side among all the argument arrays
set_option maxHeartbeats 4000000 in
/-- At the ideal values, from memories that agree on the arguments, both programs end with the reference's three
    stages of the arguments: the log-probabilities, the new hidden state and the attention weights. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => Cert.ReferenceIdeal.ReadP.val_main_v48 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)),
    fun c => Cert.ReferenceIdeal.ReadP.val_main_v49 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)),
    fun c => Cert.ReferenceIdeal.ReadP.val_main_v26 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · refine (θ_run Cert.KernelIdeal.defs _ _).mono (fun r h c => ?_) (Cert.KernelIdeal.Hand.run_all m ρ)
    have hk := Cert.KernelIdeal.Hand.args_kept m ρ c
    exact ⟨(h c _ (uc_ki Cert.KernelIdeal.main_v18 (by decide))).trans (Cert.KernelIdeal.Hand.out_logp m ρ c),
      (h c _ (uc_ki Cert.KernelIdeal.main_v19 (by decide))).trans (Cert.KernelIdeal.Hand.out_h m ρ c),
      (h c _ (uc_ki Cert.KernelIdeal.main_v15_1 (by decide))).trans (Cert.KernelIdeal.Hand.out_attn m ρ c),
      (h c _ (uc_ki Cert.KernelIdeal.main_arg0 (by decide))).trans (hk Cert.KernelIdeal.main_arg0 (by decide)),
      (h c _ (uc_ki Cert.KernelIdeal.main_arg1 (by decide))).trans (hk Cert.KernelIdeal.main_arg1 (by decide)),
      (h c _ (uc_ki Cert.KernelIdeal.main_arg2 (by decide))).trans (hk Cert.KernelIdeal.main_arg2 (by decide)),
      (h c _ (uc_ki Cert.KernelIdeal.main_arg3 (by decide))).trans (hk Cert.KernelIdeal.main_arg3 (by decide)),
      (h c _ (uc_ki Cert.KernelIdeal.main_arg4 (by decide))).trans (hk Cert.KernelIdeal.main_arg4 (by decide)),
      (h c _ (uc_ki Cert.KernelIdeal.main_arg5 (by decide))).trans (hk Cert.KernelIdeal.main_arg5 (by decide)),
      (h c _ (uc_ki Cert.KernelIdeal.main_arg6 (by decide))).trans (hk Cert.KernelIdeal.main_arg6 (by decide)),
      (h c _ (uc_ki Cert.KernelIdeal.main_arg7 (by decide))).trans (hk Cert.KernelIdeal.main_arg7 (by decide)),
      (h c _ (uc_ki Cert.KernelIdeal.main_arg8 (by decide))).trans (hk Cert.KernelIdeal.main_arg8 (by decide)),
      (h c _ (uc_ki Cert.KernelIdeal.main_arg9 (by decide))).trans (hk Cert.KernelIdeal.main_arg9 (by decide)),
      (h c _ (uc_ki Cert.KernelIdeal.main_arg10 (by decide))).trans (hk Cert.KernelIdeal.main_arg10 (by decide)),
      (h c _ (uc_ki Cert.KernelIdeal.main_arg11 (by decide))).trans (hk Cert.KernelIdeal.main_arg11 (by decide)),
      (h c _ (uc_ki Cert.KernelIdeal.main_arg12 (by decide))).trans (hk Cert.KernelIdeal.main_arg12 (by decide)),
      (h c _ (uc_ki Cert.KernelIdeal.main_arg13 (by decide))).trans (hk Cert.KernelIdeal.main_arg13 (by decide))⟩
  · refine (θ_run Cert.ReferenceIdeal.defs _ _).mono (fun r h c => ?_) (Cert.ReferenceIdeal.RunP.run m' ρ')
    obtain ⟨h48, h49, h26, hargs⟩ := h c
    obtain ⟨e0, e1, e2, e3, e4, e5, e6, e7, e8, e9, e10, e11, e12, e13⟩ := hagree c
    refine ⟨h48.trans ?_, h49.trans ?_, h26.trans ?_, hargs⟩
    · rw [e0, e1, e2, e3, e4, e5, e6, e7, e8, e9, e10, e11, e12, e13]
    · rw [e0, e1, e2, e3, e4, e5, e6, e7, e8, e9, e10, e11]
    · rw [e0, e1, e3, e4, e5]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
